-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x1600000 : Shape := ⟨2, ![2, 1600000]⟩
abbrev S1600000x8 : Shape := ⟨2, ![1600000, 8]⟩
abbrev S16x64 : Shape := ⟨2, ![16, 64]⟩
abbrev S64 : Shape := ⟨1, ![64]⟩
abbrev S64x64 : Shape := ⟨2, ![64, 64]⟩
abbrev S136x128 : Shape := ⟨2, ![136, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x64 .f32) (main_arg10 : FVec F S64 .f32) (main_arg11 : FVec F S64x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x64 .f32) (main_arg6 : FVec F S64 .f32) (main_arg7 : FVec F S136x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S136x128 .f32 := Host.absf main_arg7
  let main_cst_10 : FVec F S_ .f32 := constant S_ .f32 0x7F800000#32
  let main_v30 : FVec F S136x128 .f32 := broadcastInDim S136x128 ![] bcast_S_S136x128 main_cst_10
  let main_v31 : IVec S136x128 1 := cmpf .olt main_v29 main_v30
  let main_c_11 : IVec S_ 1 := constantI S_ 1 1#1
  let main_v32 : IVec S_ 1 := (fun x v => Host.reduce IntOp.andi x v reducesTo_S136x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x16 .f32) (main_arg1 : IVec S2x1600000 32) (main_arg2 : FVec F S1600000x8 .f32) (main_arg3 : FVec F S16x64 .f32) (main_arg4 : FVec F S64 .f32) (main_arg5 : FVec F S64x64 .f32) (main_arg6 : FVec F S64 .f32) (main_arg7 : FVec F S136x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x16 : Shape := ⟨2, ![50000, 16]⟩
abbrev S2x1600000 : Shape := ⟨2, ![2, 1600000]⟩
abbrev S1600000x8 : Shape := ⟨2, ![1600000, 8]⟩
abbrev S16x64 : Shape := ⟨2, ![16, 64]⟩
abbrev S64 : Shape := ⟨1, ![64]⟩
abbrev S64x64 : Shape := ⟨2, ![64, 64]⟩
abbrev S136x128 : Shape := ⟨2, ![136, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x16 : Shape := ⟨2, ![1650000, 16]⟩
abbrev S50000x64 : Shape := ⟨2, ![50000, 64]⟩
abbrev S5000x16 : Shape := ⟨2, ![5000, 16]⟩
abbrev S5000x64 : Shape := ⟨2, ![5000, 64]⟩
abbrev S1x64 : Shape := ⟨2, ![1, 64]⟩
abbrev S1650000x64 : Shape := ⟨2, ![1650000, 64]⟩
abbrev S1600000x1 : Shape := ⟨2, ![1600000, 1]⟩
abbrev S1600000x64 : Shape := ⟨2, ![1600000, 64]⟩
abbrev S1605632x64 : Shape := ⟨2, ![1605632, 64]⟩
abbrev S1605632x8 : Shape := ⟨2, ![1605632, 8]⟩
abbrev S64x128 : Shape := ⟨2, ![64, 128]⟩
abbrev S8x128 : Shape := ⟨2, ![8, 128]⟩
abbrev S1605632 : Shape := ⟨1, ![1605632]⟩
abbrev S8192x64 : Shape := ⟨2, ![8192, 64]⟩
abbrev S8192x8 : Shape := ⟨2, ![8192, 8]⟩
abbrev S8192 : Shape := ⟨1, ![8192]⟩
abbrev S8192x128 : Shape := ⟨2, ![8192, 128]⟩
abbrev S1x128 : Shape := ⟨2, ![1, 128]⟩
abbrev S8192x1 : Shape := ⟨2, ![8192, 1]⟩
abbrev S1x1 : Shape := ⟨2, ![1, 1]⟩

abbrev nBuf : Space → Nat
  | .hbm => 124
  | .vmem => 28
  | .smem => 0
  | _ => 0

abbrev bufTy : (tb : Table) → Fin (tcTables nBuf tb) → BufTy
  | .hbm, ⟨0, _⟩ => ⟨S50000x16, .f32⟩
  | .hbm, ⟨1, _⟩ => ⟨S2x1600000, .i32⟩
  | .hbm, ⟨2, _⟩ => ⟨S1600000x8, .f32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S136x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S1x1600000, .i32⟩
  | .hbm, ⟨18, _⟩ => ⟨S1600000, .i32⟩
  | .hbm, ⟨19, _⟩ => ⟨S1650000, .i32⟩
  | .hbm, ⟨20, _⟩ => ⟨S_, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000, .f32⟩
  | .hbm, ⟨52, _⟩ => ⟨S1650000, .f32⟩
  | .hbm, ⟨53, _⟩ => ⟨S_, .i32⟩
  | .hbm, ⟨54, _⟩ => ⟨S1650000, .i32⟩
  | .hbm, ⟨55, _⟩ => ⟨S1650000, .i1⟩
  | .hbm, ⟨56, _⟩ => ⟨S_, .i32⟩
  | .hbm, ⟨57, _⟩ => ⟨S1650000, .i32⟩
  | .hbm, ⟨58, _⟩ => ⟨S1650000, .i32⟩
  | .hbm, ⟨59, _⟩ => ⟨S1650000, .i32⟩
  | .hbm, ⟨60, _⟩ => ⟨S1650000x1, .i32⟩
  | .hbm, ⟨61, _⟩ => ⟨S1650000x16, .f32⟩
  | .hbm, ⟨62, _⟩ => ⟨S1650000x1, .f32⟩
  | .hbm, ⟨63, _⟩ => ⟨S1650000x16, .f32⟩
  | .hbm, ⟨64, _⟩ => ⟨S1650000x16, .f32⟩
  | .hbm, ⟨65, _⟩ => ⟨S_, .f32⟩
  | .hbm, ⟨66, _⟩ => ⟨S50000x16, .f32⟩
  | .hbm, ⟨67, _⟩ => ⟨S1650000x1, .i32⟩
  | .hbm, ⟨68, _⟩ => ⟨S50000x16, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S50000x64, .bf16⟩
  | .hbm, ⟨87, _⟩ => ⟨S1x1600000, .i32⟩
  | .hbm, ⟨88, _⟩ => ⟨S1600000, .i32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .bf16⟩
  | .hbm, ⟨98, _⟩ => ⟨S1x1600000, .i32⟩
  | .hbm, ⟨99, _⟩ => ⟨S1600000, .i32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .bf16⟩
  | .hbm, ⟨109, _⟩ => ⟨S_, .i32⟩
  | .hbm, ⟨110, _⟩ => ⟨S_, .bf16⟩
  | .hbm, ⟨111, _⟩ => ⟨S1605632x64, .bf16⟩
  | .hbm, ⟨112, _⟩ => ⟨S_, .i32⟩
  | .hbm, ⟨113, _⟩ => ⟨S_, .bf16⟩
  | .hbm, ⟨114, _⟩ => ⟨S1605632x64, .bf16⟩
  | .hbm, ⟨115, _⟩ => ⟨S1600000x8, .bf16⟩
  | .hbm, ⟨116, _⟩ => ⟨S_, .i32⟩
  | .hbm, ⟨117, _⟩ => ⟨S_, .bf16⟩
  | .hbm, ⟨118, _⟩ => ⟨S1605632x8, .bf16⟩
  | .hbm, ⟨119, _⟩ => ⟨S64x128, .f32⟩
  | .hbm, ⟨120, _⟩ => ⟨S64x128, .f32⟩
  | .hbm, ⟨121, _⟩ => ⟨S8x128, .f32⟩
  | .hbm, ⟨122, _⟩ => ⟨S1605632, .f32⟩
  | .hbm, ⟨123, _⟩ => ⟨S1600000, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .bf16⟩
  | .local _ .vmem, ⟨11, _⟩ => ⟨S5000x64, .bf16⟩
  | .local _ .vmem, ⟨12, _⟩ => ⟨S8192x64, .bf16⟩
  | .local _ .vmem, ⟨13, _⟩ => ⟨S8192x64, .bf16⟩
  | .local _ .vmem, ⟨14, _⟩ => ⟨S8192x64, .bf16⟩
  | .local _ .vmem, ⟨15, _⟩ => ⟨S8192x64, .bf16⟩
  | .local _ .vmem, ⟨16, _⟩ => ⟨S8192x8, .bf16⟩
  | .local _ .vmem, ⟨17, _⟩ => ⟨S8192x8, .bf16⟩
  | .local _ .vmem, ⟨18, _⟩ => ⟨S64x128, .f32⟩
  | .local _ .vmem, ⟨19, _⟩ => ⟨S64x128, .f32⟩
  | .local _ .vmem, ⟨20, _⟩ => ⟨S8x128, .f32⟩
  | .local _ .vmem, ⟨21, _⟩ => ⟨S128, .f32⟩
  | .local _ .vmem, ⟨22, _⟩ => ⟨S128x64, .f32⟩
  | .local _ .vmem, ⟨23, _⟩ => ⟨S64, .f32⟩
  | .local _ .vmem, ⟨24, _⟩ => ⟨S64x1, .f32⟩
  | .local _ .vmem, ⟨25, _⟩ => ⟨S1, .f32⟩
  | .local _ .vmem, ⟨26, _⟩ => ⟨S8192, .f32⟩
  | .local _ .vmem, ⟨27, _⟩ => ⟨S8192, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_call1_v0 : Ref sig .tc := ⟨.hbm, 110, rfl⟩
abbrev main_v76 : Ref sig .tc := ⟨.hbm, 111, rfl⟩
abbrev main_c_17 : Ref sig .tc := ⟨.hbm, 112, rfl⟩
abbrev main_call2_v0 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_call3_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg11_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem11_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S8192x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x8 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S8192 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  pads_S1600000x64_S1605632x64_056320_000 : S1600000x64.Pads (![0, 0] : Fin 2 → Nat) ![5632, 0] ![0, 0] S1605632x64
  h_S_ : 0 < S_.numel
  pads_S1600000x8_S1605632x8_056320_000 : S1600000x8.Pads (![0, 0] : Fin 2 → Nat) ![5632, 0] ![0, 0] S1605632x8
  slices_S136x128_S64x128_0_0 : S136x128.Slices ![0, 0] S64x128
  slices_S136x128_S64x128_64_0 : S136x128.Slices ![64, 0] S64x128
  slices_S136x128_S8x128_128_0 : S136x128.Slices ![128, 0] S8x128
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  broadcasts_S1x64_S8192x64 : S1x64.Broadcasts S8192x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S1605632_S1600000_0 : S1605632.Slices ![0] S1600000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  dot_S5000x16_S16x64_S5000x64_1_0_0_1_n_n_wf : DotDims.WF S5000x16 S16x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  dot_S8192x64_S64x128_S8192x128_1_0_0_1_n_n_wf : DotDims.WF S8192x64 S64x128 S8192x128 [1] [0] [0] [1] [] []
  dot_S8192x8_S8x128_S8192x128_1_0_0_1_n_n_wf : DotDims.WF S8192x8 S8x128 S8192x128 [1] [0] [0] [1] [] []
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1605632x64.size a
  hwx2_0 : ∀ i : grid2.Coords, EltTy.bits .bf16 = 32 ∨ (Rect.block (s := S1605632x64) S8192x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1605632x64.size a
  hwx2_1 : ∀ i : grid2.Coords, EltTy.bits .bf16 = 32 ∨ (Rect.block (s := S1605632x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x8.size a ≤ S1605632x8.size a
  hwx2_2 : ∀ i : grid2.Coords, EltTy.bits .bf16 = 32 ∨ (Rect.block (s := S1605632x8) S8192x8.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1.size a ≤ S1.size a
  hwx2_10 : ∀ i : grid2.Coords, EltTy.bits .f32 = 32 ∨ (Rect.block (s := S1) S1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S8192.size a ≤ S1605632.size a
  hwx2_11 : ∀ i : grid2.Coords, EltTy.bits .f32 = 32 ∨ (Rect.block (s := S1605632) S8192.size (cc2_transform_11 i) (hinb2_11 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8_S8x128_S8192x128_1_0_0_1_n_n : DotDims S8192x8 S8x128 S8192x128 where
  lhsContracting := [1]
  rhsContracting := [0]
  lhsNonContracting := [0]
  rhsNonContracting := [1]
  lhsBatch := []
  rhsBatch := []
  wf := dot_S8192x8_S8x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v42) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v76) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S8192x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S64x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg12) S1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v83) S8192.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x1600000 : Shape := ⟨2, ![2, 1600000]⟩
abbrev S1600000x8 : Shape := ⟨2, ![1600000, 8]⟩
abbrev S16x64 : Shape := ⟨2, ![16, 64]⟩
abbrev S64 : Shape := ⟨1, ![64]⟩
abbrev S64x64 : Shape := ⟨2, ![64, 64]⟩
abbrev S136x128 : Shape := ⟨2, ![136, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S1600000x1 : Shape := ⟨2, ![1600000, 1]⟩
abbrev S1600000x64 : Shape := ⟨2, ![1600000, 64]⟩
abbrev S1600000x136 : Shape := ⟨2, ![1600000, 136]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x16, .f32⟩
  | 1 => ⟨S2x1600000, .i32⟩
  | 2 => ⟨S1600000x8, .f32⟩
  | 3 => ⟨S16x64, .f32⟩
  | 4 => ⟨S64, .f32⟩
  | 5 => ⟨S64x64, .f32⟩
  | 6 => ⟨S64, .f32⟩
  | 7 => ⟨S136x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S50000, .i32⟩
  | 14 => ⟨S1x1600000, .i32⟩
  | 15 => ⟨S1600000, .i32⟩
  | 16 => ⟨S1650000, .i32⟩
  | 17 => ⟨S1x1600000, .i32⟩
  | 18 => ⟨S1600000, .i32⟩
  | 19 => ⟨S1650000, .i32⟩
  | 20 => ⟨S_, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S50000x64, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000, .f32⟩
  | 53 => ⟨S1650000, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000x64, .f32⟩
  | 63 => ⟨S1650000x1, .f32⟩
  | 64 => ⟨S1650000x64, .f32⟩
  | 65 => ⟨S1650000x64, .f32⟩
  | 66 => ⟨S_, .f32⟩
  | 67 => ⟨S50000x64, .f32⟩
  | 68 => ⟨S1650000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .i32⟩
  | 78 => ⟨S1650000, .i32⟩
  | 79 => ⟨S1650000, .i1⟩
  | 80 => ⟨S_, .i32⟩
  | 81 => ⟨S1650000, .i32⟩
  | 82 => ⟨S1650000, .i32⟩
  | 83 => ⟨S1650000, .i32⟩
  | 84 => ⟨S1650000x1, .i32⟩
  | 85 => ⟨S1650000, .f32⟩
  | 86 => ⟨S_, .i32⟩
  | 87 => ⟨S1650000, .i32⟩
  | 88 => ⟨S1650000, .i1⟩
  | 89 => ⟨S_, .i32⟩
  | 90 => ⟨S1650000, .i32⟩
  | 91 => ⟨S1650000, .i32⟩
  | 92 => ⟨S1650000, .i32⟩
  | 93 => ⟨S1650000x1, .i32⟩
  | 94 => ⟨S1650000, .f32⟩
  | 95 => ⟨S1650000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000x64, .f32⟩
  | 105 => ⟨S1650000x1, .f32⟩
  | 106 => ⟨S1650000x64, .f32⟩
  | 107 => ⟨S1650000x64, .f32⟩
  | 108 => ⟨S_, .f32⟩
  | 109 => ⟨S50000x64, .f32⟩
  | 110 => ⟨S1650000x1, .i32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S1x1600000, .i32⟩
  | 119 => ⟨S1600000, .i32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S50000x16, .f32⟩

abbrev hbmTy0_1 (i : Nat) : BufTy := match i % 128 with
  | 0 => ⟨S1600000x64, .f32⟩
  | 1 => ⟨S1x1600000, .i32⟩
  | 2 => ⟨S1600000, .i32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S1600000x136, .f32⟩
  | 13 => ⟨S1600000x128, .f32⟩
  | 14 => ⟨S1x128, .f32⟩
  | 15 => ⟨S1600000x128, .f32⟩
  | 16 => ⟨S1600000x128, .f32⟩
  | 17 => ⟨S_, .f32⟩
  | 18 => ⟨S1600000x128, .f32⟩
  | 19 => ⟨S1600000x128, .f32⟩
  | 20 => ⟨S1600000x64, .f32⟩
  | 21 => ⟨S1x64, .f32⟩
  | 22 => ⟨S1600000x64, .f32⟩
  | 23 => ⟨S1600000x64, .f32⟩
  | 24 => ⟨S_, .f32⟩
  | 25 => ⟨S1600000x64, .f32⟩
  | 26 => ⟨S1600000x64, .f32⟩
  | 27 => ⟨S1600000x1, .f32⟩
  | 28 => ⟨S1x1, .f32⟩
  | 29 => ⟨S1600000x1, .f32⟩
  | 30 => ⟨S1600000x1, .f32⟩
  | 31 => ⟨S1600000, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_18 : Ref sig .tc := ⟨.hbm, 131, rfl⟩
abbrev main_v92 : Ref sig .tc := ⟨.hbm, 132, rfl⟩
abbrev main_v93 : Ref sig .tc := ⟨.hbm, 133, rfl⟩
abbrev main_c_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call3_cst : Ref sig .tc := ⟨.hbm, 145, rfl⟩
abbrev main_call3_v0 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call4_cst : Ref sig .tc := ⟨.hbm, 152, rfl⟩
abbrev main_call4_v0 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x8_S1600000x136_d1 : Shape.Concatenates [S1600000x64, S1600000x64, S1600000x8] S1600000x136 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  scatter_S50000_S1650000x1_S1650000_n_0_0_1_wf : ScatterDims.WF S50000 S1650000x1 S1650000 [] [0] [0] 1
  dot_S50000x16_S16x64_S50000x64_1_0_0_1_n_n_wf : DotDims.WF S50000x16 S16x64 S50000x64 [1] [0] [0] [1] [] []
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  dot_S1600000x136_S136x128_S1600000x128_1_0_0_1_n_n_wf : DotDims.WF S1600000x136 S136x128 S1600000x128 [1] [0] [0] [1] [] []
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x136_S136x128_S1600000x128_1_0_0_1_n_n : DotDims S1600000x136 S136x128 S1600000x128 where
  lhsContracting := [1]
  rhsContracting := [0]
  lhsNonContracting := [0]
  rhsNonContracting := [1]
  lhsBatch := []
  rhsBatch := []
  wf := dot_S1600000x136_S136x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.KernelRun.lean ====
/-
  The idealized kernel's run with its result named.

  @main is fifteen segments: stretches of host operations and three kernel launches. The buffer contents at each
  boundary are a fold from the launch memory: a host stretch applies its operations, a launch leaves each of its
  output arrays at what its grid points wrote back and every other buffer as it found it. Every weakly fair execution
  terminates, nothing faulting, with every unscoped buffer at the last boundary's contents — in particular the result
  buffer (the last slice) and the thirteen arguments, which no segment writes.
-/
import proofs.«176707_j76776835383553_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault; the result buffer then holds the last
    boundary's contents `W15 m ρ c` at the result, and the thirteen arguments are as launched. -/
theorem run_result : θ_run defs (onTc (τ := τ) (main (F := F))) ⟨m, fun _ => 0, ρ⟩ (fun r => ∀ c : Dev nD,
      r.2.mem ((c.tc : Thread nD τ).loc main_v84) = W15 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v84 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.Whole

end
-- ==== Proof.KernelHost.lean ====
/-
  The idealized kernel's host operations, stretch by stretch.

  Between its three launches the kernel's @main does on the host what the reference does: it extends the edge table by
  the self-loops, counts degrees, forms the edge weights, and for each graph layer reads the source rows, scales them
  by the edge weights and adds them into the target rows; before the last launch it reads the final table at the two
  endpoints of every given edge, pads these and the edge attributes with 5632 zero rows, and cuts the first weight
  matrix into its three row blocks; after it, it drops the padded rows again. Each lemma below names what ONE buffer
  holds after a stretch, as a function of what the stretch found.
-/
import proofs.«176707_j76776835383553_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

/-! ## The stages, as functions of what they read -/

abbrev zero0 : FVec Ideal S_ .f32 := constant (F := Ideal) S_ .f32 0x00000000#32
abbrev one0 : FVec Ideal S_ .f32 := constant (F := Ideal) S_ .f32 0x3F800000#32

/-- Row `r` of the edge table followed by the node numbers: the sources (`r = 0`) or targets (`r = 1`) of the extended edges. -/
abbrev extVec (tb : IVec S2x1600000 32) (r : Nat) (hs : S2x1600000.Slices ![r, 0] S1x1600000) : IVec S1650000 32 :=
  concatenate S1650000 0 [⟨S1600000, shapeCast S1600000 (extractStridedSlice S1x1600000 ![r, 0] tb hs) shapeCasts_S1x1600000_S1600000⟩,
    ⟨S50000, iotaInDim S50000 32 0⟩] concatenates_S1600000_S50000_S1650000_d0

/-- Negative indices have 50000 added. -/
abbrev wrapV (v : IVec S1650000 32) : IVec S1650000 32 :=
  select (cmpi .slt v (broadcastInDim S1650000 ![] bcast_S_S1650000 (constantI S_ 32 0#32)))
    (addi v (broadcastInDim S1650000 ![] bcast_S_S1650000 (constantI S_ 32 50000#32))) v
abbrev colV (v : IVec S1650000 32) : IVec S1650000x1 32 := broadcastInDim S1650000x1 ![0] bcast_S1650000_S1650000x1_0 v

/-- Degrees: ones added into zeros at the targets. -/
abbrev degV (v6 : IVec S1650000 32) : FVec Ideal S50000 .f32 :=
  Host.scatterAdd scatter_S50000_S1650000x1_S1650000_n_0_0_1 (broadcastInDim S50000 ![] bcast_S_S50000 zero0) (colV v6)
    (broadcastInDim S1650000 ![] bcast_S_S1650000 one0)
/-- Normalisers: the reciprocal square root where the degree is positive, zero elsewhere. -/
abbrev disV (d : FVec Ideal S50000 .f32) : FVec Ideal S50000 .f32 :=
  select (cmpf .ogt d (broadcastInDim S50000 ![] bcast_S_S50000 zero0)) (Host.rsqrt d) (broadcastInDim S50000 ![] bcast_S_S50000 zero0)
/-- Edge weights: the product of the normalisers read at the two endpoints. -/
abbrev nrmV (v3 v6 : IVec S1650000 32) : FVec Ideal S1650000 .f32 :=
  mulf (Host.gather gather_S50000_S1650000x1_S1650000_n_0_n_n_0_1_1 (disV (degV v6)) (colV (wrapV v3)))
    (Host.gather gather_S50000_S1650000x1_S1650000_n_0_n_n_0_1_1 (disV (degV v6)) (colV (wrapV v6)))

/-- Edge weights from a given normaliser vector. -/
abbrev nrmG (dv : FVec Ideal S50000 .f32) (v3 v6 : IVec S1650000 32) : FVec Ideal S1650000 .f32 :=
  mulf (Host.gather gather_S50000_S1650000x1_S1650000_n_0_n_n_0_1_1 dv (colV (wrapV v3)))
    (Host.gather gather_S50000_S1650000x1_S1650000_n_0_n_n_0_1_1 dv (colV (wrapV v6)))

/-- Aggregation of a 16-feature table: source rows scaled by the edge weights, added into the target rows of zeros. -/
abbrev agg16 (x : FVec Ideal S50000x16 .f32) (v3 v6 : IVec S1650000 32) (nr : FVec Ideal S1650000 .f32) : FVec Ideal S50000x16 .f32 :=
  Host.scatterAdd scatter_S50000x16_S1650000x1_S1650000x16_1_0_0_1 (broadcastInDim S50000x16 ![] bcast_S_S50000x16 zero0) (colV v6)
    (mulf (Host.gather gather_S50000x16_S1650000x1_S1650000x16_1_0_n_n_0_1_116 x (colV (wrapV v3)))
      (broadcastInDim S1650000x16 ![0, 1] bcast_S1650000x1_S1650000x16_0_1 (broadcastInDim S1650000x1 ![0] bcast_S1650000_S1650000x1_0 nr)))
/-- The same for a 64-feature table. -/
abbrev agg64 (x : FVec Ideal S50000x64 .f32) (v3 v6 : IVec S1650000 32) (nr : FVec Ideal S1650000 .f32) : FVec Ideal S50000x64 .f32 :=
  Host.scatterAdd scatter_S50000x64_S1650000x1_S1650000x64_1_0_0_1 (broadcastInDim S50000x64 ![] bcast_S_S50000x64 zero0) (colV v6)
    (mulf (Host.gather gather_S50000x64_S1650000x1_S1650000x64_1_0_n_n_0_1_164 x (colV (wrapV v3)))
      (broadcastInDim S1650000x64 ![0, 1] bcast_S1650000x1_S1650000x64_0_1 (broadcastInDim S1650000x1 ![0] bcast_S1650000_S1650000x1_0 nr)))

/-- Row `r` of the edge table alone: one endpoint of each given edge. -/
abbrev endV (tb : IVec S2x1600000 32) (r : Nat) (hs : S2x1600000.Slices ![r, 0] S1x1600000) : IVec S1600000 32 :=
  shapeCast S1600000 (extractStridedSlice S1x1600000 ![r, 0] tb hs) shapeCasts_S1x1600000_S1600000
abbrev wrapE (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v
abbrev colE (v : IVec S1600000 32) : IVec S1600000x1 32 := broadcastInDim S1600000x1 ![0] bcast_S1600000_S1600000x1_0 v
abbrev padZero : FVec Ideal S_ .bf16 := sitofp (F := Ideal) .bf16 (constantI S_ 32 0#32)
/-- The final table read at one endpoint of every given edge, then 5632 zero rows. -/
abbrev hEnd (h2 : FVec Ideal S50000x64 .bf16) (v : IVec S1600000 32) : FVec Ideal S1605632x64 .bf16 :=
  pad S1605632x64 ![0, 0] ![5632, 0] ![0, 0]
    (Host.gather gather_S50000x64_S1600000x1_S1600000x64_1_0_n_n_0_1_164 h2 (colE (wrapE v))) padZero pads_S1600000x64_S1605632x64_056320_000 h_S_
/-- The edge attributes in the narrower float format, then 5632 zero rows. -/
abbrev eaPad (ea : FVec Ideal S1600000x8 .f32) : FVec Ideal S1605632x8 .bf16 :=
  pad S1605632x8 ![0, 0] ![5632, 0] ![0, 0] (truncf .bf16 ea bitsLt_bf16_f32) padZero pads_S1600000x8_S1605632x8_056320_000 h_S_

/-! ## One lemma per buffer per stretch: what it holds after the stretch, from what the stretch found (`Y`) -/

section Stretches
variable (Y : Valuation τ sig (Elt Ideal))

/-! ### The first stretch: the extended edges, the degrees -/
set_option maxHeartbeats 8000000 in
theorem s0_v3 : after hostOps0 Y (Proc.devRef .tc main_v3)
    = extVec (Y (Proc.devRef .tc main_arg1)) 0 slices_S2x1600000_S1x1600000_0_0 := by
  after_results_simp <;> rfl
set_option maxHeartbeats 8000000 in
theorem s0_v6 : after hostOps0 Y (Proc.devRef .tc main_v6)
    = extVec (Y (Proc.devRef .tc main_arg1)) 1 slices_S2x1600000_S1x1600000_1_0 := by
  after_results_simp <;> rfl
set_option maxHeartbeats 8000000 in
theorem s0_v12 : after hostOps0 Y (Proc.devRef .tc main_v12)
    = cmpf .ogt (degV (extVec (Y (Proc.devRef .tc main_arg1)) 1 slices_S2x1600000_S1x1600000_1_0)) (broadcastInDim S50000 ![] bcast_S_S50000 zero0) := by
  after_results_simp <;> rfl
set_option maxHeartbeats 8000000 in
theorem s0_v13 : after hostOps0 Y (Proc.devRef .tc main_v13)
    = Host.rsqrt (degV (extVec (Y (Proc.devRef .tc main_arg1)) 1 slices_S2x1600000_S1x1600000_1_0)) := by
  after_results_simp <;> rfl
set_option maxHeartbeats 8000000 in
theorem s0_cst2 : after hostOps0 Y (Proc.devRef .tc main_cst_2)
    = zero0 := by
  after_results_simp <;> rfl
set_option maxHeartbeats 8000000 in
theorem s0_arg0 : after hostOps0 Y (Proc.devRef .tc main_arg0)
    = Y (Proc.devRef .tc main_arg0) := by
  after_results_simp <;> rfl

/-! ### The selection stretch: the normalisers -/
set_option maxHeartbeats 8000000 in
theorem s01_v14 : after hostOps0_1 Y (Proc.devRef .tc main_v14)
    = select (Y (Proc.devRef .tc main_v12) : IVec S50000 1) (Y (Proc.devRef .tc main_v13) : FVec Ideal S50000 .f32)
        (broadcastInDim S50000 ![] bcast_S_S50000 (Y (Proc.devRef .tc main_cst_2) : FVec Ideal S_ .f32)) := by
  after_results_simp <;> rfl
set_option maxHeartbeats 8000000 in
theorem s01_v3 : after hostOps0_1 Y (Proc.devRef .tc main_v3)
    = Y (Proc.devRef .tc main_v3) := by
  after_results_simp <;> rfl
set_option maxHeartbeats 8000000 in
theorem s01_v6 : after hostOps0_1 Y (Proc.devRef .tc main_v6)
    = Y (Proc.devRef .tc main_v6) := by
  after_results_simp <;> rfl
set_option maxHeartbeats 8000000 in
theorem s01_arg0 : after hostOps0_1 Y (Proc.devRef .tc main_arg0)
    = Y (Proc.devRef .tc main_arg0) := by
  after_results_simp <;> rfl

/-! ### The third stretch: the edge weights, the first aggregation -/
set_option maxHeartbeats 8000000 in
theorem s02_v29 : after hostOps0_2 Y (Proc.devRef .tc main_v29)
    = nrmG (Y (Proc.devRef .tc main_v14)) (Y (Proc.devRef .tc main_v3)) (Y (Proc.devRef .tc main_v6)) := by
  after_results_simp <;> rfl
set_option maxHeartbeats 8000000 in
theorem s02_v42 : after hostOps0_2 Y (Proc.devRef .tc main_v42)
    = agg16 (Y (Proc.devRef .tc main_arg0)) (Y (Proc.devRef .tc main_v3)) (Y (Proc.devRef .tc main_v6)) (nrmG (Y (Proc.devRef .tc main_v14)) (Y (Proc.devRef .tc main_v3)) (Y (Proc.devRef .tc main_v6))) := by
  after_results_simp <;> rfl
set_option maxHeartbeats 8000000 in
theorem s02_v3 : after hostOps0_2 Y (Proc.devRef .tc main_v3)
    = Y (Proc.devRef .tc main_v3) := by
  after_results_simp <;> rfl
set_option maxHeartbeats 8000000 in
theorem s02_v6 : after hostOps0_2 Y (Proc.devRef .tc main_v6)
    = Y (Proc.devRef .tc main_v6) := by
  after_results_simp <;> rfl

/-! ### Between the first two launches: the second aggregation -/
set_option maxHeartbeats 8000000 in
theorem s1_v56 : after hostOps1 Y (Proc.devRef .tc main_v56)
    = agg64 (Y (Proc.devRef .tc main_v43)) (Y (Proc.devRef .tc main_v3)) (Y (Proc.devRef .tc main_v6)) (Y (Proc.devRef .tc main_v29)) := by
  after_results_simp <;> rfl

/-! ### Before the last launch: the endpoint reads, the padding, the weight blocks -/
set_option maxHeartbeats 8000000 in
theorem s2_v66 : after hostOps2 Y (Proc.devRef .tc main_v66)
    = Host.gather gather_S50000x64_S1600000x1_S1600000x64_1_0_n_n_0_1_164 (Y (Proc.devRef .tc main_v57)) (colE (wrapE (endV (Y (Proc.devRef .tc main_arg1)) 0 slices_S2x1600000_S1x1600000_0_0))) := by
  after_results_simp <;> rfl
set_option maxHeartbeats 8000000 in
theorem s2_v75 : after hostOps2 Y (Proc.devRef .tc main_v75)
    = Host.gather gather_S50000x64_S1600000x1_S1600000x64_1_0_n_n_0_1_164 (Y (Proc.devRef .tc main_v57)) (colE (wrapE (endV (Y (Proc.devRef .tc main_arg1)) 1 slices_S2x1600000_S1x1600000_1_0))) := by
  after_results_simp <;> rfl
set_option maxHeartbeats 8000000 in
theorem s2_c16 : after hostOps2 Y (Proc.devRef .tc main_c_16)
    = constantI S_ 32 0#32 := by
  after_results_simp <;> rfl
set_option maxHeartbeats 8000000 in
theorem s21_v76 : after hostOps2_1 Y (Proc.devRef .tc main_v76)
    = pad S1605632x64 ![0, 0] ![5632, 0] ![0, 0] (Y (Proc.devRef .tc main_v66) : FVec Ideal S1600000x64 .bf16) (sitofp (F := Ideal) .bf16 (Y (Proc.devRef .tc main_c_16) : IVec S_ 32)) pads_S1600000x64_S1605632x64_056320_000 h_S_ := by
  after_results_simp <;> rfl
set_option maxHeartbeats 8000000 in
theorem s21_v75 : after hostOps2_1 Y (Proc.devRef .tc main_v75)
    = Y (Proc.devRef .tc main_v75) := by
  after_results_simp <;> rfl
set_option maxHeartbeats 8000000 in
theorem s22_c17 : after hostOps2_2 Y (Proc.devRef .tc main_c_17)
    = constantI S_ 32 0#32 := by
  after_results_simp <;> rfl
set_option maxHeartbeats 8000000 in
theorem s22_v75 : after hostOps2_2 Y (Proc.devRef .tc main_v75)
    = Y (Proc.devRef .tc main_v75) := by
  after_results_simp <;> rfl
set_option maxHeartbeats 8000000 in
theorem s22_v76 : after hostOps2_2 Y (Proc.devRef .tc main_v76)
    = Y (Proc.devRef .tc main_v76) := by
  after_results_simp <;> rfl
set_option maxHeartbeats 8000000 in
theorem s23_v77 : after hostOps2_3 Y (Proc.devRef .tc main_v77)
    = pad S1605632x64 ![0, 0] ![5632, 0] ![0, 0] (Y (Proc.devRef .tc main_v75) : FVec Ideal S1600000x64 .bf16) (sitofp (F := Ideal) .bf16 (Y (Proc.devRef .tc main_c_17) : IVec S_ 32)) pads_S1600000x64_S1605632x64_056320_000 h_S_ := by
  after_results_simp <;> rfl
set_option maxHeartbeats 8000000 in
theorem s23_v76 : after hostOps2_3 Y (Proc.devRef .tc main_v76)
    = Y (Proc.devRef .tc main_v76) := by
  after_results_simp <;> rfl
set_option maxHeartbeats 8000000 in
theorem s24_v78 : (after hostOps2_4 Y (Proc.devRef .tc main_v78) : FVec Ideal S1600000x8 .bf16)
    = truncf (F := Ideal) .bf16 (Y (Proc.devRef .tc main_arg2) : FVec Ideal S1600000x8 .f32) bitsLt_bf16_f32 := by
  after_results_simp <;> rfl
set_option maxHeartbeats 8000000 in
theorem s24_c18 : after hostOps2_4 Y (Proc.devRef .tc main_c_18)
    = constantI S_ 32 0#32 := by
  after_results_simp <;> rfl
set_option maxHeartbeats 8000000 in
theorem s24_v76 : after hostOps2_4 Y (Proc.devRef .tc main_v76)
    = Y (Proc.devRef .tc main_v76) := by
  after_results_simp <;> rfl
set_option maxHeartbeats 8000000 in
theorem s24_v77 : after hostOps2_4 Y (Proc.devRef .tc main_v77)
    = Y (Proc.devRef .tc main_v77) := by
  after_results_simp <;> rfl
set_option maxHeartbeats 8000000 in
theorem s25_v79 : after hostOps2_5 Y (Proc.devRef .tc main_v79)
    = pad S1605632x8 ![0, 0] ![5632, 0] ![0, 0] (Y (Proc.devRef .tc main_v78) : FVec Ideal S1600000x8 .bf16) (sitofp (F := Ideal) .bf16 (Y (Proc.devRef .tc main_c_18) : IVec S_ 32)) pads_S1600000x8_S1605632x8_056320_000 h_S_ := by
  after_results_simp <;> rfl
set_option maxHeartbeats 8000000 in
theorem s25_v76 : after hostOps2_5 Y (Proc.devRef .tc main_v76)
    = Y (Proc.devRef .tc main_v76) := by
  after_results_simp <;> rfl
set_option maxHeartbeats 8000000 in
theorem s25_v77 : after hostOps2_5 Y (Proc.devRef .tc main_v77)
    = Y (Proc.devRef .tc main_v77) := by
  after_results_simp <;> rfl
set_option maxHeartbeats 8000000 in
theorem s26_v80 : after hostOps2_6 Y (Proc.devRef .tc main_v80)
    = extractStridedSlice S64x128 ![0, 0] (Y (Proc.devRef .tc main_arg7) : FVec Ideal S136x128 .f32) slices_S136x128_S64x128_0_0 := by
  after_results_simp <;> rfl
set_option maxHeartbeats 8000000 in
theorem s26_v81 : after hostOps2_6 Y (Proc.devRef .tc main_v81)
    = extractStridedSlice S64x128 ![64, 0] (Y (Proc.devRef .tc main_arg7) : FVec Ideal S136x128 .f32) slices_S136x128_S64x128_64_0 := by
  after_results_simp <;> rfl
set_option maxHeartbeats 8000000 in
theorem s26_v82 : after hostOps2_6 Y (Proc.devRef .tc main_v82)
    = extractStridedSlice S8x128 ![128, 0] (Y (Proc.devRef .tc main_arg7) : FVec Ideal S136x128 .f32) slices_S136x128_S8x128_128_0 := by
  after_results_simp <;> rfl
set_option maxHeartbeats 8000000 in
theorem s26_v76 : after hostOps2_6 Y (Proc.devRef .tc main_v76)
    = Y (Proc.devRef .tc main_v76) := by
  after_results_simp <;> rfl
set_option maxHeartbeats 8000000 in
theorem s26_v77 : after hostOps2_6 Y (Proc.devRef .tc main_v77)
    = Y (Proc.devRef .tc main_v77) := by
  after_results_simp <;> rfl
set_option maxHeartbeats 8000000 in
theorem s26_v79 : after hostOps2_6 Y (Proc.devRef .tc main_v79)
    = Y (Proc.devRef .tc main_v79) := by
  after_results_simp <;> rfl

/-! ### After the last launch: the padded rows dropped -/
set_option maxHeartbeats 8000000 in
theorem s3_v84 : after hostOps3 Y (Proc.devRef .tc main_v84)
    = extractStridedSlice S1600000 ![0] (Y (Proc.devRef .tc main_v83) : FVec Ideal S1605632 .f32) slices_S1605632_S1600000_0 := by
  after_results_simp <;> rfl

end Stretches

end Cert.KernelIdeal.Host

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.NodeBody.lean ====
/-
  The two node-layer kernel bodies read at one entry.

  Each body multiplies its block of node rows (5000 × K, K = 16 or 64) by the whole weight matrix (K × 64) into a zero
  accumulator, adds the bias vector to every row, and clamps below at zero. The changes of float format around the
  product are the identity on the extended reals. So entry `(p, j)` of what it stores is
  `max(Σ_q x0[p, q] · x1[q, j] + x2[j], 0)`.
-/
import proofs.«176707_j76776835383553_2_alg».proof.Proof.Gen.KernelIdeal.Skeleton
import proofs.«176707_j76776835383553_2_alg».proof.Proof.LibPlainDot
import proofs.«176707_j76776835383553_2_alg».proof.Proof.LibRowBias
import Idealize.ShloMosaic.Lib.ValueIdx
import Idealize.ShloMosaic.Lib.Pipeline.Value
import Idealize.ShloMosaic.PureOps.Ideal.Laws

noncomputable section

open scoped BigOperators

namespace Cert.KernelIdeal.NodeBody

open Cert.KernelIdeal Cert.KernelIdeal.Gen Idealize.ShloMosaic Idealize.ShloMosaic.ValueIdx

/-- The first layer's product contracts the 16 input features. -/
theorem plain16 : Cert.PlainDot.IsPlain dot_S5000x16_S16x64_S5000x64_1_0_0_1_n_n := ⟨rfl, rfl, rfl, rfl, rfl, rfl⟩

/-- The second layer's product contracts the 64 hidden features. -/
theorem plain64 : Cert.PlainDot.IsPlain dot_S5000x64_S64x64_S5000x64_1_0_0_1_n_n := ⟨rfl, rfl, rfl, rfl, rfl, rfl⟩

/-- The first layer's body at entry `(p, j)`. -/
theorem body16_apply (x0 : Vec Ideal S5000x16 .f32) (x1 : Vec Ideal S16x64 .f32) (x2 : Vec Ideal S64 .f32)
    (p : Fin 5000) (j : Fin 64) :
    k0_pay1 (F := Ideal) x0 x1 x2 (ix2 p j) = max ((∑ q : Fin 16, x0 (ix2 p q) * x1 (ix2 q j)) + x2 (ix1 j)) 0 := by
  unfold k0_pay1
  rw [maximumf_apply, addf_apply, broadcast_apply]
  refine congrArg₂ max (congrArg₂ (· + ·) ?_ ?_) ?_
  · refine (Cert.PlainDot.matmul_zero_apply plain16 none _ _ p j).trans ?_
    simp only [truncf_apply, shapeCast_self]
  · exact Cert.RowBias.bias_rows (by decide) x2 shapeCasts_S64_S1x64 broadcasts_S1x64_S5000x64 p j
  · exact Ideal.ofBits_zero_f32

/-- The second layer's body at entry `(p, j)`: the same value, stored in the narrower float format. -/
theorem body64_apply (x0 : Vec Ideal S5000x64 .f32) (x1 : Vec Ideal S64x64 .f32) (x2 : Vec Ideal S64 .f32)
    (p : Fin 5000) (j : Fin 64) :
    k1_pay1 (F := Ideal) x0 x1 x2 (ix2 p j) = max ((∑ q : Fin 64, x0 (ix2 p q) * x1 (ix2 q j)) + x2 (ix1 j)) 0 := by
  unfold k1_pay1
  rw [truncf_apply, maximumf_apply, addf_apply, broadcast_apply]
  refine congrArg₂ max (congrArg₂ (· + ·) ?_ ?_) ?_
  · refine (Cert.PlainDot.matmul_zero_apply plain64 none _ _ p j).trans ?_
    simp only [truncf_apply, shapeCast_self]
  · exact Cert.RowBias.bias_rows (by decide) x2 shapeCasts_S64_S1x64 broadcasts_S1x64_S5000x64 p j
  · exact Ideal.ofBits_zero_f32

end Cert.KernelIdeal.NodeBody

end
-- ==== Proof.NodeArray.lean ====
/-
  What each of the two node-layer launches leaves in its output array.

  The launch walks ten blocks of 5000 node rows. At block `t` the body reads rows `5000·t … 5000·t + 4999` of the
  aggregated features (16 per node in the first launch, 64 in the second), the whole weight matrix and the whole bias vector, and writes back block `t` of the output.
  The ten blocks tile the 50000 rows, so after the launch the output array is, entry by entry,
  `max(Σ_q A[n, q] · W[q, j] + b[j], 0)` of the arrays the launch found.
-/
import proofs.«176707_j76776835383553_2_alg».proof.Proof.Gen.KernelIdeal.Frame
import proofs.«176707_j76776835383553_2_alg».proof.Proof.NodeBody
import Idealize.ShloMosaic.Lib.Pipeline.Value
import Idealize.ShloMosaic.Lib.ValueIdx

set_option maxRecDepth 16384

noncomputable section

open scoped BigOperators

namespace Cert.KernelIdeal.NodeArray

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The dense half of a node layer: `max(A·W + b, 0)`, entry by entry. -/
def dense {K : Nat} (A : (⟨2, ![50000, K]⟩ : Shape).Idx → EReal) (W : (⟨2, ![K, 64]⟩ : Shape).Idx → EReal)
    (b : (⟨1, ![64]⟩ : Shape).Idx → EReal) : (⟨2, ![50000, 64]⟩ : Shape).Idx → EReal := fun i =>
  max ((∑ q : Fin K, A (ix2 (i 0) q) * W (ix2 q (i 1))) + b (ix1 (i 1))) 0

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## The first launch -/

/-- The printed index maps over the ten points: the row blocks of input and output move together with the point,
    every other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the dense layer of the arrays the launch found. -/
theorem flushed0 (c : Dev nD) (t : Fin cfg0.N) :
    (dat0 V c).flushed 3 t
      = ((cfg0.win 3).blk t).view.read (Elt Ideal) (dense (V c main_v42) (V c main_arg3) (V c main_arg4)) := by
  show (cfg0.win 3).cut (grid0.coords t) ((dat0 V c).after 3 t) = _
  rw [after0_3]
  unfold out0_3
  rw [View.canon_unit_zero hz2]
  simp only [View.ld_unit_zero (S := S5000x16) hz2, View.ld_unit_zero (S := S16x64) hz2, View.ld_unit_zero (S := S64) hz1]
  obtain ⟨e0, e1, e2, e3, e4, e5, e6⟩ := idx0 t
  funext j
  obtain ⟨p, q, rfl⟩ : ∃ (p : Fin 5000) (q : Fin 64), j = ix2 p q := ⟨j 0, j 1, eq_ix2 j⟩
  refine (NodeBody.body16_apply _ _ _ p q).trans ?_
  show _ = dense (V c main_v42) (V c main_arg3) (V c main_arg4) (((cfg0.win 3).blk t).view.emb (ix2 p q))
  unfold dense
  have r0 : ((((cfg0.win 3).blk t).view.emb (ix2 p q)) 0).val = win0_3.index t (0 : Fin 2) * 5000 + 1 * p.val := rfl
  have r1 : ((((cfg0.win 3).blk t).view.emb (ix2 p q)) 1).val = win0_3.index t (1 : Fin 2) * 64 + 1 * q.val := rfl
  refine congrArg₂ max (congrArg₂ (· + ·) (Finset.sum_congr rfl fun k _ => congrArg₂ (· * ·) ?_ ?_) ?_) rfl
  · show V c main_v42 (((cfg0.win 0).blk t).view.emb (ix2 p k)) = V c main_v42 _
    refine congrArg (V c main_v42) (funext fun a => Fin.ext ?_)
    match a with
    | ⟨0, _⟩ => show win0_0.index t (0 : Fin 2) * 5000 + 1 * p.val = _; rw [show (ix2 ((((cfg0.win 3).blk t).view.emb (ix2 p q)) 0) k (0 : Fin 2)).val = ((((cfg0.win 3).blk t).view.emb (ix2 p q)) 0).val from rfl, r0]; omega
    | ⟨1, _⟩ => show win0_0.index t (1 : Fin 2) * 16 + 1 * k.val = k.val; omega
  · show V c main_arg3 (((cfg0.win 1).blk t).view.emb (ix2 k q)) = V c main_arg3 _
    refine congrArg (V c main_arg3) (funext fun a => Fin.ext ?_)
    match a with
    | ⟨0, _⟩ => show win0_1.index t (0 : Fin 2) * 16 + 1 * k.val = k.val; omega
    | ⟨1, _⟩ => show win0_1.index t (1 : Fin 2) * 64 + 1 * q.val = _; rw [show (ix2 k ((((cfg0.win 3).blk t).view.emb (ix2 p q)) 1) (1 : Fin 2)).val = ((((cfg0.win 3).blk t).view.emb (ix2 p q)) 1).val from rfl, r1]; omega
  · show V c main_arg4 (((cfg0.win 2).blk t).view.emb (ix1 q)) = V c main_arg4 _
    refine congrArg (V c main_arg4) (funext fun a => Fin.ext ?_)
    match a with
    | ⟨0, _⟩ => show win0_2.index t (0 : Fin 1) * 64 + 1 * q.val = _; rw [show (ix1 ((((cfg0.win 3).blk t).view.emb (ix2 p q)) 1) (0 : Fin 1)).val = ((((cfg0.win 3).blk t).view.emb (ix2 p q)) 1).val from rfl, r1]; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v43).slice (win0_3.rect t)).set ↔ _
  rw [View.set_slice_whole, Rect.mem_set_unit]
  exact Iff.rfl

/-- Row `n` is in the block of point `n / 5000`: the ten blocks tile the array. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  let t : Fin cfg0.N := ⟨(i 0).val / 5000, by rw [show cfg0.N = 10 from N_0]; omega⟩
  obtain ⟨-, -, -, -, -, e5, e6⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e5]; show (i 0).val / 5000 * 5000 ≤ _ ∧ _ < (i 0).val / 5000 * 5000 + 5000; omega
  | ⟨1, _⟩ => show win0_3.index t (1 : Fin 2) * 64 ≤ (i 1).val ∧ (i 1).val < win0_3.index t (1 : Fin 2) * 64 + 64; omega

/-- THE FIRST LAUNCH'S OUTPUT ARRAY: the dense layer of the arrays the launch found, entry by entry. -/
theorem arr0 (c : Dev nD) :
    (dat0 V c).arrAt 3 cfg0.N = dense (V c main_v42) (V c main_arg3) (V c main_arg4) :=
  (dat0 V c).arrAt_eq_of_cover 3 _ (fun t _ => flushed0 V c t) cover0

/-! ## The second launch -/

/-- The printed index maps over the ten points: the row blocks of input and output move together with the point,
    every other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the dense layer of the arrays the launch found. -/
theorem flushed1 (c : Dev nD) (t : Fin cfg1.N) :
    (dat1 V c).flushed 3 t
      = ((cfg1.win 3).blk t).view.read (Elt Ideal) (dense (V c main_v56) (V c main_arg5) (V c main_arg6)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64x64) hz2, View.ld_unit_zero (S := S64) hz1]
  obtain ⟨e0, e1, e2, e3, e4, e5, e6⟩ := idx1 t
  funext j
  obtain ⟨p, q, rfl⟩ : ∃ (p : Fin 5000) (q : Fin 64), j = ix2 p q := ⟨j 0, j 1, eq_ix2 j⟩
  refine (NodeBody.body64_apply _ _ _ p q).trans ?_
  show _ = dense (V c main_v56) (V c main_arg5) (V c main_arg6) (((cfg1.win 3).blk t).view.emb (ix2 p q))
  unfold dense
  have r0 : ((((cfg1.win 3).blk t).view.emb (ix2 p q)) 0).val = win1_3.index t (0 : Fin 2) * 5000 + 1 * p.val := rfl
  have r1 : ((((cfg1.win 3).blk t).view.emb (ix2 p q)) 1).val = win1_3.index t (1 : Fin 2) * 64 + 1 * q.val := rfl
  refine congrArg₂ max (congrArg₂ (· + ·) (Finset.sum_congr rfl fun k _ => congrArg₂ (· * ·) ?_ ?_) ?_) rfl
  · show V c main_v56 (((cfg1.win 0).blk t).view.emb (ix2 p k)) = V c main_v56 _
    refine congrArg (V c main_v56) (funext fun a => Fin.ext ?_)
    match a with
    | ⟨0, _⟩ => show win1_0.index t (0 : Fin 2) * 5000 + 1 * p.val = _; rw [show (ix2 ((((cfg1.win 3).blk t).view.emb (ix2 p q)) 0) k (0 : Fin 2)).val = ((((cfg1.win 3).blk t).view.emb (ix2 p q)) 0).val from rfl, r0]; omega
    | ⟨1, _⟩ => show win1_0.index t (1 : Fin 2) * 64 + 1 * k.val = k.val; omega
  · show V c main_arg5 (((cfg1.win 1).blk t).view.emb (ix2 k q)) = V c main_arg5 _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * q.val = _; rw [show (ix2 k ((((cfg1.win 3).blk t).view.emb (ix2 p q)) 1) (1 : Fin 2)).val = ((((cfg1.win 3).blk t).view.emb (ix2 p q)) 1).val from rfl, r1]; omega
  · show V c main_arg6 (((cfg1.win 2).blk t).view.emb (ix1 q)) = V c main_arg6 _
    refine congrArg (V c main_arg6) (funext fun a => Fin.ext ?_)
    match a with
    | ⟨0, _⟩ => show win1_2.index t (0 : Fin 1) * 64 + 1 * q.val = _; rw [show (ix1 ((((cfg1.win 3).blk t).view.emb (ix2 p q)) 1) (0 : Fin 1)).val = ((((cfg1.win 3).blk t).view.emb (ix2 p q)) 1).val from rfl, r1]; omega

/-- An index of the output array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v57).slice (win1_3.rect t)).set ↔ _
  rw [View.set_slice_whole, Rect.mem_set_unit]
  exact Iff.rfl

/-- Row `n` is in the block of point `n / 5000`: the ten blocks tile the array. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨-, -, -, -, -, e5, e6⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e5]; show (i 0).val / 5000 * 5000 ≤ _ ∧ _ < (i 0).val / 5000 * 5000 + 5000; omega
  | ⟨1, _⟩ => show win1_3.index t (1 : Fin 2) * 64 ≤ (i 1).val ∧ (i 1).val < win1_3.index t (1 : Fin 2) * 64 + 64; omega

/-- THE SECOND LAUNCH'S OUTPUT ARRAY: the dense layer of the arrays the launch found, entry by entry. -/
theorem arr1 (c : Dev nD) :
    (dat1 V c).arrAt 3 cfg1.N = dense (V c main_v56) (V c main_arg5) (V c main_arg6) :=
  (dat1 V c).arrAt_eq_of_cover 3 _ (fun t _ => flushed1 V c t) cover1

end Cert.KernelIdeal.NodeArray

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.EdgeBody.lean ====
/-
  The per-edge network's kernel body read at one row.

  The body first forms a hidden layer of width 128 from three products into zero accumulators — the centre features
  (8192 × 64) by a 64 × 128 weight matrix, the neighbour features (8192 × 64) by a second 64 × 128 matrix and the edge
  attributes (8192 × 8) by an 8 × 128 matrix —, added as (first + second) + third, then the bias vector added to
  every row and a clamp below at zero. A second layer multiplies that by a 128 × 64 matrix, adds its bias and clamps
  again. The last layer multiplies by a 64 × 1 column, adds a bias of extent one and drops the unit axis. The changes
  of float format around the products are the identity on the extended reals. So row `r` of what it stores is
  `Σ_q hid2[r, q] · w3[q, 0] + b3[0]`.
-/
import proofs.«176707_j76776835383553_2_alg».proof.Proof.Gen.KernelIdeal.Skeleton
import proofs.«176707_j76776835383553_2_alg».proof.Proof.LibPlainDot
import proofs.«176707_j76776835383553_2_alg».proof.Proof.LibRowBias
import proofs.«176707_j76776835383553_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.EdgeBody

open Cert.KernelIdeal Cert.KernelIdeal.Gen Idealize.ShloMosaic Idealize.ShloMosaic.ValueIdx

/-- The products of the centre and of the neighbour features contract the 64 node features. -/
theorem plain_node : Cert.PlainDot.IsPlain dot_S8192x64_S64x128_S8192x128_1_0_0_1_n_n := ⟨rfl, rfl, rfl, rfl, rfl, rfl⟩

/-- The product of the edge attributes contracts the 8 attributes. -/
theorem plain_attr : Cert.PlainDot.IsPlain dot_S8192x8_S8x128_S8192x128_1_0_0_1_n_n := ⟨rfl, rfl, rfl, rfl, rfl, rfl⟩

/-- The second layer's product contracts the 128 hidden features. -/
theorem plain_hid : Cert.PlainDot.IsPlain dot_S8192x128_S128x64_S8192x64_1_0_0_1_n_n := ⟨rfl, rfl, rfl, rfl, rfl, rfl⟩

/-- The last layer's product contracts the 64 hidden features into one column. -/
theorem plain_out : Cert.PlainDot.IsPlain dot_S8192x64_S64x1_S8192x1_1_0_0_1_n_n := ⟨rfl, rfl, rfl, rfl, rfl, rfl⟩

/-- A vector of extent one, viewed as a `1×1` matrix and repeated down `R` rows of width one, holds the vector's one
    entry at every position: both axes of the `1×1` source have extent one, so both are read at coordinate zero. -/
theorem bias_one {α : Type} {R : Nat} (v : (⟨1, ![1]⟩ : Shape).Idx → α)
    (hs : (⟨1, ![1]⟩ : Shape).ShapeCasts ⟨2, ![1, 1]⟩) (hb : (⟨2, ![1, 1]⟩ : Shape).Broadcasts ⟨2, ![R, 1]⟩)
    (p : Fin R) (u : Fin 1) :
    broadcastTo ⟨2, ![R, 1]⟩ (shapeCast ⟨2, ![1, 1]⟩ v hs) hb (ix2 p u) = v (ix1 (0 : Fin 1)) := by
  rw [broadcastTo_apply _ hb (ix2 p u) (ix2 (0 : Fin 1) (0 : Fin 1)) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])]
  exact shapeCast_a_1a_apply v hs 0 0

/-- The first hidden layer at entry `(r, c)`, for any number `R` of rows: the three products, added as
    (first + second) + third, plus the bias, clamped below at zero. -/
def hid1 {R : Nat} (hc hn : (⟨2, ![R, 64]⟩ : Shape).Idx → EReal) (ea : (⟨2, ![R, 8]⟩ : Shape).Idx → EReal)
    (w1c w1n : (⟨2, ![64, 128]⟩ : Shape).Idx → EReal) (w1e : (⟨2, ![8, 128]⟩ : Shape).Idx → EReal)
    (b1 : (⟨1, ![128]⟩ : Shape).Idx → EReal) (r : Fin R) (c : Fin 128) : EReal :=
  max ((((∑ q : Fin 64, hc (ix2 r q) * w1c (ix2 q c)) + (∑ q : Fin 64, hn (ix2 r q) * w1n (ix2 q c)))
    + (∑ q : Fin 8, ea (ix2 r q) * w1e (ix2 q c))) + b1 (ix1 c)) 0

/-- The second hidden layer at entry `(r, c)`: the first layer times the 128 × 64 matrix, plus the bias, clamped below
    at zero. -/
def hid2 {R : Nat} (hc hn : (⟨2, ![R, 64]⟩ : Shape).Idx → EReal) (ea : (⟨2, ![R, 8]⟩ : Shape).Idx → EReal)
    (w1c w1n : (⟨2, ![64, 128]⟩ : Shape).Idx → EReal) (w1e : (⟨2, ![8, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (r : Fin R) (c : Fin 64) : EReal :=
  max ((∑ q : Fin 128, hid1 hc hn ea w1c w1n w1e b1 r q * w2 (ix2 q c)) + b2 (ix1 c)) 0

/-- The network's output on `R` rows: at row `i`, the second hidden layer times the 64 × 1 column, plus the one bias
    entry. -/
def out {R : Nat} (hc hn : (⟨2, ![R, 64]⟩ : Shape).Idx → EReal) (ea : (⟨2, ![R, 8]⟩ : Shape).Idx → EReal)
    (w1c w1n : (⟨2, ![64, 128]⟩ : Shape).Idx → EReal) (w1e : (⟨2, ![8, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (w3 : (⟨2, ![64, 1]⟩ : Shape).Idx → EReal)
    (b3 : (⟨1, ![1]⟩ : Shape).Idx → EReal) : (⟨1, ![R]⟩ : Shape).Idx → EReal :=
  fun i => (∑ q : Fin 64, hid2 hc hn ea w1c w1n w1e b1 w2 b2 (i 0) q * w3 (ix2 q (0 : Fin 1))) + b3 (ix1 (0 : Fin 1))

variable (hc hn : Vec Ideal S8192x64 .bf16) (ea : Vec Ideal S8192x8 .bf16) (w1c w1n : Vec Ideal S64x128 .f32)
  (w1e : Vec Ideal S8x128 .f32) (b1 : Vec Ideal S128 .f32) (w2 : Vec Ideal S128x64 .f32) (b2 : Vec Ideal S64 .f32)
  (w3 : Vec Ideal S64x1 .f32) (b3 : Vec Ideal S1 .f32)

/-- The first part of the body at entry `(r, c)` is the second hidden layer. -/
theorem part1_apply (r : Fin 8192) (c : Fin 64) :
    k2_pay2 (F := Ideal) hc hn ea w1c w1n w1e b1 w2 b2 (ix2 r c) = hid2 hc hn ea w1c w1n w1e b1 w2 b2 r c := by
  unfold k2_pay2 hid2
  refine (maximumf_apply _ _ _).trans ?_
  refine congrArg₂ max ((addf_apply _ _ _).trans (congrArg₂ (· + ·) ?_ ?_)) Ideal.ofBits_zero_f32
  · -- the second product, whose left operand is the first hidden layer
    refine (Cert.PlainDot.matmul_zero_apply plain_hid none _ _ r c).trans ?_
    refine Finset.sum_congr rfl fun q _ => congrArg₂ (· * ·) ?_ rfl
    unfold hid1
    refine (maximumf_apply _ _ _).trans ?_
    refine congrArg₂ max ((addf_apply _ _ _).trans (congrArg₂ (· + ·) ?_ ?_)) Ideal.ofBits_zero_f32
    · refine (addf_apply _ _ _).trans (congrArg₂ (· + ·) ((addf_apply _ _ _).trans (congrArg₂ (· + ·) ?_ ?_)) ?_)
      · refine (Cert.PlainDot.matmul_zero_apply plain_node none _ _ r q).trans ?_
        simp only [truncf_apply, shapeCast_self]
      · refine (Cert.PlainDot.matmul_zero_apply plain_node none _ _ r q).trans ?_
        simp only [truncf_apply, shapeCast_self]
      · refine (Cert.PlainDot.matmul_zero_apply plain_attr none _ _ r q).trans ?_
        simp only [truncf_apply, shapeCast_self]
    · exact Cert.RowBias.bias_rows (by decide) b1 shapeCasts_S128_S1x128 broadcasts_S1x128_S8192x128 r q
  · exact Cert.RowBias.bias_rows (by decide) b2 shapeCasts_S64_S1x64 broadcasts_S1x64_S8192x64 r c

/-- The whole body at row `r`: the second hidden layer times the 64 × 1 column, plus the one bias entry. -/
theorem body_apply (r : Fin 8192) :
    k2_pay1 (F := Ideal) (k2_pay2 hc hn ea w1c w1n w1e b1 w2 b2) w3 b3 (ix1 r)
      = (∑ q : Fin 64, hid2 hc hn ea w1c w1n w1e b1 w2 b2 r q * w3 (ix2 q (0 : Fin 1))) + b3 (ix1 (0 : Fin 1)) := by
  unfold k2_pay1
  refine (Cert.Lib.vec_of_col _ shapeCasts_S8192x1_S8192 r).trans ?_
  refine (addf_apply _ _ _).trans (congrArg₂ (· + ·) ?_ ?_)
  · refine (Cert.PlainDot.matmul_zero_apply plain_out none _ _ r (0 : Fin 1)).trans ?_
    exact Finset.sum_congr rfl fun q _ =>
      congrArg₂ (· * ·) (part1_apply hc hn ea w1c w1n w1e b1 w2 b2 r q) rfl
  · exact bias_one b3 shapeCasts_S1_S1x1 broadcasts_S1x1_S8192x1 r 0

end Cert.KernelIdeal.EdgeBody

end
-- ==== Proof.EdgeArray.lean ====
/-
  What the per-edge network's launch leaves in its output array.

  The launch walks 196 blocks of 8192 edge rows. At block `t` the body reads rows `8192·t … 8192·t + 8191` of the two
  endpoint feature tables (64 features per row) and of the edge attributes (8 per row), the whole of every weight
  matrix and bias vector, and writes back block `t` of the scores. The 196 blocks tile the 1605632 rows
  (1605632 = 196 · 8192), so after the launch the output array is, row by row, the three-layer network of the arrays
  the launch found.
-/
import proofs.«176707_j76776835383553_2_alg».proof.Proof.Gen.KernelIdeal.Frame
import proofs.«176707_j76776835383553_2_alg».proof.Proof.EdgeBody
import Idealize.ShloMosaic.Lib.Pipeline.Value
import Idealize.ShloMosaic.Lib.ValueIdx

set_option maxRecDepth 16384

noncomputable section

open scoped BigOperators

namespace Cert.KernelIdeal.EdgeArray

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The offset of a rank-2 access that starts at the origin is zero on both axes. -/
theorem hz2 : (![0, 0] : Fin 2 → Nat) = fun _ => 0 := funext fun a => by fin_cases a <;> rfl

/-- The offset of a rank-1 access that starts at the origin is zero. -/
theorem hz1 : (![0] : Fin 1 → Nat) = fun _ => 0 := funext fun a => by fin_cases a; rfl

variable (V : (c : Dev nD) → (b : Ref sig .tc) → Buf (Elt Ideal) ((c : Thread nD τ).loc b))

/-- The printed index maps of the row-blocked windows over the 196 points: the row blocks of the three inputs and of
    the output move together with the point, their column block index is zero. -/
theorem idxRow : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_11.index t (0 : Fin 1) = t.val :=
  (by decide +kernel : ∀ t : Fin grid2.N, _)

/-- The printed index maps of the first layer's weights and bias over the 196 points: every block index is zero. -/
theorem idxW1 : ∀ t : Fin cfg2.N, win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0 :=
  (by decide +kernel : ∀ t : Fin grid2.N, _)

/-- The printed index maps of the later layers' weights and biases over the 196 points: every block index is zero. -/
theorem idxW2 : ∀ t : Fin cfg2.N, win2_7.index t (0 : Fin 2) = 0 ∧ win2_7.index t (1 : Fin 2) = 0
    ∧ win2_8.index t (0 : Fin 1) = 0
    ∧ win2_9.index t (0 : Fin 2) = 0 ∧ win2_9.index t (1 : Fin 2) = 0
    ∧ win2_10.index t (0 : Fin 1) = 0 :=
  (by decide +kernel : ∀ t : Fin grid2.N, _)

/-- The row of the whole array that row `r` of point `t`'s output block is. -/
def row (t : Fin cfg2.N) (r : Fin 8192) : Fin 1605632 := (((cfg2.win 11).blk t).view.emb (ix1 r)) 0

/-- That row is `8192 · t + r`. -/
theorem row_val (t : Fin cfg2.N) (r : Fin 8192) : (row t r).val = t.val * 8192 + r.val := by
  obtain ⟨-, -, -, -, -, -, e⟩ := idxRow t
  show win2_11.index t (0 : Fin 1) * 8192 + 1 * r.val = _
  rw [e]; omega

/-! ## The blocks the body reads, as entries of the arrays the launch found -/

/-- Row `r` of point `t`'s block of the first endpoint table is row `8192 · t + r` of the table. -/
theorem read0 (c : Dev nD) (t : Fin cfg2.N) (r : Fin 8192) (q : Fin 64) :
    iblk2 (F := Ideal) V c 0 t (ix2 r q) = V c main_v76 (ix2 (row t r) q) := by
  obtain ⟨e0, e1, -, -, -, -, -⟩ := idxRow t
  have hr := row_val t r
  show V c main_v76 (((cfg2.win 0).blk t).view.emb (ix2 r q)) = V c main_v76 _
  refine congrArg (V c main_v76) (funext fun a => Fin.ext ?_)
  match a with
  | ⟨0, _⟩ => show win2_0.index t (0 : Fin 2) * 8192 + 1 * r.val = (row t r).val; omega
  | ⟨1, _⟩ => show win2_0.index t (1 : Fin 2) * 64 + 1 * q.val = q.val; omega

/-- Row `r` of point `t`'s block of the second endpoint table is row `8192 · t + r` of the table. -/
theorem read1 (c : Dev nD) (t : Fin cfg2.N) (r : Fin 8192) (q : Fin 64) :
    iblk2 (F := Ideal) V c 1 t (ix2 r q) = V c main_v77 (ix2 (row t r) q) := by
  obtain ⟨-, -, e0, e1, -, -, -⟩ := idxRow t
  have hr := row_val t r
  show V c main_v77 (((cfg2.win 1).blk t).view.emb (ix2 r q)) = V c main_v77 _
  refine congrArg (V c main_v77) (funext fun a => Fin.ext ?_)
  match a with
  | ⟨0, _⟩ => show win2_1.index t (0 : Fin 2) * 8192 + 1 * r.val = (row t r).val; omega
  | ⟨1, _⟩ => show win2_1.index t (1 : Fin 2) * 64 + 1 * q.val = q.val; omega

/-- Row `r` of point `t`'s block of the edge attributes is row `8192 · t + r` of the attributes. -/
theorem read2 (c : Dev nD) (t : Fin cfg2.N) (r : Fin 8192) (q : Fin 8) :
    iblk2 (F := Ideal) V c 2 t (ix2 r q) = V c main_v79 (ix2 (row t r) q) := by
  obtain ⟨-, -, -, -, e0, e1, -⟩ := idxRow t
  have hr := row_val t r
  show V c main_v79 (((cfg2.win 2).blk t).view.emb (ix2 r q)) = V c main_v79 _
  refine congrArg (V c main_v79) (funext fun a => Fin.ext ?_)
  match a with
  | ⟨0, _⟩ => show win2_2.index t (0 : Fin 2) * 8192 + 1 * r.val = (row t r).val; omega
  | ⟨1, _⟩ => show win2_2.index t (1 : Fin 2) * 8 + 1 * q.val = q.val; omega

/-- Every point's block of the first 64 × 128 weight matrix is the whole matrix. -/
theorem read3 (c : Dev nD) (t : Fin cfg2.N) (q : Fin 64) (k : Fin 128) :
    iblk2 (F := Ideal) V c 3 t (ix2 q k) = V c main_v80 (ix2 q k) := by
  obtain ⟨e0, e1, -, -, -, -, -⟩ := idxW1 t
  show V c main_v80 (((cfg2.win 3).blk t).view.emb (ix2 q k)) = V c main_v80 _
  refine congrArg (V c main_v80) (funext fun a => Fin.ext ?_)
  match a with
  | ⟨0, _⟩ => show win2_3.index t (0 : Fin 2) * 64 + 1 * q.val = q.val; omega
  | ⟨1, _⟩ => show win2_3.index t (1 : Fin 2) * 128 + 1 * k.val = k.val; omega

/-- Every point's block of the second 64 × 128 weight matrix is the whole matrix. -/
theorem read4 (c : Dev nD) (t : Fin cfg2.N) (q : Fin 64) (k : Fin 128) :
    iblk2 (F := Ideal) V c 4 t (ix2 q k) = V c main_v81 (ix2 q k) := by
  obtain ⟨-, -, e0, e1, -, -, -⟩ := idxW1 t
  show V c main_v81 (((cfg2.win 4).blk t).view.emb (ix2 q k)) = V c main_v81 _
  refine congrArg (V c main_v81) (funext fun a => Fin.ext ?_)
  match a with
  | ⟨0, _⟩ => show win2_4.index t (0 : Fin 2) * 64 + 1 * q.val = q.val; omega
  | ⟨1, _⟩ => show win2_4.index t (1 : Fin 2) * 128 + 1 * k.val = k.val; omega

/-- Every point's block of the 8 × 128 weight matrix is the whole matrix. -/
theorem read5 (c : Dev nD) (t : Fin cfg2.N) (q : Fin 8) (k : Fin 128) :
    iblk2 (F := Ideal) V c 5 t (ix2 q k) = V c main_v82 (ix2 q k) := by
  obtain ⟨-, -, -, -, e0, e1, -⟩ := idxW1 t
  show V c main_v82 (((cfg2.win 5).blk t).view.emb (ix2 q k)) = V c main_v82 _
  refine congrArg (V c main_v82) (funext fun a => Fin.ext ?_)
  match a with
  | ⟨0, _⟩ => show win2_5.index t (0 : Fin 2) * 8 + 1 * q.val = q.val; omega
  | ⟨1, _⟩ => show win2_5.index t (1 : Fin 2) * 128 + 1 * k.val = k.val; omega

/-- Every point's block of the first bias vector is the whole vector. -/
theorem read6 (c : Dev nD) (t : Fin cfg2.N) (k : Fin 128) :
    iblk2 (F := Ideal) V c 6 t (ix1 k) = V c main_arg8 (ix1 k) := by
  obtain ⟨-, -, -, -, -, -, e0⟩ := idxW1 t
  show V c main_arg8 (((cfg2.win 6).blk t).view.emb (ix1 k)) = V c main_arg8 _
  refine congrArg (V c main_arg8) (funext fun a => Fin.ext ?_)
  match a with
  | ⟨0, _⟩ => show win2_6.index t (0 : Fin 1) * 128 + 1 * k.val = k.val; omega

/-- Every point's block of the 128 × 64 weight matrix is the whole matrix. -/
theorem read7 (c : Dev nD) (t : Fin cfg2.N) (k : Fin 128) (j : Fin 64) :
    iblk2 (F := Ideal) V c 7 t (ix2 k j) = V c main_arg9 (ix2 k j) := by
  obtain ⟨e0, e1, -, -, -, -⟩ := idxW2 t
  show V c main_arg9 (((cfg2.win 7).blk t).view.emb (ix2 k j)) = V c main_arg9 _
  refine congrArg (V c main_arg9) (funext fun a => Fin.ext ?_)
  match a with
  | ⟨0, _⟩ => show win2_7.index t (0 : Fin 2) * 128 + 1 * k.val = k.val; omega
  | ⟨1, _⟩ => show win2_7.index t (1 : Fin 2) * 64 + 1 * j.val = j.val; omega

/-- Every point's block of the second bias vector is the whole vector. -/
theorem read8 (c : Dev nD) (t : Fin cfg2.N) (j : Fin 64) :
    iblk2 (F := Ideal) V c 8 t (ix1 j) = V c main_arg10 (ix1 j) := by
  obtain ⟨-, -, e0, -, -, -⟩ := idxW2 t
  show V c main_arg10 (((cfg2.win 8).blk t).view.emb (ix1 j)) = V c main_arg10 _
  refine congrArg (V c main_arg10) (funext fun a => Fin.ext ?_)
  match a with
  | ⟨0, _⟩ => show win2_8.index t (0 : Fin 1) * 64 + 1 * j.val = j.val; omega

/-- Every point's block of the 64 × 1 column is the whole column. -/
theorem read9 (c : Dev nD) (t : Fin cfg2.N) (j : Fin 64) (u : Fin 1) :
    iblk2 (F := Ideal) V c 9 t (ix2 j u) = V c main_arg11 (ix2 j u) := by
  obtain ⟨-, -, -, e0, e1, -⟩ := idxW2 t
  show V c main_arg11 (((cfg2.win 9).blk t).view.emb (ix2 j u)) = V c main_arg11 _
  refine congrArg (V c main_arg11) (funext fun a => Fin.ext ?_)
  match a with
  | ⟨0, _⟩ => show win2_9.index t (0 : Fin 2) * 64 + 1 * j.val = j.val; omega
  | ⟨1, _⟩ => show win2_9.index t (1 : Fin 2) * 1 + 1 * u.val = u.val; omega

/-- Every point's block of the last bias, of extent one, is the whole of it. -/
theorem read10 (c : Dev nD) (t : Fin cfg2.N) (u : Fin 1) :
    iblk2 (F := Ideal) V c 10 t (ix1 u) = V c main_arg12 (ix1 u) := by
  obtain ⟨-, -, -, -, -, e0⟩ := idxW2 t
  show V c main_arg12 (((cfg2.win 10).blk t).view.emb (ix1 u)) = V c main_arg12 _
  refine congrArg (V c main_arg12) (funext fun a => Fin.ext ?_)
  match a with
  | ⟨0, _⟩ => show win2_10.index t (0 : Fin 1) * 1 + 1 * u.val = u.val; omega

/-! ## The network on a block and on the whole arrays, layer by layer -/

/-- The first hidden layer of point `t`'s blocks at row `r` is the first hidden layer of the whole arrays at row
    `8192 · t + r`: the row-blocked inputs are read at that row, every weight and bias whole. -/
theorem hid1_blk (c : Dev nD) (t : Fin cfg2.N) (r : Fin 8192) (k : Fin 128) :
    EdgeBody.hid1 (R := 8192) (iblk2 V c 0 t) (iblk2 V c 1 t) (iblk2 V c 2 t) (iblk2 V c 3 t) (iblk2 V c 4 t) (iblk2 V c 5 t) (iblk2 V c 6 t) r k
      = EdgeBody.hid1 (V c main_v76) (V c main_v77) (V c main_v79) (V c main_v80) (V c main_v81) (V c main_v82) (V c main_arg8) (row t r) k := by
  unfold EdgeBody.hid1
  refine congrArg₂ max (congrArg₂ (· + ·) (congrArg₂ (· + ·) (congrArg₂ (· + ·) ?_ ?_) ?_) ?_) rfl
  · exact Finset.sum_congr rfl fun q _ => congrArg₂ (· * ·) (read0 V c t r q) (read3 V c t q k)
  · exact Finset.sum_congr rfl fun q _ => congrArg₂ (· * ·) (read1 V c t r q) (read4 V c t q k)
  · exact Finset.sum_congr rfl fun q _ => congrArg₂ (· * ·) (read2 V c t r q) (read5 V c t q k)
  · exact read6 V c t k

/-- The second hidden layer of point `t`'s blocks at row `r` is the second hidden layer of the whole arrays at row
    `8192 · t + r`. -/
theorem hid2_blk (c : Dev nD) (t : Fin cfg2.N) (r : Fin 8192) (j : Fin 64) :
    EdgeBody.hid2 (R := 8192) (iblk2 V c 0 t) (iblk2 V c 1 t) (iblk2 V c 2 t) (iblk2 V c 3 t) (iblk2 V c 4 t) (iblk2 V c 5 t) (iblk2 V c 6 t) (iblk2 V c 7 t) (iblk2 V c 8 t) r j
      = EdgeBody.hid2 (V c main_v76) (V c main_v77) (V c main_v79) (V c main_v80) (V c main_v81) (V c main_v82) (V c main_arg8) (V c main_arg9) (V c main_arg10) (row t r) j := by
  unfold EdgeBody.hid2
  refine congrArg₂ max (congrArg₂ (· + ·) ?_ (read8 V c t j)) rfl
  exact Finset.sum_congr rfl fun k _ => congrArg₂ (· * ·) (hid1_blk V c t r k) (read7 V c t k j)

/-! ## The output array -/

/-- What point `t` writes back is block `t` of the network's output on the arrays the launch found. -/
theorem flushed2 (c : Dev nD) (t : Fin cfg2.N) :
    (dat2 V c).flushed 11 t
      = ((cfg2.win 11).blk t).view.read (Elt Ideal) (EdgeBody.out (V c main_v76) (V c main_v77) (V c main_v79) (V c main_v80) (V c main_v81) (V c main_v82) (V c main_arg8) (V c main_arg9) (V c main_arg10) (V c main_arg11) (V c main_arg12)) := by
  show (cfg2.win 11).cut (grid2.coords t) ((dat2 V c).after 11 t) = _
  rw [after2_11]
  unfold out2_11
  rw [View.canon_unit_zero hz1]
  simp only [View.ld_unit_zero (S := S8192x64) hz2, View.ld_unit_zero (S := S8192x8) hz2, View.ld_unit_zero (S := S64x128) hz2,
    View.ld_unit_zero (S := S8x128) hz2, View.ld_unit_zero (S := S128) hz1, View.ld_unit_zero (S := S128x64) hz2,
    View.ld_unit_zero (S := S64) hz1, View.ld_unit_zero (S := S64x1) hz2, View.ld_unit_zero (S := S1) hz1]
  funext j
  obtain ⟨r, rfl⟩ : ∃ r : Fin 8192, j = ix1 r := ⟨j 0, eq_ix1 j⟩
  refine (EdgeBody.body_apply _ _ _ _ _ _ _ _ _ _ _ r).trans ?_
  show _ = EdgeBody.out (V c main_v76) (V c main_v77) (V c main_v79) (V c main_v80) (V c main_v81) (V c main_v82) (V c main_arg8) (V c main_arg9) (V c main_arg10) (V c main_arg11) (V c main_arg12) (((cfg2.win 11).blk t).view.emb (ix1 r))
  unfold EdgeBody.out
  refine congrArg₂ (· + ·) (Finset.sum_congr rfl fun q _ => congrArg₂ (· * ·) ?_ ?_) ?_
  · exact hid2_blk V c t r q
  · exact read9 V c t q 0
  · exact read10 V c t 0

/-- An index of the output array is in point `t`'s block iff its coordinate is in the block's range. -/
theorem mem_blk2 (t : Fin cfg2.N) (i : S1605632.Idx) :
    i ∈ ((cfg2.win 11).blk t).view.set ↔ ∀ a : Fin 1, win2_11.index t a * S8192.size a ≤ (i a).val ∧ (i a).val < win2_11.index t a * S8192.size a + S8192.size a := by
  show i ∈ ((View.whole main_v83).slice (win2_11.rect t)).set ↔ _
  rw [View.set_slice_whole, Rect.mem_set_unit]
  exact Iff.rfl

/-- Row `e` is in the block of point `e / 8192`: the 196 blocks tile the array. -/
theorem cover2 (i : S1605632.Idx) : ∃ t : Fin cfg2.N, (cfg2.win 11).flush t = true ∧ i ∈ ((cfg2.win 11).blk t).view.set := by
  have hi0 : (i 0).val < 1605632 := (i 0).isLt
  let t : Fin cfg2.N := ⟨(i 0).val / 8192, by rw [show cfg2.N = 196 from N_2]; omega⟩
  obtain ⟨-, -, -, -, -, -, e⟩ := idxRow t
  refine ⟨t, flush2_11 t, ?_⟩
  rw [mem_blk2]
  intro a
  match a with
  | ⟨0, _⟩ => show win2_11.index t (0 : Fin 1) * 8192 ≤ (i 0).val ∧ (i 0).val < win2_11.index t (0 : Fin 1) * 8192 + 8192; rw [e]; show (i 0).val / 8192 * 8192 ≤ _ ∧ _ < (i 0).val / 8192 * 8192 + 8192; omega

/-- THE THIRD LAUNCH'S OUTPUT ARRAY: the network's output on the arrays the launch found, row by row. -/
theorem arr2 (c : Dev nD) :
    (dat2 V c).arrAt 11 cfg2.N = Cert.KernelIdeal.EdgeBody.out (V c main_v76) (V c main_v77) (V c main_v79) (V c main_v80) (V c main_v81) (V c main_v82) (V c main_arg8) (V c main_arg9) (V c main_arg10) (V c main_arg11) (V c main_arg12) :=
  (dat2 V c).arrAt_eq_of_cover 11 _ (fun t _ => flushed2 V c t) cover2

end Cert.KernelIdeal.EdgeArray

end
-- ==== Proof.KernelChain.lean ====
/-
  The idealized kernel's result as one closed term of the launch memory.

  The buffer contents at the fifteen boundaries of @main are followed from the launch to the return: a host stretch
  is read by its lemmas (what each buffer holds after it; a buffer it does not write is carried), a launch leaves
  its output array at the dense layer, or the per-edge network, of the arrays it found, and every other buffer as
  it was. The result is the per-edge network of: the second layer's table read at the two endpoints of each given
  edge and padded; the padded attributes; the three row blocks of the first weight matrix; the remaining weights.
-/
import proofs.«176707_j76776835383553_2_alg».proof.Proof.Gen.KernelIdeal.Frame
import proofs.«176707_j76776835383553_2_alg».proof.Proof.KernelHost
import proofs.«176707_j76776835383553_2_alg».proof.Proof.NodeArray
import proofs.«176707_j76776835383553_2_alg».proof.Proof.EdgeArray
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.KernelIdeal.Host

/-- A stretch none of whose operations writes the buffer leaves it as it was. -/
macro "carried " S:ident b:ident : tactic => `(tactic|
  exact StableHlo.after_of_forall_not_mem (b := Proc.devRef .tc $b) _ _ (List.forall_iff_forall_mem.mp (by
    simp only [$S:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- The launch contents of a buffer are the launch memory's. -/
theorem W0_eq (b : Ref sig .tc) : W0 m ρ c (Proc.devRef .tc b) = m ((c : Thread nD τ).loc b) := rfl

/-! ## The arguments, carried from the launch to where they are read -/

theorem W3_arg3 : W3 m ρ c (Proc.devRef .tc main_arg3) = W0 m ρ c (Proc.devRef .tc main_arg3) :=
  calc W3 m ρ c (Proc.devRef .tc main_arg3)
    _ = W2 m ρ c (Proc.devRef .tc main_arg3) := by carried hostOps0_2 main_arg3
    _ = W1 m ρ c (Proc.devRef .tc main_arg3) := by carried hostOps0_1 main_arg3
    _ = W0 m ρ c (Proc.devRef .tc main_arg3) := by carried hostOps0 main_arg3

theorem W3_arg4 : W3 m ρ c (Proc.devRef .tc main_arg4) = W0 m ρ c (Proc.devRef .tc main_arg4) :=
  calc W3 m ρ c (Proc.devRef .tc main_arg4)
    _ = W2 m ρ c (Proc.devRef .tc main_arg4) := by carried hostOps0_2 main_arg4
    _ = W1 m ρ c (Proc.devRef .tc main_arg4) := by carried hostOps0_1 main_arg4
    _ = W0 m ρ c (Proc.devRef .tc main_arg4) := by carried hostOps0 main_arg4

theorem W5_arg5 : W5 m ρ c (Proc.devRef .tc main_arg5) = W0 m ρ c (Proc.devRef .tc main_arg5) :=
  calc W5 m ρ c (Proc.devRef .tc main_arg5)
    _ = W4 m ρ c (Proc.devRef .tc main_arg5) := by carried hostOps1 main_arg5
    _ = W3 m ρ c (Proc.devRef .tc main_arg5) := W4_of_ne m ρ c main_arg5 (by decide)
    _ = W2 m ρ c (Proc.devRef .tc main_arg5) := by carried hostOps0_2 main_arg5
    _ = W1 m ρ c (Proc.devRef .tc main_arg5) := by carried hostOps0_1 main_arg5
    _ = W0 m ρ c (Proc.devRef .tc main_arg5) := by carried hostOps0 main_arg5

theorem W5_arg6 : W5 m ρ c (Proc.devRef .tc main_arg6) = W0 m ρ c (Proc.devRef .tc main_arg6) :=
  calc W5 m ρ c (Proc.devRef .tc main_arg6)
    _ = W4 m ρ c (Proc.devRef .tc main_arg6) := by carried hostOps1 main_arg6
    _ = W3 m ρ c (Proc.devRef .tc main_arg6) := W4_of_ne m ρ c main_arg6 (by decide)
    _ = W2 m ρ c (Proc.devRef .tc main_arg6) := by carried hostOps0_2 main_arg6
    _ = W1 m ρ c (Proc.devRef .tc main_arg6) := by carried hostOps0_1 main_arg6
    _ = W0 m ρ c (Proc.devRef .tc main_arg6) := by carried hostOps0 main_arg6

theorem W6_arg1 : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := by carried hostOps1 main_arg1
    _ = W3 m ρ c (Proc.devRef .tc main_arg1) := W4_of_ne m ρ c main_arg1 (by decide)
    _ = W2 m ρ c (Proc.devRef .tc main_arg1) := by carried hostOps0_2 main_arg1
    _ = W1 m ρ c (Proc.devRef .tc main_arg1) := by carried hostOps0_1 main_arg1
    _ = W0 m ρ c (Proc.devRef .tc main_arg1) := by carried hostOps0 main_arg1

theorem W10_arg2 : W10 m ρ c (Proc.devRef .tc main_arg2) = W0 m ρ c (Proc.devRef .tc main_arg2) :=
  calc W10 m ρ c (Proc.devRef .tc main_arg2)
    _ = W9 m ρ c (Proc.devRef .tc main_arg2) := by carried hostOps2_3 main_arg2
    _ = W8 m ρ c (Proc.devRef .tc main_arg2) := by carried hostOps2_2 main_arg2
    _ = W7 m ρ c (Proc.devRef .tc main_arg2) := by carried hostOps2_1 main_arg2
    _ = W6 m ρ c (Proc.devRef .tc main_arg2) := by carried hostOps2 main_arg2
    _ = W5 m ρ c (Proc.devRef .tc main_arg2) := W6_of_ne m ρ c main_arg2 (by decide)
    _ = W4 m ρ c (Proc.devRef .tc main_arg2) := by carried hostOps1 main_arg2
    _ = W3 m ρ c (Proc.devRef .tc main_arg2) := W4_of_ne m ρ c main_arg2 (by decide)
    _ = W2 m ρ c (Proc.devRef .tc main_arg2) := by carried hostOps0_2 main_arg2
    _ = W1 m ρ c (Proc.devRef .tc main_arg2) := by carried hostOps0_1 main_arg2
    _ = W0 m ρ c (Proc.devRef .tc main_arg2) := by carried hostOps0 main_arg2

theorem W12_arg7 : W12 m ρ c (Proc.devRef .tc main_arg7) = W0 m ρ c (Proc.devRef .tc main_arg7) :=
  calc W12 m ρ c (Proc.devRef .tc main_arg7)
    _ = W11 m ρ c (Proc.devRef .tc main_arg7) := by carried hostOps2_5 main_arg7
    _ = W10 m ρ c (Proc.devRef .tc main_arg7) := by carried hostOps2_4 main_arg7
    _ = W9 m ρ c (Proc.devRef .tc main_arg7) := by carried hostOps2_3 main_arg7
    _ = W8 m ρ c (Proc.devRef .tc main_arg7) := by carried hostOps2_2 main_arg7
    _ = W7 m ρ c (Proc.devRef .tc main_arg7) := by carried hostOps2_1 main_arg7
    _ = W6 m ρ c (Proc.devRef .tc main_arg7) := by carried hostOps2 main_arg7
    _ = W5 m ρ c (Proc.devRef .tc main_arg7) := W6_of_ne m ρ c main_arg7 (by decide)
    _ = W4 m ρ c (Proc.devRef .tc main_arg7) := by carried hostOps1 main_arg7
    _ = W3 m ρ c (Proc.devRef .tc main_arg7) := W4_of_ne m ρ c main_arg7 (by decide)
    _ = W2 m ρ c (Proc.devRef .tc main_arg7) := by carried hostOps0_2 main_arg7
    _ = W1 m ρ c (Proc.devRef .tc main_arg7) := by carried hostOps0_1 main_arg7
    _ = W0 m ρ c (Proc.devRef .tc main_arg7) := by carried hostOps0 main_arg7

theorem W13_arg8 : W13 m ρ c (Proc.devRef .tc main_arg8) = W0 m ρ c (Proc.devRef .tc main_arg8) :=
  calc W13 m ρ c (Proc.devRef .tc main_arg8)
    _ = W12 m ρ c (Proc.devRef .tc main_arg8) := by carried hostOps2_6 main_arg8
    _ = W11 m ρ c (Proc.devRef .tc main_arg8) := by carried hostOps2_5 main_arg8
    _ = W10 m ρ c (Proc.devRef .tc main_arg8) := by carried hostOps2_4 main_arg8
    _ = W9 m ρ c (Proc.devRef .tc main_arg8) := by carried hostOps2_3 main_arg8
    _ = W8 m ρ c (Proc.devRef .tc main_arg8) := by carried hostOps2_2 main_arg8
    _ = W7 m ρ c (Proc.devRef .tc main_arg8) := by carried hostOps2_1 main_arg8
    _ = W6 m ρ c (Proc.devRef .tc main_arg8) := by carried hostOps2 main_arg8
    _ = W5 m ρ c (Proc.devRef .tc main_arg8) := W6_of_ne m ρ c main_arg8 (by decide)
    _ = W4 m ρ c (Proc.devRef .tc main_arg8) := by carried hostOps1 main_arg8
    _ = W3 m ρ c (Proc.devRef .tc main_arg8) := W4_of_ne m ρ c main_arg8 (by decide)
    _ = W2 m ρ c (Proc.devRef .tc main_arg8) := by carried hostOps0_2 main_arg8
    _ = W1 m ρ c (Proc.devRef .tc main_arg8) := by carried hostOps0_1 main_arg8
    _ = W0 m ρ c (Proc.devRef .tc main_arg8) := by carried hostOps0 main_arg8

theorem W13_arg9 : W13 m ρ c (Proc.devRef .tc main_arg9) = W0 m ρ c (Proc.devRef .tc main_arg9) :=
  calc W13 m ρ c (Proc.devRef .tc main_arg9)
    _ = W12 m ρ c (Proc.devRef .tc main_arg9) := by carried hostOps2_6 main_arg9
    _ = W11 m ρ c (Proc.devRef .tc main_arg9) := by carried hostOps2_5 main_arg9
    _ = W10 m ρ c (Proc.devRef .tc main_arg9) := by carried hostOps2_4 main_arg9
    _ = W9 m ρ c (Proc.devRef .tc main_arg9) := by carried hostOps2_3 main_arg9
    _ = W8 m ρ c (Proc.devRef .tc main_arg9) := by carried hostOps2_2 main_arg9
    _ = W7 m ρ c (Proc.devRef .tc main_arg9) := by carried hostOps2_1 main_arg9
    _ = W6 m ρ c (Proc.devRef .tc main_arg9) := by carried hostOps2 main_arg9
    _ = W5 m ρ c (Proc.devRef .tc main_arg9) := W6_of_ne m ρ c main_arg9 (by decide)
    _ = W4 m ρ c (Proc.devRef .tc main_arg9) := by carried hostOps1 main_arg9
    _ = W3 m ρ c (Proc.devRef .tc main_arg9) := W4_of_ne m ρ c main_arg9 (by decide)
    _ = W2 m ρ c (Proc.devRef .tc main_arg9) := by carried hostOps0_2 main_arg9
    _ = W1 m ρ c (Proc.devRef .tc main_arg9) := by carried hostOps0_1 main_arg9
    _ = W0 m ρ c (Proc.devRef .tc main_arg9) := by carried hostOps0 main_arg9

theorem W13_arg10 : W13 m ρ c (Proc.devRef .tc main_arg10) = W0 m ρ c (Proc.devRef .tc main_arg10) :=
  calc W13 m ρ c (Proc.devRef .tc main_arg10)
    _ = W12 m ρ c (Proc.devRef .tc main_arg10) := by carried hostOps2_6 main_arg10
    _ = W11 m ρ c (Proc.devRef .tc main_arg10) := by carried hostOps2_5 main_arg10
    _ = W10 m ρ c (Proc.devRef .tc main_arg10) := by carried hostOps2_4 main_arg10
    _ = W9 m ρ c (Proc.devRef .tc main_arg10) := by carried hostOps2_3 main_arg10
    _ = W8 m ρ c (Proc.devRef .tc main_arg10) := by carried hostOps2_2 main_arg10
    _ = W7 m ρ c (Proc.devRef .tc main_arg10) := by carried hostOps2_1 main_arg10
    _ = W6 m ρ c (Proc.devRef .tc main_arg10) := by carried hostOps2 main_arg10
    _ = W5 m ρ c (Proc.devRef .tc main_arg10) := W6_of_ne m ρ c main_arg10 (by decide)
    _ = W4 m ρ c (Proc.devRef .tc main_arg10) := by carried hostOps1 main_arg10
    _ = W3 m ρ c (Proc.devRef .tc main_arg10) := W4_of_ne m ρ c main_arg10 (by decide)
    _ = W2 m ρ c (Proc.devRef .tc main_arg10) := by carried hostOps0_2 main_arg10
    _ = W1 m ρ c (Proc.devRef .tc main_arg10) := by carried hostOps0_1 main_arg10
    _ = W0 m ρ c (Proc.devRef .tc main_arg10) := by carried hostOps0 main_arg10

theorem W13_arg11 : W13 m ρ c (Proc.devRef .tc main_arg11) = W0 m ρ c (Proc.devRef .tc main_arg11) :=
  calc W13 m ρ c (Proc.devRef .tc main_arg11)
    _ = W12 m ρ c (Proc.devRef .tc main_arg11) := by carried hostOps2_6 main_arg11
    _ = W11 m ρ c (Proc.devRef .tc main_arg11) := by carried hostOps2_5 main_arg11
    _ = W10 m ρ c (Proc.devRef .tc main_arg11) := by carried hostOps2_4 main_arg11
    _ = W9 m ρ c (Proc.devRef .tc main_arg11) := by carried hostOps2_3 main_arg11
    _ = W8 m ρ c (Proc.devRef .tc main_arg11) := by carried hostOps2_2 main_arg11
    _ = W7 m ρ c (Proc.devRef .tc main_arg11) := by carried hostOps2_1 main_arg11
    _ = W6 m ρ c (Proc.devRef .tc main_arg11) := by carried hostOps2 main_arg11
    _ = W5 m ρ c (Proc.devRef .tc main_arg11) := W6_of_ne m ρ c main_arg11 (by decide)
    _ = W4 m ρ c (Proc.devRef .tc main_arg11) := by carried hostOps1 main_arg11
    _ = W3 m ρ c (Proc.devRef .tc main_arg11) := W4_of_ne m ρ c main_arg11 (by decide)
    _ = W2 m ρ c (Proc.devRef .tc main_arg11) := by carried hostOps0_2 main_arg11
    _ = W1 m ρ c (Proc.devRef .tc main_arg11) := by carried hostOps0_1 main_arg11
    _ = W0 m ρ c (Proc.devRef .tc main_arg11) := by carried hostOps0 main_arg11

theorem W13_arg12 : W13 m ρ c (Proc.devRef .tc main_arg12) = W0 m ρ c (Proc.devRef .tc main_arg12) :=
  calc W13 m ρ c (Proc.devRef .tc main_arg12)
    _ = W12 m ρ c (Proc.devRef .tc main_arg12) := by carried hostOps2_6 main_arg12
    _ = W11 m ρ c (Proc.devRef .tc main_arg12) := by carried hostOps2_5 main_arg12
    _ = W10 m ρ c (Proc.devRef .tc main_arg12) := by carried hostOps2_4 main_arg12
    _ = W9 m ρ c (Proc.devRef .tc main_arg12) := by carried hostOps2_3 main_arg12
    _ = W8 m ρ c (Proc.devRef .tc main_arg12) := by carried hostOps2_2 main_arg12
    _ = W7 m ρ c (Proc.devRef .tc main_arg12) := by carried hostOps2_1 main_arg12
    _ = W6 m ρ c (Proc.devRef .tc main_arg12) := by carried hostOps2 main_arg12
    _ = W5 m ρ c (Proc.devRef .tc main_arg12) := W6_of_ne m ρ c main_arg12 (by decide)
    _ = W4 m ρ c (Proc.devRef .tc main_arg12) := by carried hostOps1 main_arg12
    _ = W3 m ρ c (Proc.devRef .tc main_arg12) := W4_of_ne m ρ c main_arg12 (by decide)
    _ = W2 m ρ c (Proc.devRef .tc main_arg12) := by carried hostOps0_2 main_arg12
    _ = W1 m ρ c (Proc.devRef .tc main_arg12) := by carried hostOps0_1 main_arg12
    _ = W0 m ρ c (Proc.devRef .tc main_arg12) := by carried hostOps0 main_arg12

/-! ## Before the first launch -/

/-- The sources, the targets and the weights of the extended edges, from the launch contents of the edge table. -/
abbrev e0 : IVec S1650000 32 := extVec (W0 m ρ c (Proc.devRef .tc main_arg1)) 0 slices_S2x1600000_S1x1600000_0_0
abbrev e1 : IVec S1650000 32 := extVec (W0 m ρ c (Proc.devRef .tc main_arg1)) 1 slices_S2x1600000_S1x1600000_1_0
abbrev nr : FVec Ideal S1650000 .f32 := nrmG (disV (degV (e1 m ρ c))) (e0 m ρ c) (e1 m ρ c)

theorem W3_v3 : W3 m ρ c (Proc.devRef .tc main_v3) = (e0 m ρ c) := by
  show after hostOps0_2 (after hostOps0_1 (after hostOps0 (W0 m ρ c))) _ = _
  rw [s02_v3, s01_v3, s0_v3]
theorem W3_v6 : W3 m ρ c (Proc.devRef .tc main_v6) = (e1 m ρ c) := by
  show after hostOps0_2 (after hostOps0_1 (after hostOps0 (W0 m ρ c))) _ = _
  rw [s02_v6, s01_v6, s0_v6]
theorem W3_v29 : W3 m ρ c (Proc.devRef .tc main_v29) = (nr m ρ c) := by
  show after hostOps0_2 (after hostOps0_1 (after hostOps0 (W0 m ρ c))) _ = _
  rw [s02_v29, s01_v14, s01_v3, s01_v6, s0_v12, s0_v13, s0_cst2, s0_v3, s0_v6]
theorem W3_v42 : W3 m ρ c (Proc.devRef .tc main_v42) = agg16 (W0 m ρ c (Proc.devRef .tc main_arg0)) (e0 m ρ c) (e1 m ρ c) (nr m ρ c) := by
  show after hostOps0_2 (after hostOps0_1 (after hostOps0 (W0 m ρ c))) _ = _
  rw [s02_v42, s01_v14, s01_v3, s01_v6, s01_arg0, s0_v12, s0_v13, s0_cst2, s0_v3, s0_v6, s0_arg0]

/-! ## The first launch, and the stretch after it -/

/-- The first layer's table. -/
abbrev h1 : (⟨2, ![50000, 64]⟩ : Shape).Idx → EReal :=
  NodeArray.dense (agg16 (W0 m ρ c (Proc.devRef .tc main_arg0)) (e0 m ρ c) (e1 m ρ c) (nr m ρ c)) (W0 m ρ c (Proc.devRef .tc main_arg3)) (W0 m ρ c (Proc.devRef .tc main_arg4))

theorem W4_v43 : W4 m ρ c (Proc.devRef .tc main_v43) = h1 m ρ c := by
  refine (W4_arr m ρ c 3).trans ((NodeArray.arr0 (V3 m ρ) c).trans ?_)
  show NodeArray.dense (W3 m ρ c (Proc.devRef .tc main_v42)) (W3 m ρ c (Proc.devRef .tc main_arg3)) (W3 m ρ c (Proc.devRef .tc main_arg4)) = _
  rw [W3_v42, W3_arg3, W3_arg4]
theorem W4_v3 : W4 m ρ c (Proc.devRef .tc main_v3) = (e0 m ρ c) := (W4_of_ne m ρ c main_v3 (by decide)).trans (W3_v3 m ρ c)
theorem W4_v6 : W4 m ρ c (Proc.devRef .tc main_v6) = (e1 m ρ c) := (W4_of_ne m ρ c main_v6 (by decide)).trans (W3_v6 m ρ c)
theorem W4_v29 : W4 m ρ c (Proc.devRef .tc main_v29) = (nr m ρ c) := (W4_of_ne m ρ c main_v29 (by decide)).trans (W3_v29 m ρ c)

theorem W5_v56 : W5 m ρ c (Proc.devRef .tc main_v56) = agg64 (h1 m ρ c) (e0 m ρ c) (e1 m ρ c) (nr m ρ c) := by
  show after hostOps1 (W4 m ρ c) _ = _
  rw [s1_v56, W4_v43, W4_v3, W4_v6, W4_v29]

/-! ## The second launch -/

/-- The second layer's table. -/
abbrev h2 : (⟨2, ![50000, 64]⟩ : Shape).Idx → EReal :=
  NodeArray.dense (agg64 (h1 m ρ c) (e0 m ρ c) (e1 m ρ c) (nr m ρ c)) (W0 m ρ c (Proc.devRef .tc main_arg5)) (W0 m ρ c (Proc.devRef .tc main_arg6))

theorem W6_v57 : W6 m ρ c (Proc.devRef .tc main_v57) = h2 m ρ c := by
  refine (W6_arr m ρ c 3).trans ((NodeArray.arr1 (V5 m ρ) c).trans ?_)
  show NodeArray.dense (W5 m ρ c (Proc.devRef .tc main_v56)) (W5 m ρ c (Proc.devRef .tc main_arg5)) (W5 m ρ c (Proc.devRef .tc main_arg6)) = _
  rw [W5_v56, W5_arg5, W5_arg6]

/-! ## Before the last launch -/

/-- The second layer's table read at endpoint `r` of every given edge, padded. -/
abbrev hc : FVec Ideal S1605632x64 .bf16 := hEnd (h2 m ρ c) (endV (W0 m ρ c (Proc.devRef .tc main_arg1)) 0 slices_S2x1600000_S1x1600000_0_0)
abbrev hn : FVec Ideal S1605632x64 .bf16 := hEnd (h2 m ρ c) (endV (W0 m ρ c (Proc.devRef .tc main_arg1)) 1 slices_S2x1600000_S1x1600000_1_0)

theorem W13_v76 : W13 m ρ c (Proc.devRef .tc main_v76) = hc m ρ c := by
  show after hostOps2_6 (after hostOps2_5 (after hostOps2_4 (after hostOps2_3 (after hostOps2_2 (after hostOps2_1 (after hostOps2 (W6 m ρ c))))))) _ = _
  rw [s26_v76, s25_v76, s24_v76, s23_v76, s22_v76, s21_v76, s2_v66, s2_c16, W6_v57, W6_arg1]
theorem W13_v77 : W13 m ρ c (Proc.devRef .tc main_v77) = hn m ρ c := by
  show after hostOps2_6 (after hostOps2_5 (after hostOps2_4 (after hostOps2_3 (after hostOps2_2 (after hostOps2_1 (after hostOps2 (W6 m ρ c))))))) _ = _
  rw [s26_v77, s25_v77, s24_v77, s23_v77, s22_v75, s22_c17, s21_v75, s2_v75, W6_v57, W6_arg1]
theorem W13_v79 : W13 m ρ c (Proc.devRef .tc main_v79) = eaPad (W0 m ρ c (Proc.devRef .tc main_arg2)) := by
  show after hostOps2_6 (after hostOps2_5 (after hostOps2_4 (W10 m ρ c))) _ = _
  rw [s26_v79, s25_v79, s24_v78, s24_c18, W10_arg2]
theorem W13_v80 : W13 m ρ c (Proc.devRef .tc main_v80) = extractStridedSlice S64x128 ![0, 0] ((W0 m ρ c (Proc.devRef .tc main_arg7)) : FVec Ideal S136x128 .f32) slices_S136x128_S64x128_0_0 := by
  show after hostOps2_6 (W12 m ρ c) _ = _
  rw [s26_v80, W12_arg7]
theorem W13_v81 : W13 m ρ c (Proc.devRef .tc main_v81) = extractStridedSlice S64x128 ![64, 0] ((W0 m ρ c (Proc.devRef .tc main_arg7)) : FVec Ideal S136x128 .f32) slices_S136x128_S64x128_64_0 := by
  show after hostOps2_6 (W12 m ρ c) _ = _
  rw [s26_v81, W12_arg7]
theorem W13_v82 : W13 m ρ c (Proc.devRef .tc main_v82) = extractStridedSlice S8x128 ![128, 0] ((W0 m ρ c (Proc.devRef .tc main_arg7)) : FVec Ideal S136x128 .f32) slices_S136x128_S8x128_128_0 := by
  show after hostOps2_6 (W12 m ρ c) _ = _
  rw [s26_v82, W12_arg7]

/-! ## The last launch, and the result -/

/-- The scores of the 1605632 padded edge rows. -/
abbrev scores : (⟨1, ![1605632]⟩ : Shape).Idx → EReal :=
  EdgeBody.out (hc m ρ c) (hn m ρ c) (eaPad (W0 m ρ c (Proc.devRef .tc main_arg2)))
    (extractStridedSlice S64x128 ![0, 0] ((W0 m ρ c (Proc.devRef .tc main_arg7)) : FVec Ideal S136x128 .f32) slices_S136x128_S64x128_0_0)
    (extractStridedSlice S64x128 ![64, 0] ((W0 m ρ c (Proc.devRef .tc main_arg7)) : FVec Ideal S136x128 .f32) slices_S136x128_S64x128_64_0)
    (extractStridedSlice S8x128 ![128, 0] ((W0 m ρ c (Proc.devRef .tc main_arg7)) : FVec Ideal S136x128 .f32) slices_S136x128_S8x128_128_0)
    (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))

theorem W14_v83 : W14 m ρ c (Proc.devRef .tc main_v83) = scores m ρ c := by
  refine (W14_arr m ρ c 11).trans ((EdgeArray.arr2 (V13 m ρ) c).trans ?_)
  show EdgeBody.out (W13 m ρ c (Proc.devRef .tc main_v76)) (W13 m ρ c (Proc.devRef .tc main_v77)) (W13 m ρ c (Proc.devRef .tc main_v79)) (W13 m ρ c (Proc.devRef .tc main_v80)) (W13 m ρ c (Proc.devRef .tc main_v81)) (W13 m ρ c (Proc.devRef .tc main_v82))
    (W13 m ρ c (Proc.devRef .tc main_arg8)) (W13 m ρ c (Proc.devRef .tc main_arg9)) (W13 m ρ c (Proc.devRef .tc main_arg10)) (W13 m ρ c (Proc.devRef .tc main_arg11)) (W13 m ρ c (Proc.devRef .tc main_arg12)) = _
  rw [W13_v76, W13_v77, W13_v79, W13_v80, W13_v81, W13_v82, W13_arg8, W13_arg9, W13_arg10, W13_arg11, W13_arg12]

/-- THE KERNEL'S RESULT: the first 1600000 of the padded scores. -/
theorem result : W15 m ρ c (Proc.devRef .tc main_v84) = extractStridedSlice S1600000 ![0] (scores m ρ c : FVec Ideal S1605632 .f32) slices_S1605632_S1600000_0 := by
  show after hostOps3 (W14 m ρ c) _ = _
  rw [s3_v84, W14_v83]

end Cert.KernelIdeal.Chain

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«176707_j76776835383553_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.Spec.lean ====
/-
  The function both programs compute, index by index, on the extended reals.

  A graph of 50000 nodes carries 1650000 directed edges (the 1600000 given ones followed by one self-loop per
  node). Edge `e` reads node `srcRow S e` (its source index, negative values wrapped, then clamped into range) and
  its message lands on node `n` when its target index is `n` (`Lands D e n`); `nrm e` is the edge's weight, the
  product of the two endpoint normalisers.

  One layer sends a node-feature table `H` (50000 × K) to `max(A·H·W + b, 0)` (50000 × 64), where `A` is the
  weighted adjacency. The sum over edges and the sum over the K input features can be taken in either order:
  `layerMatmulFirst` multiplies by `W` and then sums the weighted messages, `layerAggregateFirst` sums the weighted
  raw features and then multiplies by `W`. Both edge sums start from zero.

  The per-edge network reads the final table at an edge's two endpoints, appends the edge's 8 attributes, and applies
  three dense layers (136 → 128 → 64 → 1), the first two followed by `max(·, 0)`.
-/
import proofs.«176707_j76776835383553_2_alg».proof.Proof.LibRowGatherScatter

noncomputable section

open scoped BigOperators

namespace Cert.Spec

open Idealize.ShloMosaic Idealize.ShloMosaic.ValueIdx Cert.RowGS

abbrev Tbl (R C : Nat) := (⟨2, ![R, C]⟩ : Shape).Idx → EReal
abbrev Vct (C : Nat) := (⟨1, ![C]⟩ : Shape).Idx → EReal

theorem pos_nodes : 0 < 50000 := by norm_num

section Layer

variable (S D : IVec ⟨2, ![1650000, 1]⟩ 32) (nrm : Vct 1650000)

/-- The edges whose message lands on node `n`. -/
abbrev into (n : Fin 50000) : Finset (Fin 1650000) := Finset.univ.filter (fun e : Fin 1650000 => Lands D e n)

/-- A layer, product with `W` first: entry `(n, j)` is `max(0 + Σ_{e into n} (Σ_k H[src e, k]·W[k, j])·nrm e + b j, 0)`. -/
def layerMatmulFirst {K : Nat} (H : Tbl 50000 K) (W : Tbl K 64) (b : Vct 64) : Tbl 50000 64 := fun i =>
  max ((0 + ∑ e ∈ into D (i 0), (∑ k : Fin K, H (ix2 (srcRow pos_nodes S e) k) * W (ix2 k (i 1))) * nrm (ix1 e)) + b (ix1 (i 1))) 0

/-- A layer, aggregation first: entry `(n, j)` is `max(Σ_k (0 + Σ_{e into n} H[src e, k]·nrm e)·W[k, j] + b j, 0)`. -/
def layerAggregateFirst {K : Nat} (H : Tbl 50000 K) (W : Tbl K 64) (b : Vct 64) : Tbl 50000 64 := fun i =>
  max ((∑ k : Fin K, (0 + ∑ e ∈ into D (i 0), H (ix2 (srcRow pos_nodes S e) k) * nrm (ix1 e)) * W (ix2 k (i 1))) + b (ix1 (i 1))) 0

end Layer

section Edge

variable (h : Tbl 50000 64) (S0 S1 : IVec ⟨2, ![1600000, 1]⟩ 32) (ea : Tbl 1600000 8)
  (mW1 : Tbl 136 128) (mb1 : Vct 128) (mW2 : Tbl 128 64) (mb2 : Vct 64) (mW3 : Tbl 64 1) (mb3 : Vct 1)

/-- Edge `e`'s 136 inputs: the table's row at its first endpoint, the row at its second endpoint, its attributes. -/
def edgeIn (e : Fin 1600000) (q : Fin 136) : EReal :=
  if h1 : q.val < 64 then h (ix2 (srcRow pos_nodes S0 e) ⟨q.val, h1⟩)
  else if h2 : q.val < 128 then h (ix2 (srcRow pos_nodes S1 e) ⟨q.val - 64, by omega⟩)
  else ea (ix2 e ⟨q.val - 128, by omega⟩)

/-- First dense layer, 136 → 128. -/
def dense1 (e : Fin 1600000) (c : Fin 128) : EReal :=
  max ((∑ q : Fin 136, edgeIn h S0 S1 ea e q * mW1 (ix2 q c)) + mb1 (ix1 c)) 0

/-- Second dense layer, 128 → 64. -/
def dense2 (e : Fin 1600000) (c : Fin 64) : EReal :=
  max ((∑ q : Fin 128, dense1 h S0 S1 ea mW1 mb1 e q * mW2 (ix2 q c)) + mb2 (ix1 c)) 0

/-- The edge's score: the third dense layer, 64 → 1, no clamp. -/
def score : Vct 1600000 := fun i =>
  (∑ q : Fin 64, dense2 h S0 S1 ea mW1 mb1 mW2 mb2 (i 0) q * mW3 (ix2 q (0 : Fin 1))) + mb3 (ix1 (0 : Fin 1))

end Edge

end Cert.Spec

end
-- ==== Proof.Edges.lean ====
/-
  The edge bookkeeping both programs compute from the 2 × 1600000 integer table of edges, as index formulas.

  The edge list is extended by one self-loop per node: edge `e < 1600000` runs from `ei[0, e]` to `ei[1, e]`, edge
  `1600000 + n` from `n` to `n`. An index used to READ a node row is first wrapped (a negative value has 50000 added)
  and later clamped by the read itself; the index used to ADD into a node row is taken as it is (an update whose
  index is not a node is dropped). A node's degree is the number of edges that add into it, its normaliser is
  `1/√deg` where the degree is positive and zero elsewhere, and an edge's weight is the product of the normalisers
  of the two nodes it reads.
-/
import proofs.«176707_j76776835383553_2_alg».proof.Proof.LibRowGatherScatter
import proofs.«176707_j76776835383553_2_alg».proof.Proof.LibGcnLaw
import proofs.«176707_j76776835383553_2_alg».proof.Proof.Spec

noncomputable section

open scoped BigOperators

namespace Cert.Edges

open Idealize.ShloMosaic Idealize.ShloMosaic.ValueIdx Cert.RowGS Cert.Spec

variable (ei : IVec ⟨2, ![2, 1600000]⟩ 32)

/-- Row `r` of the edge table extended by the self-loops: entry `e` of the 1650000 sources (`r = 0`) or targets (`r = 1`). -/
def ext (r : Fin 2) (e : Fin 1650000) : BitVec 32 :=
  if h : e.val < 1600000 then ei (ix2 r ⟨e.val, h⟩) else BitVec.ofNat 32 (e.val - 1600000)

/-- An index made ready for reading a node row: a negative value has 50000 added. -/
def wrap (v : BitVec 32) : BitVec 32 := if v.slt 0#32 then v + 50000#32 else v

/-- The wrapped sources of the extended edges, as a column. -/
def srcCol : IVec ⟨2, ![1650000, 1]⟩ 32 := fun i => wrap (ext ei 0 (i 0))
/-- The wrapped targets of the extended edges, as a column (for reading the target's normaliser). -/
def dstWrapCol : IVec ⟨2, ![1650000, 1]⟩ 32 := fun i => wrap (ext ei 1 (i 0))
/-- The targets of the extended edges as they are, as a column (for adding into the target's row). -/
def dstCol : IVec ⟨2, ![1650000, 1]⟩ 32 := fun i => ext ei 1 (i 0)
/-- The wrapped endpoints of the 1600000 given edges, as columns (for the per-edge network's two reads). -/
def endCol (r : Fin 2) : IVec ⟨2, ![1600000, 1]⟩ 32 := fun i => wrap (ei (ix2 r (i 0)))

/-- A node's degree: one per extended edge adding into it, from zero. -/
def deg (n : Fin 50000) : EReal := 0 + ∑ _e ∈ into (dstCol ei) n, Ideal.ofBits .f32 0x3F800000#32

/-- A node's normaliser. -/
def dis (n : Fin 50000) : EReal := Cert.GcnLaw.normaliser (deg ei n)

/-- An extended edge's weight: the product of the normalisers at the two nodes it reads. -/
def nrm : Vct 1650000 := fun i =>
  dis ei (srcRow pos_nodes (srcCol ei) (i 0)) * dis ei (srcRow pos_nodes (dstWrapCol ei) (i 0))

end Cert.Edges

end
-- ==== Proof.LibEdgeCols.lean ====
/-
  THE EDGE BOOKKEEPING OF A GRAPH CONVOLUTION, READ OFF EXPLICIT OPERATION TERMS (no program: every shape relation and
  every dimension record an operation carries is a parameter, so the same lemma meets any printing of these operations).

  * the extended edge row: the concatenation of row `r` of the 2 × 1600000 edge table (sliced out and reshaped to a
    vector) with the node numbers 0 … 49999 is `Cert.Edges.ext ei r`                                  (`ext_apply`);
  * a vector of integer indices laid out as a column, as it is (`col_eq`) or wrapped first — a signed compare with a
    broadcast 0 selecting between the index plus a broadcast 50000 and the index — (`wrapCol_eq`);
  * a rank-0 float zero broadcast over a shape is the extended real 0 everywhere (`zeros_apply`), a rank-0 float one
    the word's value (`const_apply`);
  * the degree: ones scatter-added into zeros at the targets                                            (`deg_apply`);
  * the normaliser: `select (d > 0) (rsqrt d) 0` entry by entry                                         (`dis_apply`);
  * an edge's weight: the product of the normaliser vector gathered at the two wrapped endpoint columns (`nrm_apply`).
-/
import proofs.«176707_j76776835383553_2_alg».proof.Proof.LibRowGatherScatter
import proofs.«176707_j76776835383553_2_alg».proof.Proof.LibVecGather
import proofs.«176707_j76776835383553_2_alg».proof.Proof.LibBroadcast
import proofs.«176707_j76776835383553_2_alg».proof.Proof.LibGcnLaw
import proofs.«176707_j76776835383553_2_alg».proof.Proof.Spec
import proofs.«176707_j76776835383553_2_alg».proof.Proof.Edges
import Idealize.ShloMosaic.Lib.Pipeline.Value
import Idealize.ShloMosaic.Lib.ValueIdx
import Idealize.ShloMosaic.PureOps.Ideal.Laws

noncomputable section

open scoped BigOperators

namespace Cert.EdgeCols

open Idealize.ShloMosaic Idealize.ShloMosaic.ValueIdx Cert.RowGS Cert.VecGather Cert.Spec

/-! ## The extended edge rows -/

/-- Row `r` of the edge table (the slice at offsets `off = (r, 0)`, reshaped to a vector) followed by the node numbers:
    entry `e` is the table's entry `(r, e)` below 1600000 and the node number `e − 1600000` from there on. -/
theorem ext_apply (ei : IVec ⟨2, ![2, 1600000]⟩ 32) (r : Fin 2) (off : Fin 2 → Nat) (h0 : off 0 = r.val) (h1 : off 1 = 0)
    (hsl : (⟨2, ![2, 1600000]⟩ : Shape).Slices off ⟨2, ![1, 1600000]⟩)
    (hsc : (⟨2, ![1, 1600000]⟩ : Shape).ShapeCasts ⟨1, ![1600000]⟩)
    (hcat : Shape.Concatenates [(⟨1, ![1600000]⟩ : Shape), ⟨1, ![50000]⟩] ⟨1, ![1650000]⟩ 0)
    (e : Fin 1650000) :
    concatenate ⟨1, ![1650000]⟩ 0
      [⟨⟨1, ![1600000]⟩, shapeCast ⟨1, ![1600000]⟩ (extractStridedSlice (s := ⟨2, ![2, 1600000]⟩) ⟨2, ![1, 1600000]⟩ off ei hsl) hsc⟩,
       ⟨⟨1, ![50000]⟩, iotaInDim ⟨1, ![50000]⟩ 32 0⟩] hcat (ix1 e) = Cert.Edges.ext ei r e := by
  unfold Cert.Edges.ext
  by_cases h : e.val < 1600000
  · rw [dif_pos h]
    refine (concatenate_pair_apply_left (t := ⟨1, ![1650000]⟩) (s₁ := ⟨1, ![1600000]⟩) (s₂ := ⟨1, ![50000]⟩) 0 _ _ hcat
      (ix1 e) rfl (ix1 ⟨e.val, h⟩) (fun b => ?_)).trans ?_
    · match b with
      | ⟨0, _⟩ => rfl
    · refine (shapeCast_apply _ hsc (ix1 ⟨e.val, h⟩) (ix2 (0 : Fin 1) ⟨e.val, h⟩) ?_).trans ?_
      · rw [Shape.rowMajor_val_two, Shape.rowMajor_val_one]
        show 0 * 1600000 + e.val = e.val
        omega
      · exact extractStridedSlice_apply off ei hsl (ix2 (0 : Fin 1) ⟨e.val, h⟩) (ix2 r ⟨e.val, h⟩) (fun a => by
          match a with
          | ⟨0, _⟩ => show r.val = off 0 + 0; omega
          | ⟨1, _⟩ => show e.val = off 1 + e.val; omega)
  · rw [dif_neg h]
    have h' : e.val - 1600000 < 50000 := by have := e.isLt; omega
    refine (concatenate_pair_apply_right (t := ⟨1, ![1650000]⟩) (s₁ := ⟨1, ![1600000]⟩) (s₂ := ⟨1, ![50000]⟩) 0 _ _ hcat
      (ix1 e) rfl rfl (ix1 ⟨e.val - 1600000, h'⟩) (fun b hb => ?_) ?_).trans ?_
    · exact absurd (Subsingleton.elim _ _) hb
    · show (e.val - 1600000) + 1600000 = e.val
      omega
    · rfl

/-! ## Index vectors as columns -/

/-- A vector laid out as a column holds the vector's entry `e` at `(e, 0)`. -/
theorem col_eq {α : Type} {E : Nat} (hE : E ≠ 1) (v : (⟨1, ![E]⟩ : Shape).Idx → α)
    (hb : (⟨1, ![E]⟩ : Shape).BroadcastsInDim ⟨2, ![E, 1]⟩ ![0]) :
    broadcastInDim ⟨2, ![E, 1]⟩ ![0] hb v = fun i => v (ix1 (i 0)) := by
  funext i
  obtain ⟨a, u, rfl⟩ : ∃ a u, i = ix2 a u := ⟨_, _, eq_ix2 i⟩
  exact Cert.Bcast.col_apply hE v hb a u

/-- The signed compare with zero choosing between the index plus 50000 and the index is the wrap of the index. -/
theorem wrap_word (x : BitVec 32) :
    Scalar.select (IntOp.cmpi .slt x 0#32) (IntOp.addi x 50000#32) x = Cert.Edges.wrap x := by
  show (if BitVec.ofBool (x.slt 0#32) = 1#1 then x + 50000#32 else x) = if x.slt 0#32 then x + 50000#32 else x
  cases x.slt 0#32 <;> rfl

/-- The wrapped index vector, entry by entry. -/
theorem wrapVec_apply {E : Nat} (v : IVec ⟨1, ![E]⟩ 32)
    (hz : (⟨0, ![]⟩ : Shape).BroadcastsInDim ⟨1, ![E]⟩ ![]) (hc : (⟨0, ![]⟩ : Shape).BroadcastsInDim ⟨1, ![E]⟩ ![])
    (j : (⟨1, ![E]⟩ : Shape).Idx) :
    select (cmpi .slt v (broadcastInDim ⟨1, ![E]⟩ ![] hz (constantI ⟨0, ![]⟩ 32 0#32)))
        (addi v (broadcastInDim ⟨1, ![E]⟩ ![] hc (constantI ⟨0, ![]⟩ 32 50000#32))) v j = Cert.Edges.wrap (v j) := by
  show Scalar.select (IntOp.cmpi .slt (v j) (broadcastInDim ⟨1, ![E]⟩ ![] hz (constantI ⟨0, ![]⟩ 32 0#32) j))
    (IntOp.addi (v j) (broadcastInDim ⟨1, ![E]⟩ ![] hc (constantI ⟨0, ![]⟩ 32 50000#32) j)) (v j) = _
  rw [Cert.Bcast.scalar_apply _ hz j, Cert.Bcast.scalar_apply _ hc j]
  exact wrap_word (v j)

/-- The wrapped index vector as a column. -/
theorem wrapCol_eq {E : Nat} (hE : E ≠ 1) (v : IVec ⟨1, ![E]⟩ 32)
    (hz : (⟨0, ![]⟩ : Shape).BroadcastsInDim ⟨1, ![E]⟩ ![]) (hc : (⟨0, ![]⟩ : Shape).BroadcastsInDim ⟨1, ![E]⟩ ![])
    (hb : (⟨1, ![E]⟩ : Shape).BroadcastsInDim ⟨2, ![E, 1]⟩ ![0]) :
    broadcastInDim ⟨2, ![E, 1]⟩ ![0] hb
        (select (cmpi .slt v (broadcastInDim ⟨1, ![E]⟩ ![] hz (constantI ⟨0, ![]⟩ 32 0#32)))
          (addi v (broadcastInDim ⟨1, ![E]⟩ ![] hc (constantI ⟨0, ![]⟩ 32 50000#32))) v)
      = fun i => Cert.Edges.wrap (v (ix1 (i 0))) := by
  rw [col_eq hE _ hb]
  funext i
  exact wrapVec_apply v hz hc (ix1 (i 0))

/-! ## Float constants broadcast over a shape -/

/-- A rank-0 float word broadcast over a shape reads the word's value everywhere. -/
theorem const_apply {s : Shape} (h : (⟨0, ![]⟩ : Shape).BroadcastsInDim s ![]) (z : BitVec 32) (i : s.Idx) :
    (broadcastInDim s ![] h (constant (F := Ideal) ⟨0, ![]⟩ .f32 z) : FVec Ideal s .f32) i = Ideal.ofBits .f32 z :=
  Cert.Bcast.scalar_apply _ h i

/-- A rank-0 float zero broadcast over a shape is the extended real zero everywhere. -/
theorem zeros_apply {s : Shape} (h : (⟨0, ![]⟩ : Shape).BroadcastsInDim s ![]) (i : s.Idx) :
    (broadcastInDim s ![] h (constant (F := Ideal) ⟨0, ![]⟩ .f32 0x00000000#32) : FVec Ideal s .f32) i = 0 :=
  (const_apply h _ i).trans Ideal.ofBits_zero_f32

/-! ## Degree, normaliser, edge weight -/

/-- Ones scatter-added into zeros at the targets: the degree. -/
theorem deg_apply (ei : IVec ⟨2, ![2, 1600000]⟩ 32)
    {d : ScatterDims ⟨1, ![50000]⟩ ⟨2, ![1650000, 1]⟩ ⟨1, ![1650000]⟩} (hd : IsVecScatter d)
    (x : FVec Ideal ⟨1, ![50000]⟩ .f32) (hx : ∀ i, x i = 0)
    (u : FVec Ideal ⟨1, ![1650000]⟩ .f32) (hu : ∀ i, u i = Ideal.ofBits .f32 0x3F800000#32)
    (D : IVec ⟨2, ![1650000, 1]⟩ 32) (hD : D = Cert.Edges.dstCol ei) (n : Fin 50000) :
    Host.scatterAdd d x D u (ix1 n) = Cert.Edges.deg ei n := by
  subst hD
  rw [scatterAdd_vec_apply hd, hx]
  unfold Cert.Edges.deg
  exact congrArg (0 + ·) (Finset.sum_congr rfl fun e _ => hu _)

/-- `select (d > 0) (rsqrt d) 0`, entry by entry: the normaliser of the entry. -/
theorem dis_apply {s : Shape} (d z z' : FVec Ideal s .f32) (hz : ∀ i, z i = 0) (hz' : ∀ i, z' i = 0) (i : s.Idx) :
    select (cmpf .ogt d z) (Host.rsqrt d) z' i = Cert.GcnLaw.normaliser (d i) := by
  show Scalar.select (Ideal.cmp .ogt (d i) (z i)) (Ideal.rsqrt (d i)) (z' i) = _
  rw [hz, hz']
  exact Cert.GcnLaw.select_eq_normaliser (d i)

/-- The normaliser vector gathered at the wrapped sources times the same gathered at the wrapped targets: the edge's
    weight. -/
theorem nrm_apply (ei : IVec ⟨2, ![2, 1600000]⟩ 32)
    {g g' : GatherDims ⟨1, ![50000]⟩ ⟨2, ![1650000, 1]⟩ ⟨1, ![1650000]⟩} (hg : IsVecGather g) (hg' : IsVecGather g')
    (dv : FVec Ideal ⟨1, ![50000]⟩ .f32) (hdv : ∀ n, dv (ix1 n) = Cert.Edges.dis ei n)
    (S T : IVec ⟨2, ![1650000, 1]⟩ 32) (hS : S = Cert.Edges.srcCol ei) (hT : T = Cert.Edges.dstWrapCol ei)
    (e : Fin 1650000) :
    mulf (Host.gather g dv S) (Host.gather g' dv T) (ix1 e) = Cert.Edges.nrm ei (ix1 e) := by
  subst hS hT
  show Host.gather g dv _ (ix1 e) * Host.gather g' dv _ (ix1 e) = _
  rw [gather_vec_apply hg pos_nodes, gather_vec_apply hg' pos_nodes, hdv, hdv]
  rfl

end Cert.EdgeCols

end
-- ==== Proof.KernelLayers.lean ====
/-
  The kernel's two graph layers, read entry by entry.

  On the host the kernel reads the source rows of a feature table, scales row `e` by the edge's weight and adds it
  into the target's row of a zero table: entry `(n, k)` of the result is `0 + Σ_{e into n} H[src e, k] · nrm e`. The
  launch that follows multiplies by the weight matrix, adds the bias and clamps at zero. Together that is a layer with
  the aggregation first.
-/
import proofs.«176707_j76776835383553_2_alg».proof.Proof.LibRowGatherScatter
import proofs.«176707_j76776835383553_2_alg».proof.Proof.LibBroadcast
import proofs.«176707_j76776835383553_2_alg».proof.Proof.LibEdgeCols
import proofs.«176707_j76776835383553_2_alg».proof.Proof.Spec
import proofs.«176707_j76776835383553_2_alg».proof.Proof.Edges
import proofs.«176707_j76776835383553_2_alg».proof.Proof.KernelHost
import proofs.«176707_j76776835383553_2_alg».proof.Proof.NodeArray

set_option maxRecDepth 16384

noncomputable section

open scoped BigOperators

namespace Cert.KernelIdeal.Bridge

open Cert.KernelIdeal Cert.KernelIdeal.Gen Idealize.ShloMosaic Idealize.ShloMosaic.ValueIdx Cert.RowGS Cert.Spec Cert.Edges Cert.KernelIdeal.Host

/-- THE AGGREGATION READ AT `(n, k)`: source rows scaled by the edge weights and added into zeros. -/
theorem agg_apply {K : Nat} {g : GatherDims ⟨2, ![50000, K]⟩ ⟨2, ![1650000, 1]⟩ ⟨2, ![1650000, K]⟩} (hg : IsRowGather g)
    {sc : ScatterDims ⟨2, ![50000, K]⟩ ⟨2, ![1650000, 1]⟩ ⟨2, ![1650000, K]⟩} (hsc : IsRowScatter sc)
    (H : Tbl 50000 K) (S D : IVec ⟨2, ![1650000, 1]⟩ 32) (nv : Vct 1650000)
    (hz : (⟨0, ![]⟩ : Shape).BroadcastsInDim ⟨2, ![50000, K]⟩ ![])
    (hn1 : (⟨1, ![1650000]⟩ : Shape).BroadcastsInDim ⟨2, ![1650000, 1]⟩ ![0])
    (hn2 : (⟨2, ![1650000, 1]⟩ : Shape).BroadcastsInDim ⟨2, ![1650000, K]⟩ ![0, 1]) (n : Fin 50000) (k : Fin K) :
    Host.scatterAdd (φ := .f32) sc (broadcastInDim ⟨2, ![50000, K]⟩ ![] hz (constant (F := Ideal) ⟨0, ![]⟩ .f32 0x00000000#32)) D
        (mulf (Host.gather g H S : FVec Ideal ⟨2, ![1650000, K]⟩ .f32)
          (broadcastInDim ⟨2, ![1650000, K]⟩ ![0, 1] hn2 (broadcastInDim ⟨2, ![1650000, 1]⟩ ![0] hn1 nv))) (ix2 n k)
      = 0 + ∑ e ∈ into D n, H (ix2 (srcRow pos_nodes S e) k) * nv (ix1 e) := by
  rw [scatterAdd_row_apply hsc _ D _ n k, Cert.EdgeCols.zeros_apply hz]
  refine congrArg (fun s => (0 : EReal) + s) (Finset.sum_congr rfl fun e _ => ?_)
  rw [mulf_apply, gather_row_apply hg pos_nodes H S e k, Cert.Bcast.rows_of_col_apply (by decide) _ hn2 e k,
    Cert.Bcast.col_apply (by decide) nv hn1 e (0 : Fin 1)]

/-! ## The index columns are the edge bookkeeping's -/

variable (ei : IVec ⟨2, ![2, 1600000]⟩ 32)

theorem srcCol_eq : colV (wrapV (extVec ei 0 slices_S2x1600000_S1x1600000_0_0)) = srcCol ei := by
  rw [show colV (wrapV (extVec ei 0 slices_S2x1600000_S1x1600000_0_0)) = _ from
    Cert.EdgeCols.wrapCol_eq (by decide) (extVec ei 0 slices_S2x1600000_S1x1600000_0_0) bcast_S_S1650000 bcast_S_S1650000 bcast_S1650000_S1650000x1_0]
  funext i
  show wrap (extVec ei 0 slices_S2x1600000_S1x1600000_0_0 (ix1 (i 0))) = wrap (ext ei 0 (i 0))
  rw [show extVec ei 0 slices_S2x1600000_S1x1600000_0_0 (ix1 (i 0)) = _ from
    Cert.EdgeCols.ext_apply ei 0 ![0, 0] rfl rfl slices_S2x1600000_S1x1600000_0_0 shapeCasts_S1x1600000_S1600000 concatenates_S1600000_S50000_S1650000_d0 (i 0)]

theorem dstWrapCol_eq : colV (wrapV (extVec ei 1 slices_S2x1600000_S1x1600000_1_0)) = dstWrapCol ei := by
  rw [show colV (wrapV (extVec ei 1 slices_S2x1600000_S1x1600000_1_0)) = _ from
    Cert.EdgeCols.wrapCol_eq (by decide) (extVec ei 1 slices_S2x1600000_S1x1600000_1_0) bcast_S_S1650000 bcast_S_S1650000 bcast_S1650000_S1650000x1_0]
  funext i
  show wrap (extVec ei 1 slices_S2x1600000_S1x1600000_1_0 (ix1 (i 0))) = wrap (ext ei 1 (i 0))
  rw [show extVec ei 1 slices_S2x1600000_S1x1600000_1_0 (ix1 (i 0)) = _ from
    Cert.EdgeCols.ext_apply ei 1 ![1, 0] rfl rfl slices_S2x1600000_S1x1600000_1_0 shapeCasts_S1x1600000_S1600000 concatenates_S1600000_S50000_S1650000_d0 (i 0)]

theorem dstCol_eq : colV (extVec ei 1 slices_S2x1600000_S1x1600000_1_0) = dstCol ei := by
  rw [show colV (extVec ei 1 slices_S2x1600000_S1x1600000_1_0) = _ from
    Cert.EdgeCols.col_eq (by decide) (extVec ei 1 slices_S2x1600000_S1x1600000_1_0) bcast_S1650000_S1650000x1_0]
  funext i
  show extVec ei 1 slices_S2x1600000_S1x1600000_1_0 (ix1 (i 0)) = ext ei 1 (i 0)
  exact Cert.EdgeCols.ext_apply ei 1 ![1, 0] rfl rfl slices_S2x1600000_S1x1600000_1_0 shapeCasts_S1x1600000_S1600000 concatenates_S1600000_S50000_S1650000_d0 (i 0)

/-! ## The weights -/

theorem deg_eq (n : Fin 50000) : degV (extVec ei 1 slices_S2x1600000_S1x1600000_1_0) (ix1 n) = deg ei n :=
  Cert.EdgeCols.deg_apply ei (d := scatter_S50000_S1650000x1_S1650000_n_0_0_1) ⟨rfl, rfl, rfl, rfl⟩ _ (Cert.EdgeCols.zeros_apply bcast_S_S50000) _
    (Cert.EdgeCols.const_apply bcast_S_S1650000 0x3F800000#32) _ (dstCol_eq ei) n

theorem dis_eq (n : Fin 50000) : disV (degV (extVec ei 1 slices_S2x1600000_S1x1600000_1_0)) (ix1 n) = dis ei n := by
  rw [show disV (degV (extVec ei 1 slices_S2x1600000_S1x1600000_1_0)) (ix1 n) = _ from
    Cert.EdgeCols.dis_apply _ _ _ (Cert.EdgeCols.zeros_apply bcast_S_S50000) (Cert.EdgeCols.zeros_apply bcast_S_S50000) (ix1 n), deg_eq]
  rfl

theorem nrm_eq : nrmG (disV (degV (extVec ei 1 slices_S2x1600000_S1x1600000_1_0))) (extVec ei 0 slices_S2x1600000_S1x1600000_0_0) (extVec ei 1 slices_S2x1600000_S1x1600000_1_0) = nrm ei := by
  funext i
  obtain ⟨e, rfl⟩ : ∃ e : Fin 1650000, i = ix1 e := ⟨i 0, eq_ix1 i⟩
  exact Cert.EdgeCols.nrm_apply ei (g := gather_S50000_S1650000x1_S1650000_n_0_n_n_0_1_1) (g' := gather_S50000_S1650000x1_S1650000_n_0_n_n_0_1_1) ⟨rfl, rfl, rfl, rfl, rfl, rfl, rfl⟩ ⟨rfl, rfl, rfl, rfl, rfl, rfl, rfl⟩ _ (dis_eq ei) _ _ (srcCol_eq ei) (dstWrapCol_eq ei) e

/-! ## The two layers -/

/-- The first launch's table is a layer with the aggregation first. -/
theorem layer1_eq (x : Tbl 50000 16) (W : Tbl 16 64) (b : Vct 64) :
    NodeArray.dense (agg16 x (extVec ei 0 slices_S2x1600000_S1x1600000_0_0) (extVec ei 1 slices_S2x1600000_S1x1600000_1_0) (nrm ei)) W b
      = layerAggregateFirst (srcCol ei) (dstCol ei) (nrm ei) x W b := by
  funext i
  unfold NodeArray.dense layerAggregateFirst
  refine congrArg₂ max (congrArg₂ (· + ·) (Finset.sum_congr rfl fun k _ => congrArg₂ (· * ·) ?_ rfl) rfl) rfl
  rw [show agg16 x (extVec ei 0 slices_S2x1600000_S1x1600000_0_0) (extVec ei 1 slices_S2x1600000_S1x1600000_1_0) (nrm ei) (ix2 (i 0) k) = _ from
    agg_apply (g := gather_S50000x16_S1650000x1_S1650000x16_1_0_n_n_0_1_116) ⟨rfl, rfl, rfl, rfl, rfl, rfl, rfl⟩ (sc := scatter_S50000x16_S1650000x1_S1650000x16_1_0_0_1) ⟨rfl, rfl, rfl, rfl⟩ x _ _ (nrm ei)
      bcast_S_S50000x16 bcast_S1650000_S1650000x1_0 bcast_S1650000x1_S1650000x16_0_1 (i 0) k, srcCol_eq, dstCol_eq]

/-- The second launch's table likewise. -/
theorem layer2_eq (H : Tbl 50000 64) (W : Tbl 64 64) (b : Vct 64) :
    NodeArray.dense (agg64 H (extVec ei 0 slices_S2x1600000_S1x1600000_0_0) (extVec ei 1 slices_S2x1600000_S1x1600000_1_0) (nrm ei)) W b
      = layerAggregateFirst (srcCol ei) (dstCol ei) (nrm ei) H W b := by
  funext i
  unfold NodeArray.dense layerAggregateFirst
  refine congrArg₂ max (congrArg₂ (· + ·) (Finset.sum_congr rfl fun k _ => congrArg₂ (· * ·) ?_ rfl) rfl) rfl
  rw [show agg64 H (extVec ei 0 slices_S2x1600000_S1x1600000_0_0) (extVec ei 1 slices_S2x1600000_S1x1600000_1_0) (nrm ei) (ix2 (i 0) k) = _ from
    agg_apply (g := gather_S50000x64_S1650000x1_S1650000x64_1_0_n_n_0_1_164) ⟨rfl, rfl, rfl, rfl, rfl, rfl, rfl⟩ (sc := scatter_S50000x64_S1650000x1_S1650000x64_1_0_0_1) ⟨rfl, rfl, rfl, rfl⟩ H _ _ (nrm ei)
      bcast_S_S50000x64 bcast_S1650000_S1650000x1_0 bcast_S1650000x1_S1650000x64_0_1 (i 0) k, srcCol_eq, dstCol_eq]

end Cert.KernelIdeal.Bridge

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.KernelEdge.lean ====
/-
  The kernel's per-edge network, read at one given edge.

  The last launch scores 1605632 rows: the 1600000 given edges followed by 5632 rows of zeros, which the final slice
  drops. At a given edge `e` the padded endpoint tables hold the second layer's row at the edge's (wrapped, clamped)
  endpoint, the padded attribute table holds the edge's attributes, and the three weight blocks are rows 0–63, 64–127
  and 128–135 of the first weight matrix: the three products of the first layer add up to the one product over all
  136 inputs. The other two layers are the specification's term for term.
-/
import proofs.«176707_j76776835383553_2_alg».proof.Proof.LibRowGatherScatter
import proofs.«176707_j76776835383553_2_alg».proof.Proof.LibEdgeCols
import proofs.«176707_j76776835383553_2_alg».proof.Proof.LibRealSum
import proofs.«176707_j76776835383553_2_alg».proof.Proof.Spec
import proofs.«176707_j76776835383553_2_alg».proof.Proof.Edges
import proofs.«176707_j76776835383553_2_alg».proof.Proof.KernelHost
import proofs.«176707_j76776835383553_2_alg».proof.Proof.EdgeBody
import Idealize.ShloMosaic.Lib.KernelVsHost
import Idealize.ShloMosaic.Lib.ValueLayout
import Idealize.ShloMosaic.Lib.Pipeline.Value

set_option maxRecDepth 16384

noncomputable section

open scoped BigOperators

namespace Cert.KernelIdeal.EdgeBridge

open Cert.KernelIdeal Cert.KernelIdeal.Gen Idealize.ShloMosaic Idealize.ShloMosaic.ValueIdx Cert.RowGS Cert.Spec Cert.Edges Cert.KernelIdeal.Host

variable (ei : IVec ⟨2, ![2, 1600000]⟩ 32)

/-- Row `r` of the edge table read at a given edge. -/
theorem endV_apply (r : Fin 2) (hs : S2x1600000.Slices ![r.val, 0] S1x1600000) (e : Fin 1600000) :
    endV ei r.val hs (ix1 e) = ei (ix2 r e) := by
  refine (shapeCast_1a_a_apply _ shapeCasts_S1x1600000_S1600000 e).trans ?_
  exact extractStridedSlice_apply ![r.val, 0] ei hs (ix2 (0 : Fin 1) e) (ix2 r e) (fun a => by
    match a with
    | ⟨0, _⟩ => show r.val = r.val + 0; omega
    | ⟨1, _⟩ => show e.val = 0 + e.val; omega)

/-- The wrapped endpoint columns are the edge bookkeeping's. -/
theorem endCol_eq (r : Fin 2) (hs : S2x1600000.Slices ![r.val, 0] S1x1600000) : colE (wrapE (endV ei r.val hs)) = endCol ei r := by
  rw [show colE (wrapE (endV ei r.val hs)) = _ from
    Cert.EdgeCols.wrapCol_eq (by decide) (endV ei r.val hs) bcast_S_S1600000 bcast_S_S1600000 bcast_S1600000_S1600000x1_0]
  funext i
  exact congrArg wrap (endV_apply ei r hs (i 0))

/-- A given edge's row among the padded rows. -/
abbrev row (e : Fin 1600000) : Fin 1605632 := ⟨e.val, by have := e.isLt; omega⟩

/-- The padded endpoint table at a given edge: the table's row at the edge's endpoint. -/
theorem hEnd_apply (h : Tbl 50000 64) (v : IVec S1600000 32) (e : Fin 1600000) (q : Fin 64) :
    hEnd h v (ix2 (row e) q) = h (ix2 (srcRow pos_nodes (colE (wrapE v)) e) q) := by
  refine (pad_apply_of_inside ![0, 0] ![5632, 0] ![0, 0] _ padZero pads_S1600000x64_S1605632x64_056320_000 h_S_ (ix2 (row e) q) (ix2 e q) (fun a => by
    match a with
    | ⟨0, _⟩ => show e.val = 0 + e.val * (0 + 1); omega
    | ⟨1, _⟩ => show q.val = 0 + q.val * (0 + 1); omega)).trans ?_
  exact gather_row_apply (g := gather_S50000x64_S1600000x1_S1600000x64_1_0_n_n_0_1_164) ⟨rfl, rfl, rfl, rfl, rfl, rfl, rfl⟩ pos_nodes h _ e q

/-- The padded attribute table at a given edge: the edge's attributes. -/
theorem eaPad_apply (ea : Tbl 1600000 8) (e : Fin 1600000) (q : Fin 8) : eaPad ea (ix2 (row e) q) = ea (ix2 e q) := by
  refine (pad_apply_of_inside ![0, 0] ![5632, 0] ![0, 0] _ padZero pads_S1600000x8_S1605632x8_056320_000 h_S_ (ix2 (row e) q) (ix2 e q) (fun a => by
    match a with
    | ⟨0, _⟩ => show e.val = 0 + e.val * (0 + 1); omega
    | ⟨1, _⟩ => show q.val = 0 + q.val * (0 + 1); omega)).trans ?_
  rfl

section Blocks
variable (mW1 : Tbl 136 128)

/-- The three row blocks of the first weight matrix. -/
theorem blk0_apply (q : Fin 64) (c : Fin 128) :
    extractStridedSlice S64x128 ![0, 0] (mW1 : FVec Ideal S136x128 .f32) slices_S136x128_S64x128_0_0 (ix2 q c) = mW1 (ix2 ⟨q.val, by omega⟩ c) :=
  extractStridedSlice_apply ![0, 0] _ slices_S136x128_S64x128_0_0 (ix2 q c) (ix2 ⟨q.val, by omega⟩ c) (fun a => by
    match a with
    | ⟨0, _⟩ => show q.val = 0 + q.val; omega
    | ⟨1, _⟩ => show c.val = 0 + c.val; omega)
theorem blk1_apply (q : Fin 64) (c : Fin 128) :
    extractStridedSlice S64x128 ![64, 0] (mW1 : FVec Ideal S136x128 .f32) slices_S136x128_S64x128_64_0 (ix2 q c) = mW1 (ix2 ⟨64 + q.val, by omega⟩ c) :=
  extractStridedSlice_apply ![64, 0] _ slices_S136x128_S64x128_64_0 (ix2 q c) (ix2 ⟨64 + q.val, by omega⟩ c) (fun a => by
    match a with
    | ⟨0, _⟩ => show 64 + q.val = 64 + q.val; rfl
    | ⟨1, _⟩ => show c.val = 0 + c.val; omega)
theorem blk2_apply (q : Fin 8) (c : Fin 128) :
    extractStridedSlice S8x128 ![128, 0] (mW1 : FVec Ideal S136x128 .f32) slices_S136x128_S8x128_128_0 (ix2 q c) = mW1 (ix2 ⟨128 + q.val, by omega⟩ c) :=
  extractStridedSlice_apply ![128, 0] _ slices_S136x128_S8x128_128_0 (ix2 q c) (ix2 ⟨128 + q.val, by omega⟩ c) (fun a => by
    match a with
    | ⟨0, _⟩ => show 128 + q.val = 128 + q.val; rfl
    | ⟨1, _⟩ => show c.val = 0 + c.val; omega)
end Blocks

section Net
variable (h : Tbl 50000 64) (ea : Tbl 1600000 8) (mW1 : Tbl 136 128) (mb1 : Vct 128) (mW2 : Tbl 128 64) (mb2 : Vct 64) (mW3 : Tbl 64 1) (mb3 : Vct 1)

/-- The edge's 136 inputs, block by block. -/
theorem edgeIn_lo (S0 S1 : IVec ⟨2, ![1600000, 1]⟩ 32) (e : Fin 1600000) (q : Fin 64) :
    edgeIn h S0 S1 ea e ⟨q.val, by omega⟩ = h (ix2 (srcRow pos_nodes S0 e) q) := by
  unfold edgeIn; rw [dif_pos (show q.val < 64 from q.isLt)]
theorem edgeIn_mid (S0 S1 : IVec ⟨2, ![1600000, 1]⟩ 32) (e : Fin 1600000) (q : Fin 64) :
    edgeIn h S0 S1 ea e ⟨64 + q.val, by omega⟩ = h (ix2 (srcRow pos_nodes S1 e) q) := by
  unfold edgeIn
  rw [dif_neg (show ¬ 64 + q.val < 64 by omega), dif_pos (show 64 + q.val < 128 by have := q.isLt; omega)]
  exact congrArg (fun k => h (ix2 (srcRow pos_nodes S1 e) k)) (Fin.ext (by show 64 + q.val - 64 = q.val; omega))
theorem edgeIn_hi (S0 S1 : IVec ⟨2, ![1600000, 1]⟩ 32) (e : Fin 1600000) (q : Fin 8) :
    edgeIn h S0 S1 ea e ⟨128 + q.val, by omega⟩ = ea (ix2 e q) := by
  unfold edgeIn
  rw [dif_neg (show ¬ 128 + q.val < 64 by omega), dif_neg (show ¬ 128 + q.val < 128 by omega)]
  exact congrArg (fun k => ea (ix2 e k)) (Fin.ext (by show 128 + q.val - 128 = q.val; omega))

abbrev w1c := extractStridedSlice S64x128 ![0, 0] (mW1 : FVec Ideal S136x128 .f32) slices_S136x128_S64x128_0_0
abbrev w1n := extractStridedSlice S64x128 ![64, 0] (mW1 : FVec Ideal S136x128 .f32) slices_S136x128_S64x128_64_0
abbrev w1e := extractStridedSlice S8x128 ![128, 0] (mW1 : FVec Ideal S136x128 .f32) slices_S136x128_S8x128_128_0
abbrev hcT := hEnd h (endV ei 0 slices_S2x1600000_S1x1600000_0_0)
abbrev hnT := hEnd h (endV ei 1 slices_S2x1600000_S1x1600000_1_0)

/-- The first hidden layer at a given edge: three products add up to the one over the 136 inputs. -/
theorem hid1_eq (e : Fin 1600000) (c : Fin 128) :
    EdgeBody.hid1 (hcT ei h) (hnT ei h) (eaPad ea) (w1c mW1) (w1n mW1) (w1e mW1) mb1 (row e) c
      = dense1 h (endCol ei 0) (endCol ei 1) ea mW1 mb1 e c := by
  unfold EdgeBody.hid1 dense1
  refine congrArg₂ max (congrArg₂ (· + ·) ?_ rfl) rfl
  rw [Cert.RealSum.sum_split_136]
  refine congrArg₂ (· + ·) (congrArg₂ (· + ·) (Finset.sum_congr rfl fun q _ => ?_) (Finset.sum_congr rfl fun q _ => ?_)) (Finset.sum_congr rfl fun q _ => ?_)
  · rw [edgeIn_lo, show hcT ei h (ix2 (row e) q) = _ from hEnd_apply h _ e q, show w1c mW1 (ix2 q c) = _ from blk0_apply mW1 q c,
      show colE (wrapE (endV ei 0 slices_S2x1600000_S1x1600000_0_0)) = endCol ei 0 from endCol_eq ei 0 slices_S2x1600000_S1x1600000_0_0]
  · rw [edgeIn_mid, show hnT ei h (ix2 (row e) q) = _ from hEnd_apply h _ e q, show w1n mW1 (ix2 q c) = _ from blk1_apply mW1 q c,
      show colE (wrapE (endV ei 1 slices_S2x1600000_S1x1600000_1_0)) = endCol ei 1 from endCol_eq ei 1 slices_S2x1600000_S1x1600000_1_0]
  · rw [edgeIn_hi, eaPad_apply, show w1e mW1 (ix2 q c) = _ from blk2_apply mW1 q c]

/-- The second hidden layer at a given edge. -/
theorem hid2_eq (e : Fin 1600000) (c : Fin 64) :
    EdgeBody.hid2 (hcT ei h) (hnT ei h) (eaPad ea) (w1c mW1) (w1n mW1) (w1e mW1) mb1 mW2 mb2 (row e) c
      = dense2 h (endCol ei 0) (endCol ei 1) ea mW1 mb1 mW2 mb2 e c := by
  unfold EdgeBody.hid2 dense2
  refine congrArg₂ max (congrArg₂ (· + ·) (Finset.sum_congr rfl fun q _ => congrArg₂ (· * ·) (hid1_eq ei h ea mW1 mb1 e q) rfl) rfl) rfl

/-- THE SCORES OF THE GIVEN EDGES: the padded scores with the padding dropped are the specification's. -/
theorem score_eq :
    extractStridedSlice S1600000 ![0]
        (EdgeBody.out (hcT ei h) (hnT ei h) (eaPad ea) (w1c mW1) (w1n mW1) (w1e mW1) mb1 mW2 mb2 mW3 mb3 : FVec Ideal S1605632 .f32)
        slices_S1605632_S1600000_0
      = score h (endCol ei 0) (endCol ei 1) ea mW1 mb1 mW2 mb2 mW3 mb3 := by
  funext i
  obtain ⟨e, rfl⟩ : ∃ e : Fin 1600000, i = ix1 e := ⟨i 0, eq_ix1 i⟩
  refine (extractStridedSlice_apply ![0] _ slices_S1605632_S1600000_0 (ix1 e) (ix1 (row e)) (fun a => by
    match a with
    | ⟨0, _⟩ => show e.val = 0 + e.val; omega)).trans ?_
  unfold EdgeBody.out score
  refine congrArg₂ (· + ·) (Finset.sum_congr rfl fun q _ => congrArg₂ (· * ·) ?_ rfl) rfl
  exact hid2_eq ei h ea mW1 mb1 mW2 mb2 e q

end Net

end Cert.KernelIdeal.EdgeBridge

end
-- ==== Proof.SpecLaw.lean ====
/-
  The two orders of a graph layer agree on real data, and real data stay real.

  With every entry of the feature table, the weight matrix and the edge weights a real number, summing over the edges
  before or after multiplying by the weight matrix gives the same extended real: both are the double sum of
  `H[src e, k] · W[k, j] · nrm e`. On the extended reals the exchange needs the entries real (a product with an
  infinity does not distribute over a sum). A layer's output is a maximum of a finite sum of products of reals, plus a
  real, with zero: real again, so the second layer's input qualifies. The edge weights are products of two
  normalisers, each non-negative and never `+∞`: real whatever the edge table holds.
-/
import proofs.«176707_j76776835383553_2_alg».proof.Proof.Spec
import proofs.«176707_j76776835383553_2_alg».proof.Proof.Edges
import proofs.«176707_j76776835383553_2_alg».proof.Proof.LibRealSum
import proofs.«176707_j76776835383553_2_alg».proof.Proof.LibGcnLaw

noncomputable section

open scoped BigOperators

namespace Cert.SpecLaw

open Idealize.ShloMosaic Idealize.ShloMosaic.ValueIdx Cert.RowGS Cert.Spec Cert.Edges Cert.RealSum

section Layer
variable {K : Nat} (S D : IVec ⟨2, ![1650000, 1]⟩ 32) (nv : Vct 1650000) (H : Tbl 50000 K) (W : Tbl K 64) (b : Vct 64)

/-- Aggregating first or multiplying first is the same layer, on real data. -/
theorem layer_orders_agree (hH : ∀ i, IsReal (H i)) (hW : ∀ i, IsReal (W i)) (hn : ∀ i, IsReal (nv i)) :
    layerAggregateFirst S D nv H W b = layerMatmulFirst S D nv H W b := by
  funext i
  unfold layerAggregateFirst layerMatmulFirst
  refine congrArg₂ max (congrArg₂ (· + ·) ?_ rfl) rfl
  exact (commute (into D (i 0)) (fun e k => H (ix2 (srcRow pos_nodes S e) k)) (fun k => W (ix2 k (i 1)))
    (fun e => nv (ix1 e)) (fun e k => hH _) (fun k => hW _) (fun e => hn _)).symm

/-- A layer of real data is real. -/
theorem layer_real (hH : ∀ i, IsReal (H i)) (hW : ∀ i, IsReal (W i)) (hn : ∀ i, IsReal (nv i)) (hb : ∀ i, IsReal (b i))
    (i : (⟨2, ![50000, 64]⟩ : Shape).Idx) : IsReal (layerMatmulFirst S D nv H W b i) := by
  unfold layerMatmulFirst
  exact IsReal.max (IsReal.add (IsReal.add isReal_zero (isReal_sum _ _ fun e _ =>
    IsReal.mul (isReal_sum _ _ fun k _ => IsReal.mul (hH _) (hW _)) (hn _))) (hb _)) isReal_zero

end Layer

/-- A normaliser is a real number. -/
theorem dis_real (ei : IVec ⟨2, ![2, 1600000]⟩ 32) (n : Fin 50000) : IsReal (dis ei n) :=
  isReal_of_nonneg_of_ne_top (Cert.GcnLaw.normaliser_nonneg _) (Cert.GcnLaw.normaliser_ne_top _)

/-- An edge weight is a real number. -/
theorem nrm_real (ei : IVec ⟨2, ![2, 1600000]⟩ 32) (i : (⟨1, ![1650000]⟩ : Shape).Idx) : IsReal (nrm ei i) :=
  IsReal.mul (dis_real ei _) (dis_real ei _)

/-- TWO LAYERS, EITHER ORDER: on real inputs the table after two aggregate-first layers is the table after two
    multiply-first layers. -/
theorem two_layers_agree (ei : IVec ⟨2, ![2, 1600000]⟩ 32) (x : Tbl 50000 16) (W1 : Tbl 16 64) (b1 : Vct 64) (W2 : Tbl 64 64) (b2 : Vct 64)
    (hx : ∀ i, IsReal (x i)) (hW1 : ∀ i, IsReal (W1 i)) (hb1 : ∀ i, IsReal (b1 i)) (hW2 : ∀ i, IsReal (W2 i)) :
    layerAggregateFirst (srcCol ei) (dstCol ei) (nrm ei) (layerAggregateFirst (srcCol ei) (dstCol ei) (nrm ei) x W1 b1) W2 b2
      = layerMatmulFirst (srcCol ei) (dstCol ei) (nrm ei) (layerMatmulFirst (srcCol ei) (dstCol ei) (nrm ei) x W1 b1) W2 b2 := by
  rw [layer_orders_agree (srcCol ei) (dstCol ei) (nrm ei) x W1 b1 hx hW1 (nrm_real ei)]
  exact layer_orders_agree (srcCol ei) (dstCol ei) (nrm ei) _ W2 b2
    (layer_real (srcCol ei) (dstCol ei) (nrm ei) x W1 b1 hx hW1 (nrm_real ei) hb1) hW2 (nrm_real ei)

end Cert.SpecLaw

end
-- ==== Proof.KernelValue.lean ====
/-
  The idealized kernel's run, with its result stated by the specification.

  Every weakly fair execution of the kernel's @main terminates with the result buffer at the per-edge scores of the
  table obtained by two graph layers computed with the aggregation first; where the node features, the two layers'
  weight matrices and the first bias are real numbers, that table is the one obtained with the product first.
-/
import proofs.«176707_j76776835383553_2_alg».proof.Proof.KernelRun
import proofs.«176707_j76776835383553_2_alg».proof.Proof.KernelChain
import proofs.«176707_j76776835383553_2_alg».proof.Proof.KernelLayers
import proofs.«176707_j76776835383553_2_alg».proof.Proof.KernelEdge
import proofs.«176707_j76776835383553_2_alg».proof.Proof.SpecLaw

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.ValueIdx Cert.Spec Cert.Edges Cert.KernelIdeal.Host Cert.RealSum

variable (m : (ℓ : Loc nD τ sig) → Buf (Elt Ideal) ℓ) (ρ : Dev nD → PrngReg) (c : Dev nD)

/-- The arguments as the launch memory holds them, at the specification's types. -/
abbrev aX : Tbl 50000 16 := (m ((c.tc : Thread nD τ).loc main_arg0))
abbrev aEi : IVec ⟨2, ![2, 1600000]⟩ 32 := (m ((c.tc : Thread nD τ).loc main_arg1))
abbrev aEa : Tbl 1600000 8 := (m ((c.tc : Thread nD τ).loc main_arg2))
abbrev aW1 : Tbl 16 64 := (m ((c.tc : Thread nD τ).loc main_arg3))
abbrev aB1 : Vct 64 := (m ((c.tc : Thread nD τ).loc main_arg4))
abbrev aW2 : Tbl 64 64 := (m ((c.tc : Thread nD τ).loc main_arg5))
abbrev aB2 : Vct 64 := (m ((c.tc : Thread nD τ).loc main_arg6))
abbrev aMW1 : Tbl 136 128 := (m ((c.tc : Thread nD τ).loc main_arg7))
abbrev aMB1 : Vct 128 := (m ((c.tc : Thread nD τ).loc main_arg8))
abbrev aMW2 : Tbl 128 64 := (m ((c.tc : Thread nD τ).loc main_arg9))
abbrev aMB2 : Vct 64 := (m ((c.tc : Thread nD τ).loc main_arg10))
abbrev aMW3 : Tbl 64 1 := (m ((c.tc : Thread nD τ).loc main_arg11))
abbrev aMB3 : Vct 1 := (m ((c.tc : Thread nD τ).loc main_arg12))

/-- The scores over two layers computed with the aggregation first. -/
abbrev scoreAggFirst : Vct 1600000 :=
  score (layerAggregateFirst (srcCol (aEi m c)) (dstCol (aEi m c)) (nrm (aEi m c))
      (layerAggregateFirst (srcCol (aEi m c)) (dstCol (aEi m c)) (nrm (aEi m c)) (aX m c) (aW1 m c) (aB1 m c)) (aW2 m c) (aB2 m c))
    (endCol (aEi m c) 0) (endCol (aEi m c) 1) (aEa m c) (aMW1 m c) (aMB1 m c) (aMW2 m c) (aMB2 m c) (aMW3 m c) (aMB3 m c)

/-- The scores over two layers computed with the product first: the reference's order. -/
abbrev scoreMatmulFirst : Vct 1600000 :=
  score (layerMatmulFirst (srcCol (aEi m c)) (dstCol (aEi m c)) (nrm (aEi m c))
      (layerMatmulFirst (srcCol (aEi m c)) (dstCol (aEi m c)) (nrm (aEi m c)) (aX m c) (aW1 m c) (aB1 m c)) (aW2 m c) (aB2 m c))
    (endCol (aEi m c) 0) (endCol (aEi m c) 1) (aEa m c) (aMW1 m c) (aMB1 m c) (aMW2 m c) (aMB2 m c) (aMW3 m c) (aMB3 m c)

/-- The last boundary's contents at the result are the aggregate-first scores. -/
theorem last_eq : W15 m ρ c (Proc.devRef .tc main_v84) = scoreAggFirst m c := by
  rw [Chain.result]
  have hn : Chain.nr m ρ c = nrm (aEi m c) := Bridge.nrm_eq (aEi m c)
  have h1 : Chain.h1 m ρ c = layerAggregateFirst (srcCol (aEi m c)) (dstCol (aEi m c)) (nrm (aEi m c)) (aX m c) (aW1 m c) (aB1 m c) := by
    show NodeArray.dense (agg16 (aX m c) (Chain.e0 m ρ c) (Chain.e1 m ρ c) (Chain.nr m ρ c)) (aW1 m c) (aB1 m c) = _
    rw [hn]
    exact Bridge.layer1_eq (aEi m c) (aX m c) (aW1 m c) (aB1 m c)
  have h2 : Chain.h2 m ρ c = layerAggregateFirst (srcCol (aEi m c)) (dstCol (aEi m c)) (nrm (aEi m c))
      (layerAggregateFirst (srcCol (aEi m c)) (dstCol (aEi m c)) (nrm (aEi m c)) (aX m c) (aW1 m c) (aB1 m c)) (aW2 m c) (aB2 m c) := by
    show NodeArray.dense (agg64 (Chain.h1 m ρ c) (Chain.e0 m ρ c) (Chain.e1 m ρ c) (Chain.nr m ρ c)) (aW2 m c) (aB2 m c) = _
    rw [hn, h1]
    exact Bridge.layer2_eq (aEi m c) _ (aW2 m c) (aB2 m c)
  show extractStridedSlice S1600000 ![0]
      (EdgeBody.out (hEnd (Chain.h2 m ρ c) (endV (aEi m c) 0 slices_S2x1600000_S1x1600000_0_0))
        (hEnd (Chain.h2 m ρ c) (endV (aEi m c) 1 slices_S2x1600000_S1x1600000_1_0)) (eaPad (aEa m c))
        (EdgeBridge.w1c (aMW1 m c)) (EdgeBridge.w1n (aMW1 m c)) (EdgeBridge.w1e (aMW1 m c))
        (aMB1 m c) (aMW2 m c) (aMB2 m c) (aMW3 m c) (aMB3 m c) : FVec Ideal S1605632 .f32) slices_S1605632_S1600000_0 = _
  rw [h2]
  exact EdgeBridge.score_eq (aEi m c) _ (aEa m c) (aMW1 m c) (aMB1 m c) (aMW2 m c) (aMB2 m c) (aMW3 m c) (aMB3 m c)

/-- On real node features, layer weights and first bias, the two orders give the same scores. -/
theorem orders_agree (hx : ∀ i, IsReal (aX m c i)) (hW1 : ∀ i, IsReal (aW1 m c i)) (hb1 : ∀ i, IsReal (aB1 m c i))
    (hW2 : ∀ i, IsReal (aW2 m c i)) : scoreAggFirst m c = scoreMatmulFirst m c := by
  show score _ _ _ _ _ _ _ _ _ _ = score _ _ _ _ _ _ _ _ _ _
  rw [Cert.SpecLaw.two_layers_agree (aEi m c) (aX m c) (aW1 m c) (aB1 m c) (aW2 m c) (aB2 m c) hx hW1 hb1 hW2]

/-- THE KERNEL'S RUN: every weakly fair execution terminates, nothing faulting, with the result at the reference-order
    scores of the launch memory's arguments — given those four arguments real on every core — and the arguments as launched. -/
theorem run (hx : ∀ c i, IsReal (aX m c i)) (hW1 : ∀ c i, IsReal (aW1 m c i)) (hb1 : ∀ c i, IsReal (aB1 m c i))
    (hW2 : ∀ c i, IsReal (aW2 m c i)) :
    θ_run defs (onTc (τ := τ) (main (F := Ideal))) ⟨m, fun _ => 0, ρ⟩ (fun r => ∀ c : Dev nD,
      r.2.mem ((c.tc : Thread nD τ).loc main_v84) = scoreMatmulFirst m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1.trans (last_eq m ρ c)).trans (orders_agree m c (hx c) (hW1 c) (hb1 c) (hW2 c)), (h c).2⟩)
    (Cert.KernelIdeal.Whole.run_result (F := Ideal) m ρ)

end Cert.KernelIdeal.Value

end
-- ==== Proof.RefCols.lean ====
/-
  The reference's edge bookkeeping stages are the specification's columns and weights.

  The integer stages: the two concatenations are the extended edge rows, each wrapped-and-laid-out column is the
  wrapped source / target column, each plain column the target column, and the two 1600000-row ones the wrapped
  endpoint columns of the given edges. The float stages: the scatter-added ones are the degree, the selection is the
  normaliser, the product of the two gathers is the edge weight.
-/
import proofs.«176707_j76776835383553_2_alg».proof.Proof.RefReadP
import proofs.«176707_j76776835383553_2_alg».proof.Proof.LibEdgeCols

noncomputable section

namespace Cert.RefValue

open Cert.ReferenceIdeal Cert.ReferenceIdeal.Gen Cert.ReferenceIdeal.ReadP
open Idealize.ShloMosaic Idealize.ShloMosaic.ValueIdx Cert.RowGS Cert.VecGather Cert.Spec Cert.EdgeCols

variable (ei : IVec ⟨2, ![2, 1600000]⟩ 32)

/-! ## The extended edge rows -/

theorem v3_apply (e : Fin 1650000) : val_main_v3 (F := Ideal) ei (ix1 e) = Cert.Edges.ext ei 0 e := by
  unfold val_main_v3 val_main_v2 val_main_v1 val_main_v0
  exact ext_apply ei 0 ![0, 0] rfl rfl _ _ _ e

theorem v6_apply (e : Fin 1650000) : val_main_v6 (F := Ideal) ei (ix1 e) = Cert.Edges.ext ei 1 e := by
  unfold val_main_v6 val_main_v5 val_main_v4 val_main_v0
  exact ext_apply ei 1 ![1, 0] rfl rfl _ _ _ e

/-! ## The columns -/

/-- The wrapped source column (its four printings). -/
theorem v21_eq : val_main_v21 (F := Ideal) ei = Cert.Edges.srcCol ei := by
  unfold val_main_v21 val_main_v20 val_main_v17 val_main_v19 val_main_v16 val_main_v18 val_main_c val_main_c_3
  exact (wrapCol_eq (by decide) _ _ _ _).trans (funext fun i => congrArg Cert.Edges.wrap (v3_apply ei (i 0)))
theorem v36_eq : val_main_v36 (F := Ideal) ei = Cert.Edges.srcCol ei := by
  unfold val_main_v36 val_main_v35 val_main_v32 val_main_v34 val_main_v31 val_main_v33 val_main_c_6 val_main_c_7
  exact (wrapCol_eq (by decide) _ _ _ _).trans (funext fun i => congrArg Cert.Edges.wrap (v3_apply ei (i 0)))
theorem v54_eq : val_main_v54 (F := Ideal) ei = Cert.Edges.srcCol ei := by
  unfold val_main_v54 val_main_v53 val_main_v50 val_main_v52 val_main_v49 val_main_v51 val_main_c_9 val_main_c_10
  exact (wrapCol_eq (by decide) _ _ _ _).trans (funext fun i => congrArg Cert.Edges.wrap (v3_apply ei (i 0)))
theorem v69_eq : val_main_v69 (F := Ideal) ei = Cert.Edges.srcCol ei := by
  unfold val_main_v69 val_main_v68 val_main_v65 val_main_v67 val_main_v64 val_main_v66 val_main_c_13 val_main_c_14
  exact (wrapCol_eq (by decide) _ _ _ _).trans (funext fun i => congrArg Cert.Edges.wrap (v3_apply ei (i 0)))

/-- The wrapped target column (its two printings). -/
theorem v28_eq : val_main_v28 (F := Ideal) ei = Cert.Edges.dstWrapCol ei := by
  unfold val_main_v28 val_main_v27 val_main_v24 val_main_v26 val_main_v23 val_main_v25 val_main_c_4 val_main_c_5
  exact (wrapCol_eq (by decide) _ _ _ _).trans (funext fun i => congrArg Cert.Edges.wrap (v6_apply ei (i 0)))
theorem v61_eq : val_main_v61 (F := Ideal) ei = Cert.Edges.dstWrapCol ei := by
  unfold val_main_v61 val_main_v60 val_main_v57 val_main_v59 val_main_v56 val_main_v58 val_main_c_11 val_main_c_12
  exact (wrapCol_eq (by decide) _ _ _ _).trans (funext fun i => congrArg Cert.Edges.wrap (v6_apply ei (i 0)))

/-- The target column as it is (its three printings). -/
theorem v9_eq : val_main_v9 (F := Ideal) ei = Cert.Edges.dstCol ei := by
  unfold val_main_v9
  exact (col_eq (by decide) _ _).trans (funext fun i => v6_apply ei (i 0))
theorem v42_eq : val_main_v42 (F := Ideal) ei = Cert.Edges.dstCol ei := by
  unfold val_main_v42
  exact (col_eq (by decide) _ _).trans (funext fun i => v6_apply ei (i 0))
theorem v75_eq : val_main_v75 (F := Ideal) ei = Cert.Edges.dstCol ei := by
  unfold val_main_v75
  exact (col_eq (by decide) _ _).trans (funext fun i => v6_apply ei (i 0))

/-- Row `r` of the edge table as a vector. -/
theorem v82_apply (e : Fin 1600000) : val_main_v82 (F := Ideal) ei (ix1 e) = ei (ix2 (0 : Fin 2) e) := by
  rw [val_main_v82_apply, val_main_v81_apply]
  refine congrArg ei (funext fun a => Fin.ext ?_)
  match a with
  | ⟨0, _⟩ => rfl
  | ⟨1, _⟩ => exact Nat.mod_eq_of_lt e.isLt
theorem v91_apply (e : Fin 1600000) : val_main_v91 (F := Ideal) ei (ix1 e) = ei (ix2 (1 : Fin 2) e) := by
  rw [val_main_v91_apply, val_main_v90_apply]
  refine congrArg ei (funext fun a => Fin.ext ?_)
  match a with
  | ⟨0, _⟩ => rfl
  | ⟨1, _⟩ => exact Nat.mod_eq_of_lt e.isLt

/-- The wrapped endpoint columns of the given edges. -/
theorem v88_eq : val_main_v88 (F := Ideal) ei = Cert.Edges.endCol ei 0 := by
  unfold val_main_v88 val_main_v87 val_main_v84 val_main_v86 val_main_v83 val_main_v85 val_main_c_16 val_main_c_17
  exact (wrapCol_eq (by decide) _ _ _ _).trans (funext fun i => congrArg Cert.Edges.wrap (v82_apply ei (i 0)))
theorem v97_eq : val_main_v97 (F := Ideal) ei = Cert.Edges.endCol ei 1 := by
  unfold val_main_v97 val_main_v96 val_main_v93 val_main_v95 val_main_v92 val_main_v94 val_main_c_18 val_main_c_19
  exact (wrapCol_eq (by decide) _ _ _ _).trans (funext fun i => congrArg Cert.Edges.wrap (v91_apply ei (i 0)))

end Cert.RefValue

end
-- ==== Proof.RefNorm.lean ====
/-
  The reference's degree, normaliser and edge-weight stages are the specification's.
-/
import proofs.«176707_j76776835383553_2_alg».proof.Proof.RefCols

noncomputable section

namespace Cert.RefValue

open Cert.ReferenceIdeal Cert.ReferenceIdeal.Gen Cert.ReferenceIdeal.ReadP
open Idealize.ShloMosaic Idealize.ShloMosaic.ValueIdx Cert.RowGS Cert.VecGather Cert.Spec Cert.EdgeCols

variable (ei : IVec ⟨2, ![2, 1600000]⟩ 32)

/-- The degree: ones scatter-added into zeros at the targets. -/
theorem v10_apply (n : Fin 50000) : val_main_v10 (F := Ideal) ei (ix1 n) = Cert.Edges.deg ei n := by
  unfold val_main_v10
  exact deg_apply ei ⟨rfl, rfl, rfl, rfl⟩ _ (fun i => zeros_apply _ i) _ (fun i => const_apply _ _ i) _ (v9_eq ei) n

/-- The normaliser. -/
theorem v14_apply (n : Fin 50000) : val_main_v14 (F := Ideal) ei (ix1 n) = Cert.Edges.dis ei n := by
  unfold val_main_v14 val_main_v12 val_main_v13
  refine (dis_apply _ _ _ (fun i => zeros_apply _ i) (fun i => zeros_apply _ i) (ix1 n)).trans ?_
  rw [v10_apply]; rfl

/-- The edge weights (their two printings). -/
theorem v30_eq : val_main_v30 (F := Ideal) ei = Cert.Edges.nrm ei := by
  funext i
  obtain ⟨e, rfl⟩ : ∃ e, i = ix1 e := ⟨_, eq_ix1 i⟩
  unfold val_main_v30 val_main_v22 val_main_v29
  exact nrm_apply ei ⟨rfl, rfl, rfl, rfl, rfl, rfl, rfl⟩ ⟨rfl, rfl, rfl, rfl, rfl, rfl, rfl⟩ _ (v14_apply ei) _ _
    (v21_eq ei) (v28_eq ei) e
theorem v63_eq : val_main_v63 (F := Ideal) ei = Cert.Edges.nrm ei := by
  funext i
  obtain ⟨e, rfl⟩ : ∃ e, i = ix1 e := ⟨_, eq_ix1 i⟩
  unfold val_main_v63 val_main_v55 val_main_v62
  exact nrm_apply ei ⟨rfl, rfl, rfl, rfl, rfl, rfl, rfl⟩ ⟨rfl, rfl, rfl, rfl, rfl, rfl, rfl⟩ _ (v14_apply ei) _ _
    (v54_eq ei) (v61_eq ei) e

end Cert.RefValue

end
-- ==== Proof.LibLayerOps.lean ====
/-
  ONE GRAPH-CONVOLUTION LAYER AND ONE DENSE LAYER, READ OFF EXPLICIT OPERATION TERMS (no program: every shape relation
  and every dimension record an operation carries is a parameter).

  * the layer, product with the weights first: the rows of `H·W` gathered at the sources, each scaled by its edge's
    weight (a vector laid out as a column and repeated across the 64 columns), scatter-added into zeros at the
    targets, plus the bias rows, clamped below by a zero table, is `Cert.Spec.layerMatmulFirst`          (`layer_eq`);
  * three tables joined along their columns (64 + 64 + 8), read at `(e, q)`                              (`concat3_apply`);
  * a dense layer `max(X·W + b, 0)` read at `(e, c)` (`dense_relu_apply`), and one without the clamp whose bias has a
    single entry (`dense_one_apply`).
-/
import proofs.«176707_j76776835383553_2_alg».proof.Proof.LibRowGatherScatter
import proofs.«176707_j76776835383553_2_alg».proof.Proof.LibBroadcast
import proofs.«176707_j76776835383553_2_alg».proof.Proof.LibPlainDot
import proofs.«176707_j76776835383553_2_alg».proof.Proof.Spec
import Idealize.ShloMosaic.Lib.Pipeline.Value
import Idealize.ShloMosaic.Lib.ValueIdx
import Idealize.ShloMosaic.PureOps.Ideal.Laws

noncomputable section

open scoped BigOperators

namespace Cert.LayerOps

open Idealize.ShloMosaic Idealize.ShloMosaic.ValueIdx Cert.RowGS Cert.Spec

/-! ## The layer -/

/-- One layer over explicit operations is the specification's layer (the sum over edges starts from the zero the
    scatter-add adds into). -/
theorem layer_eq {K : Nat} (S D : IVec ⟨2, ![1650000, 1]⟩ 32) (nrm : Vct 1650000)
    {dd : DotDims ⟨2, ![50000, K]⟩ ⟨2, ![K, 64]⟩ ⟨2, ![50000, 64]⟩} (hdd : Cert.PlainDot.IsPlain dd)
    {g : GatherDims ⟨2, ![50000, 64]⟩ ⟨2, ![1650000, 1]⟩ ⟨2, ![1650000, 64]⟩} (hg : IsRowGather g)
    {sc : ScatterDims ⟨2, ![50000, 64]⟩ ⟨2, ![1650000, 1]⟩ ⟨2, ![1650000, 64]⟩} (hsc : IsRowScatter sc)
    (H : Tbl 50000 K) (W : Tbl K 64) (b : Vct 64)
    (hn1 : (⟨1, ![1650000]⟩ : Shape).BroadcastsInDim ⟨2, ![1650000, 1]⟩ ![0])
    (hn2 : (⟨2, ![1650000, 1]⟩ : Shape).BroadcastsInDim ⟨2, ![1650000, 64]⟩ ![0, 1])
    (hb1 : (⟨1, ![64]⟩ : Shape).BroadcastsInDim ⟨2, ![1, 64]⟩ ![1])
    (hb2 : (⟨2, ![1, 64]⟩ : Shape).BroadcastsInDim ⟨2, ![50000, 64]⟩ ![0, 1])
    (z z' : FVec Ideal ⟨2, ![50000, 64]⟩ .f32) (hz : ∀ i, z i = 0) (hz' : ∀ i, z' i = 0) :
    maximumf
        (addf
          (Host.scatterAdd sc z D
            (mulf (Host.gather g (Host.dotGeneral dd none (φ₁ := .f32) (φ₂ := .f32) H W) S)
              (broadcastInDim ⟨2, ![1650000, 64]⟩ ![0, 1] hn2 (broadcastInDim ⟨2, ![1650000, 1]⟩ ![0] hn1 nrm))))
          (broadcastInDim ⟨2, ![50000, 64]⟩ ![0, 1] hb2 (broadcastInDim ⟨2, ![1, 64]⟩ ![1] hb1 b)))
        z'
      = layerMatmulFirst S D nrm H W b := by
  funext i
  obtain ⟨n, j, rfl⟩ : ∃ n j, i = ix2 n j := ⟨_, _, eq_ix2 i⟩
  rw [maximumf_apply, addf_apply, scatterAdd_row_apply hsc, hz, hz', Cert.Bcast.bias_rows_apply (by decide) b hb1 hb2 n j]
  unfold layerMatmulFirst
  refine congrArg (fun t => max ((0 + t) + b (ix1 j)) 0) (Finset.sum_congr rfl fun e _ => ?_)
  rw [mulf_apply, gather_row_apply hg pos_nodes, Cert.PlainDot.dotGeneral_apply hdd,
    Cert.Bcast.rows_of_col_apply (by decide) _ hn2 e j, Cert.Bcast.col_apply (by decide) nrm hn1 e 0]

/-! ## Three tables joined along their columns -/

/-- Three tables of 64, 64 and 8 columns joined along the columns, read at `(e, q)`: the first below 64, the second
    below 128, the third from there on, each at the column counted from its own start. -/
theorem concat3_apply {α : Type} {R : Nat} (a b : (⟨2, ![R, 64]⟩ : Shape).Idx → α) (c : (⟨2, ![R, 8]⟩ : Shape).Idx → α)
    (hcat : Shape.Concatenates [(⟨2, ![R, 64]⟩ : Shape), ⟨2, ![R, 64]⟩, ⟨2, ![R, 8]⟩] ⟨2, ![R, 136]⟩ 1)
    (e : Fin R) (q : Fin 136) :
    concatenate ⟨2, ![R, 136]⟩ 1 [⟨⟨2, ![R, 64]⟩, a⟩, ⟨⟨2, ![R, 64]⟩, b⟩, ⟨⟨2, ![R, 8]⟩, c⟩] hcat (ix2 e q)
      = if h1 : q.val < 64 then a (ix2 e ⟨q.val, h1⟩)
        else if h2 : q.val < 128 then b (ix2 e ⟨q.val - 64, by omega⟩)
        else c (ix2 e ⟨q.val - 128, by omega⟩) := by
  by_cases h1 : q.val < 64
  · rw [dif_pos h1]
    refine concatenate_apply_piece (t := ⟨2, ![R, 136]⟩) 1 [⟨⟨2, ![R, 64]⟩, a⟩, ⟨⟨2, ![R, 64]⟩, b⟩, ⟨⟨2, ![R, 8]⟩, c⟩] hcat (ix2 e q) 0
        (by show 0 < 3; omega) ⟨2, ![R, 64]⟩ a rfl rfl 0 rfl
      (ix2 e ⟨q.val, h1⟩) (fun bx hbx => ?_) ?_
    · rcases fin2_cases bx with rfl | rfl
      · rfl
      · exact absurd rfl hbx
    · show 0 + q.val = q.val
      omega
  · rw [dif_neg h1]
    by_cases h2 : q.val < 128
    · rw [dif_pos h2]
      refine concatenate_apply_piece (t := ⟨2, ![R, 136]⟩) 1 [⟨⟨2, ![R, 64]⟩, a⟩, ⟨⟨2, ![R, 64]⟩, b⟩, ⟨⟨2, ![R, 8]⟩, c⟩] hcat (ix2 e q) 1
        (by show 1 < 3; omega) ⟨2, ![R, 64]⟩ b rfl rfl 64 rfl
        (ix2 e ⟨q.val - 64, by omega⟩) (fun bx hbx => ?_) ?_
      · rcases fin2_cases bx with rfl | rfl
        · rfl
        · exact absurd rfl hbx
      · show 64 + (q.val - 64) = q.val
        omega
    · rw [dif_neg h2]
      refine concatenate_apply_piece (t := ⟨2, ![R, 136]⟩) 1 [⟨⟨2, ![R, 64]⟩, a⟩, ⟨⟨2, ![R, 64]⟩, b⟩, ⟨⟨2, ![R, 8]⟩, c⟩] hcat (ix2 e q) 2
        (by show 2 < 3; omega) ⟨2, ![R, 8]⟩ c rfl rfl 128 rfl
        (ix2 e ⟨q.val - 128, by omega⟩) (fun bx hbx => ?_) ?_
      · rcases fin2_cases bx with rfl | rfl
        · rfl
        · exact absurd rfl hbx
      · show 128 + (q.val - 128) = q.val
        omega

/-! ## Dense layers -/

/-- `max(X·W + b, 0)` read at `(e, c)`. -/
theorem dense_relu_apply {R K C : Nat} (hC : C ≠ 1)
    {dd : DotDims ⟨2, ![R, K]⟩ ⟨2, ![K, C]⟩ ⟨2, ![R, C]⟩} (hdd : Cert.PlainDot.IsPlain dd)
    (X : Tbl R K) (W : Tbl K C) (b : Vct C)
    (hb1 : (⟨1, ![C]⟩ : Shape).BroadcastsInDim ⟨2, ![1, C]⟩ ![1])
    (hb2 : (⟨2, ![1, C]⟩ : Shape).BroadcastsInDim ⟨2, ![R, C]⟩ ![0, 1])
    (z : FVec Ideal ⟨2, ![R, C]⟩ .f32) (hz : ∀ i, z i = 0) (e : Fin R) (c : Fin C) :
    maximumf
        (addf (Host.dotGeneral dd none (φ₁ := .f32) (φ₂ := .f32) X W)
          (broadcastInDim ⟨2, ![R, C]⟩ ![0, 1] hb2 (broadcastInDim ⟨2, ![1, C]⟩ ![1] hb1 b)))
        z (ix2 e c)
      = max ((∑ q : Fin K, X (ix2 e q) * W (ix2 q c)) + b (ix1 c)) 0 := by
  rw [maximumf_apply, addf_apply, Cert.PlainDot.dotGeneral_apply hdd, Cert.Bcast.bias_rows_apply hC b hb1 hb2 e c, hz]

/-- A one-entry bias laid out as a 1 × 1 table and repeated down `R` rows holds that entry at every `(e, 0)`. -/
theorem bias_one_apply {α : Type} {R : Nat} (b : (⟨1, ![1]⟩ : Shape).Idx → α)
    (hb1 : (⟨1, ![1]⟩ : Shape).BroadcastsInDim ⟨2, ![1, 1]⟩ ![1])
    (hb2 : (⟨2, ![1, 1]⟩ : Shape).BroadcastsInDim ⟨2, ![R, 1]⟩ ![0, 1]) (e : Fin R) (c : Fin 1) :
    broadcastInDim ⟨2, ![R, 1]⟩ ![0, 1] hb2 (broadcastInDim ⟨2, ![1, 1]⟩ ![1] hb1 b) (ix2 e c) = b (ix1 (0 : Fin 1)) :=
  (broadcastInDim_apply ![0, 1] hb2 _ (ix2 e c) (ix2 (0 : Fin 1) (0 : Fin 1)) (fun a => by
    match a with
    | ⟨0, _⟩ =>
      show (0 : ℕ) = if (1 : ℕ) = 1 then 0 else e.val
      rw [if_pos rfl]
    | ⟨1, _⟩ =>
      show (0 : ℕ) = if (1 : ℕ) = 1 then 0 else c.val
      rw [if_pos rfl])).trans
  (broadcastInDim_apply ![1] hb1 b (ix2 (0 : Fin 1) (0 : Fin 1)) (ix1 (0 : Fin 1)) (fun a => by
    match a with
    | ⟨0, _⟩ =>
      show (0 : ℕ) = if (1 : ℕ) = 1 then 0 else 0
      rw [if_pos rfl]))

/-- `X·W + b` with a single output column, read at `(e, 0)`. -/
theorem dense_one_apply {R K : Nat}
    {dd : DotDims ⟨2, ![R, K]⟩ ⟨2, ![K, 1]⟩ ⟨2, ![R, 1]⟩} (hdd : Cert.PlainDot.IsPlain dd)
    (X : Tbl R K) (W : Tbl K 1) (b : Vct 1)
    (hb1 : (⟨1, ![1]⟩ : Shape).BroadcastsInDim ⟨2, ![1, 1]⟩ ![1])
    (hb2 : (⟨2, ![1, 1]⟩ : Shape).BroadcastsInDim ⟨2, ![R, 1]⟩ ![0, 1]) (e : Fin R) :
    addf (F := Ideal) (φ := .f32) (Host.dotGeneral (F := Ideal) dd none (φ₁ := .f32) (φ₂ := .f32) X W)
        (broadcastInDim ⟨2, ![R, 1]⟩ ![0, 1] hb2 (broadcastInDim ⟨2, ![1, 1]⟩ ![1] hb1 b)) (ix2 e (0 : Fin 1))
      = (∑ q : Fin K, X (ix2 e q) * W (ix2 q (0 : Fin 1))) + b (ix1 (0 : Fin 1)) := by
  rw [addf_apply, Cert.PlainDot.dotGeneral_apply hdd, bias_one_apply b hb1 hb2 e 0]

end Cert.LayerOps

end
-- ==== Proof.RefLayer.lean ====
/-
  The reference's two graph layers are the specification's layer, applied twice.
-/
import proofs.«176707_j76776835383553_2_alg».proof.Proof.RefNorm
import proofs.«176707_j76776835383553_2_alg».proof.Proof.LibLayerOps

noncomputable section

namespace Cert.RefValue

open Cert.ReferenceIdeal Cert.ReferenceIdeal.Gen Cert.ReferenceIdeal.ReadP
open Idealize.ShloMosaic Idealize.ShloMosaic.ValueIdx Cert.RowGS Cert.Spec Cert.EdgeCols Cert.LayerOps

variable (ei : IVec ⟨2, ![2, 1600000]⟩ 32)

/-- The first layer. -/
theorem v47_eq (x : Tbl 50000 16) (W1 : Tbl 16 64) (b1 : Vct 64) :
    val_main_v47 (F := Ideal) x ei W1 b1
      = layerMatmulFirst (Cert.Edges.srcCol ei) (Cert.Edges.dstCol ei) (Cert.Edges.nrm ei) x W1 b1 := by
  unfold val_main_v47 val_main_v46 val_main_v43 val_main_v40 val_main_v37 val_main_v39 val_main_v38 val_main_v45
    val_main_v44 val_main_v15
  refine (layer_eq (val_main_v36 (F := Ideal) ei) (val_main_v42 (F := Ideal) ei) (val_main_v30 (F := Ideal) ei)
    ⟨rfl, rfl, rfl, rfl, rfl, rfl⟩ ⟨rfl, rfl, rfl, rfl, rfl, rfl, rfl⟩ ⟨rfl, rfl, rfl, rfl⟩ x W1 b1 _ _ _ _ _ _
    (fun i => zeros_apply _ i) (fun i => zeros_apply _ i)).trans ?_
  rw [v36_eq, v42_eq, v30_eq]

/-- The second layer, on the first layer's table. -/
theorem v80_eq (x : Tbl 50000 16) (W1 : Tbl 16 64) (b1 : Vct 64) (W2 : Tbl 64 64) (b2 : Vct 64) :
    val_main_v80 (F := Ideal) x ei W1 b1 W2 b2
      = layerMatmulFirst (Cert.Edges.srcCol ei) (Cert.Edges.dstCol ei) (Cert.Edges.nrm ei)
          (layerMatmulFirst (Cert.Edges.srcCol ei) (Cert.Edges.dstCol ei) (Cert.Edges.nrm ei) x W1 b1) W2 b2 := by
  unfold val_main_v80 val_main_v79 val_main_v76 val_main_v73 val_main_v70 val_main_v72 val_main_v71 val_main_v78
    val_main_v77 val_main_v48
  refine (layer_eq (val_main_v69 (F := Ideal) ei) (val_main_v75 (F := Ideal) ei) (val_main_v63 (F := Ideal) ei)
    ⟨rfl, rfl, rfl, rfl, rfl, rfl⟩ ⟨rfl, rfl, rfl, rfl, rfl, rfl, rfl⟩ ⟨rfl, rfl, rfl, rfl⟩
    (val_main_v47 (F := Ideal) x ei W1 b1) W2 b2 _ _ _ _ _ _
    (fun i => zeros_apply _ i) (fun i => zeros_apply _ i)).trans ?_
  rw [v69_eq, v75_eq, v63_eq, v47_eq]

end Cert.RefValue

end
-- ==== Proof.RefEdge.lean ====
/-
  The reference's per-edge network stages are the specification's: the joined table is `edgeIn`, the two clamped dense
  layers are `dense1` and `dense2`.
-/
import proofs.«176707_j76776835383553_2_alg».proof.Proof.RefLayer

noncomputable section

open scoped BigOperators

namespace Cert.RefValue

open Cert.ReferenceIdeal Cert.ReferenceIdeal.Gen Cert.ReferenceIdeal.ReadP
open Idealize.ShloMosaic Idealize.ShloMosaic.ValueIdx Cert.RowGS Cert.Spec Cert.EdgeCols Cert.LayerOps

variable (ei : IVec ⟨2, ![2, 1600000]⟩ 32)
variable (x : Tbl 50000 16) (ea : Tbl 1600000 8) (W1 : Tbl 16 64) (b1 : Vct 64) (W2 : Tbl 64 64) (b2 : Vct 64)
  (mW1 : Tbl 136 128) (mb1 : Vct 128) (mW2 : Tbl 128 64) (mb2 : Vct 64)

/-- The final node table, as the specification spells it. -/
abbrev nodes : Tbl 50000 64 :=
  layerMatmulFirst (Cert.Edges.srcCol ei) (Cert.Edges.dstCol ei) (Cert.Edges.nrm ei)
    (layerMatmulFirst (Cert.Edges.srcCol ei) (Cert.Edges.dstCol ei) (Cert.Edges.nrm ei) x W1 b1) W2 b2

/-- The joined table: an edge's 136 inputs. -/
theorem v99_apply (e : Fin 1600000) (q : Fin 136) :
    val_main_v99 (F := Ideal) x ei ea W1 b1 W2 b2 (ix2 e q)
      = edgeIn (nodes ei x W1 b1 W2 b2) (Cert.Edges.endCol ei 0) (Cert.Edges.endCol ei 1) ea e q := by
  unfold val_main_v99
  refine (concat3_apply _ _ _ _ e q).trans ?_
  unfold edgeIn
  by_cases h1 : q.val < 64
  · rw [dif_pos h1, dif_pos h1]
    unfold val_main_v89
    rw [gather_row_apply (g := gather_S50000x64_S1600000x1_S1600000x64_1_0_n_n_0_1_164)
      ⟨rfl, rfl, rfl, rfl, rfl, rfl, rfl⟩ pos_nodes, v88_eq, v80_eq]
  · rw [dif_neg h1, dif_neg h1]
    by_cases h2 : q.val < 128
    · rw [dif_pos h2, dif_pos h2]
      unfold val_main_v98
      rw [gather_row_apply (g := gather_S50000x64_S1600000x1_S1600000x64_1_0_n_n_0_1_164)
        ⟨rfl, rfl, rfl, rfl, rfl, rfl, rfl⟩ pos_nodes, v97_eq, v80_eq]
    · rw [dif_neg h2, dif_neg h2]

/-- The first dense layer. -/
theorem v104_apply (e : Fin 1600000) (c : Fin 128) :
    val_main_v104 (F := Ideal) x ei ea W1 b1 W2 b2 mW1 mb1 (ix2 e c)
      = dense1 (nodes ei x W1 b1 W2 b2) (Cert.Edges.endCol ei 0) (Cert.Edges.endCol ei 1) ea mW1 mb1 e c := by
  unfold val_main_v104 val_main_v103 val_main_v100 val_main_v102 val_main_v101
  refine (dense_relu_apply (by decide) ⟨rfl, rfl, rfl, rfl, rfl, rfl⟩ _ mW1 mb1 _ _ _ (fun i => zeros_apply _ i) e c).trans ?_
  unfold dense1
  exact congrArg (fun t => max (t + mb1 (ix1 c)) 0) (Finset.sum_congr rfl fun q _ => by rw [v99_apply])

/-- The second dense layer. -/
theorem v109_apply (e : Fin 1600000) (c : Fin 64) :
    val_main_v109 (F := Ideal) x ei ea W1 b1 W2 b2 mW1 mb1 mW2 mb2 (ix2 e c)
      = dense2 (nodes ei x W1 b1 W2 b2) (Cert.Edges.endCol ei 0) (Cert.Edges.endCol ei 1) ea mW1 mb1 mW2 mb2 e c := by
  unfold val_main_v109 val_main_v108 val_main_v105 val_main_v107 val_main_v106
  refine (dense_relu_apply (by decide) ⟨rfl, rfl, rfl, rfl, rfl, rfl⟩ _ mW2 mb2 _ _ _ (fun i => zeros_apply _ i) e c).trans ?_
  unfold dense2
  exact congrArg (fun t => max (t + mb2 (ix1 c)) 0) (Finset.sum_congr rfl fun q _ => by rw [v104_apply])

end Cert.RefValue

end
-- ==== Proof.RefValue.lean ====
/-
  The reference program's result, read through its stages, is the specification's score: two graph layers over the
  extended, weighted edge list, then the per-edge network at the given edges' endpoints.
-/
import proofs.«176707_j76776835383553_2_alg».proof.Proof.RefEdge
import proofs.«176707_j76776835383553_2_alg».proof.Proof.LibLayout

noncomputable section

open scoped BigOperators

namespace Cert.RefValue

open Cert.ReferenceIdeal Cert.ReferenceIdeal.Gen Cert.ReferenceIdeal.ReadP
open Idealize.ShloMosaic Idealize.ShloMosaic.ValueIdx Cert.RowGS Cert.Spec Cert.EdgeCols Cert.LayerOps

theorem ref_is_score (x : Tbl 50000 16) (ei : IVec ⟨2, ![2, 1600000]⟩ 32) (ea : Tbl 1600000 8)
    (W1 : Tbl 16 64) (b1 : Vct 64) (W2 : Tbl 64 64) (b2 : Vct 64)
    (mW1 : Tbl 136 128) (mb1 : Vct 128) (mW2 : Tbl 128 64) (mb2 : Vct 64) (mW3 : Tbl 64 1) (mb3 : Vct 1) :
    Cert.ReferenceIdeal.ReadP.val_main_v114 (F := Ideal) x ei ea W1 b1 W2 b2 mW1 mb1 mW2 mb2 mW3 mb3 =
      Cert.Spec.score (Cert.Spec.layerMatmulFirst (Cert.Edges.srcCol ei) (Cert.Edges.dstCol ei) (Cert.Edges.nrm ei)
          (Cert.Spec.layerMatmulFirst (Cert.Edges.srcCol ei) (Cert.Edges.dstCol ei) (Cert.Edges.nrm ei) x W1 b1) W2 b2)
        (Cert.Edges.endCol ei 0) (Cert.Edges.endCol ei 1) ea mW1 mb1 mW2 mb2 mW3 mb3 := by
  funext i
  obtain ⟨e, rfl⟩ : ∃ e, i = ix1 e := ⟨_, eq_ix1 i⟩
  unfold val_main_v114
  refine (Cert.Lib.vec_of_col _ _ e).trans ?_
  unfold val_main_v113 val_main_v110 val_main_v112 val_main_v111
  refine (dense_one_apply ⟨rfl, rfl, rfl, rfl, rfl, rfl⟩ _ mW3 mb3 _ _ e).trans ?_
  unfold score
  exact congrArg (· + mb3 (ix1 (0 : Fin 1))) (Finset.sum_congr rfl fun q _ => by rw [v109_apply])

end Cert.RefValue

end
-- ==== Proof.RefRunSegs.lean ====
/-
  The reference's 147 host operations cut into thirteen stretches. The three operations of each called function (the
  selection of the normalisers, the four clamps) are stretches of their own; between them lie the extended edges and
  degrees, the first product and the edge weights, the two aggregations, the two endpoint reads and the three dense
  products. The fold of a concatenation is the fold of its second part after the fold of its first.
-/
import proofs.«176707_j76776835383553_2_alg».proof.Proof.RefRunP

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev seg1 : List (HloOp τ sig (Elt F)) :=
  [
    nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

abbrev seg2 : List (HloOp τ sig (Elt F)) :=
  [
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

abbrev seg3 : List (HloOp τ sig (Elt F)) :=
  [
    binary main_arg0 main_arg3 main_v15 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    nullary main_c (constantI S_ 32 0#32),
    unary main_c main_v16 (broadcastInDim S1650000 ![] bcast_S_S1650000 : (⟨S_, .i32⟩ : BufTy).Contents (Elt F) → (⟨S1650000, .i32⟩ : BufTy).Contents (Elt F)),
    binary main_v3 main_v16 main_v17 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v18 (broadcastInDim S1650000 ![] bcast_S_S1650000 : (⟨S_, .i32⟩ : BufTy).Contents (Elt F) → (⟨S1650000, .i32⟩ : BufTy).Contents (Elt F)),
    binary main_v3 main_v18 main_v19 (addi : (⟨S1650000, .i32⟩ : BufTy).Contents (Elt F) → (⟨S1650000, .i32⟩ : BufTy).Contents (Elt F) → (⟨S1650000, .i32⟩ : BufTy).Contents (Elt F)),
    ternary main_v17 main_v19 main_v3 main_v20 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v20 main_v21 (broadcastInDim S1650000x1 ![0] bcast_S1650000_S1650000x1_0 : (⟨S1650000, .i32⟩ : BufTy).Contents (Elt F) → (⟨S1650000x1, .i32⟩ : BufTy).Contents (Elt F)),
    binary main_v14 main_v21 main_v22 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v23 (broadcastInDim S1650000 ![] bcast_S_S1650000 : (⟨S_, .i32⟩ : BufTy).Contents (Elt F) → (⟨S1650000, .i32⟩ : BufTy).Contents (Elt F)),
    binary main_v6 main_v23 main_v24 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v25 (broadcastInDim S1650000 ![] bcast_S_S1650000 : (⟨S_, .i32⟩ : BufTy).Contents (Elt F) → (⟨S1650000, .i32⟩ : BufTy).Contents (Elt F)),
    binary main_v6 main_v25 main_v26 (addi : (⟨S1650000, .i32⟩ : BufTy).Contents (Elt F) → (⟨S1650000, .i32⟩ : BufTy).Contents (Elt F) → (⟨S1650000, .i32⟩ : BufTy).Contents (Elt F)),
    ternary main_v24 main_v26 main_v6 main_v27 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v27 main_v28 (broadcastInDim S1650000x1 ![0] bcast_S1650000_S1650000x1_0 : (⟨S1650000, .i32⟩ : BufTy).Contents (Elt F) → (⟨S1650000x1, .i32⟩ : BufTy).Contents (Elt F)),
    binary main_v14 main_v28 main_v29 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v22 main_v29 main_v30 (mulf : (⟨S1650000, .f32⟩ : BufTy).Contents (Elt F) → (⟨S1650000, .f32⟩ : BufTy).Contents (Elt F) → (⟨S1650000, .f32⟩ : BufTy).Contents (Elt F)) ]

abbrev seg4 : List (HloOp τ sig (Elt F)) :=
  [
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v15 main_v36 main_v37 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v30 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x64 ![0, 1] bcast_S1650000x1_S1650000x64_0_1 : (⟨S1650000x1, .f32⟩ : BufTy).Contents (Elt F) → (⟨S1650000x64, .f32⟩ : BufTy).Contents (Elt F)),
    binary main_v37 main_v39 main_v40 (mulf : (⟨S1650000x64, .f32⟩ : BufTy).Contents (Elt F) → (⟨S1650000x64, .f32⟩ : BufTy).Contents (Elt F) → (⟨S1650000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

abbrev seg5 : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf ]

abbrev seg6 : List (HloOp τ sig (Elt F)) :=
  [
    binary main_v47 main_arg5 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v14 main_v54 main_v55 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_11 (constantI S_ 32 0#32),
    unary main_c_11 main_v56 (broadcastInDim S1650000 ![] bcast_S_S1650000 : (⟨S_, .i32⟩ : BufTy).Contents (Elt F) → (⟨S1650000, .i32⟩ : BufTy).Contents (Elt F)),
    binary main_v6 main_v56 main_v57 (cmpi .slt : (⟨S1650000, .i32⟩ : BufTy).Contents (Elt F) → (⟨S1650000, .i32⟩ : BufTy).Contents (Elt F) → (⟨S1650000, .i1⟩ : BufTy).Contents (Elt F)),
    nullary main_c_12 (constantI S_ 32 50000#32),
    unary main_c_12 main_v58 (broadcastInDim S1650000 ![] bcast_S_S1650000 : (⟨S_, .i32⟩ : BufTy).Contents (Elt F) → (⟨S1650000, .i32⟩ : BufTy).Contents (Elt F)),
    binary main_v6 main_v58 main_v59 (addi : (⟨S1650000, .i32⟩ : BufTy).Contents (Elt F) → (⟨S1650000, .i32⟩ : BufTy).Contents (Elt F) → (⟨S1650000, .i32⟩ : BufTy).Contents (Elt F)),
    ternary main_v57 main_v59 main_v6 main_v60 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v60 main_v61 (broadcastInDim S1650000x1 ![0] bcast_S1650000_S1650000x1_0 : (⟨S1650000, .i32⟩ : BufTy).Contents (Elt F) → (⟨S1650000x1, .i32⟩ : BufTy).Contents (Elt F)),
    binary main_v14 main_v61 main_v62 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v55 main_v62 main_v63 (mulf : (⟨S1650000, .f32⟩ : BufTy).Contents (Elt F) → (⟨S1650000, .f32⟩ : BufTy).Contents (Elt F) → (⟨S1650000, .f32⟩ : BufTy).Contents (Elt F)),
    nullary main_c_13 (constantI S_ 32 0#32),
    unary main_c_13 main_v64 (broadcastInDim S1650000 ![] bcast_S_S1650000 : (⟨S_, .i32⟩ : BufTy).Contents (Elt F) → (⟨S1650000, .i32⟩ : BufTy).Contents (Elt F)),
    binary main_v3 main_v64 main_v65 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v66 (broadcastInDim S1650000 ![] bcast_S_S1650000 : (⟨S_, .i32⟩ : BufTy).Contents (Elt F) → (⟨S1650000, .i32⟩ : BufTy).Contents (Elt F)),
    binary main_v3 main_v66 main_v67 (addi : (⟨S1650000, .i32⟩ : BufTy).Contents (Elt F) → (⟨S1650000, .i32⟩ : BufTy).Contents (Elt F) → (⟨S1650000, .i32⟩ : BufTy).Contents (Elt F)),
    ternary main_v65 main_v67 main_v3 main_v68 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v68 main_v69 (broadcastInDim S1650000x1 ![0] bcast_S1650000_S1650000x1_0 : (⟨S1650000, .i32⟩ : BufTy).Contents (Elt F) → (⟨S1650000x1, .i32⟩ : BufTy).Contents (Elt F)),
    binary main_v48 main_v69 main_v70 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v63 main_v71 (broadcastInDim S1650000x1 ![0] bcast_S1650000_S1650000x1_0 : (⟨S1650000, .f32⟩ : BufTy).Contents (Elt F) → (⟨S1650000x1, .f32⟩ : BufTy).Contents (Elt F)),
    unary main_v71 main_v72 (broadcastInDim S1650000x64 ![0, 1] bcast_S1650000x1_S1650000x64_0_1 : (⟨S1650000x1, .f32⟩ : BufTy).Contents (Elt F) → (⟨S1650000x64, .f32⟩ : BufTy).Contents (Elt F)),
    binary main_v70 main_v72 main_v73 (mulf : (⟨S1650000x64, .f32⟩ : BufTy).Contents (Elt F) → (⟨S1650000x64, .f32⟩ : BufTy).Contents (Elt F) → (⟨S1650000x64, .f32⟩ : BufTy).Contents (Elt F)),
    nullary main_cst_15 (constant S_ .f32 0x00000000#32),
    unary main_cst_15 main_v74 (broadcastInDim S50000x64 ![] bcast_S_S50000x64 : (⟨S_, .f32⟩ : BufTy).Contents (Elt F) → (⟨S50000x64, .f32⟩ : BufTy).Contents (Elt F)),
    unary main_v6 main_v75 (broadcastInDim S1650000x1 ![0] bcast_S1650000_S1650000x1_0 : (⟨S1650000, .i32⟩ : BufTy).Contents (Elt F) → (⟨S1650000x1, .i32⟩ : BufTy).Contents (Elt F)),
    ternary main_v74 main_v75 main_v73 main_v76 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg6 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (addf : (⟨S50000x64, .f32⟩ : BufTy).Contents (Elt F) → (⟨S50000x64, .f32⟩ : BufTy).Contents (Elt F) → (⟨S50000x64, .f32⟩ : BufTy).Contents (Elt F)) ]

abbrev seg7 : List (HloOp τ sig (Elt F)) :=
  [
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v79) (TRef.of (T := ⟨S50000x64, .f32⟩) main_call2_v0) (TRef.of (T := ⟨S50000x64, .f32⟩) main_v80) maximumf ]

abbrev seg8 : List (HloOp τ sig (Elt F)) :=
  [
    unary main_arg1 main_v81 ((extractStridedSlice S1x1600000 ![0, 0] · slices_S2x1600000_S1x1600000_0_0) : (⟨S2x1600000, .i32⟩ : BufTy).Contents (Elt F) → (⟨S1x1600000, .i32⟩ : BufTy).Contents (Elt F)),
    reshape main_v81 main_v82 rfl shapeCasts_S1x1600000_S1600000,
    nullary main_c_16 (constantI S_ 32 0#32),
    unary main_c_16 main_v83 (broadcastInDim S1600000 ![] bcast_S_S1600000 : (⟨S_, .i32⟩ : BufTy).Contents (Elt F) → (⟨S1600000, .i32⟩ : BufTy).Contents (Elt F)),
    binary main_v82 main_v83 main_v84 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 50000#32),
    unary main_c_17 main_v85 (broadcastInDim S1600000 ![] bcast_S_S1600000 : (⟨S_, .i32⟩ : BufTy).Contents (Elt F) → (⟨S1600000, .i32⟩ : BufTy).Contents (Elt F)),
    binary main_v82 main_v85 main_v86 (addi : (⟨S1600000, .i32⟩ : BufTy).Contents (Elt F) → (⟨S1600000, .i32⟩ : BufTy).Contents (Elt F) → (⟨S1600000, .i32⟩ : BufTy).Contents (Elt F)),
    ternary main_v84 main_v86 main_v82 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v87 main_v88 (broadcastInDim S1600000x1 ![0] bcast_S1600000_S1600000x1_0 : (⟨S1600000, .i32⟩ : BufTy).Contents (Elt F) → (⟨S1600000x1, .i32⟩ : BufTy).Contents (Elt F)),
    binary main_v80 main_v88 main_v89 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_arg1 main_v90 ((extractStridedSlice S1x1600000 ![1, 0] · slices_S2x1600000_S1x1600000_1_0) : (⟨S2x1600000, .i32⟩ : BufTy).Contents (Elt F) → (⟨S1x1600000, .i32⟩ : BufTy).Contents (Elt F)),
    reshape main_v90 main_v91 rfl shapeCasts_S1x1600000_S1600000,
    nullary main_c_18 (constantI S_ 32 0#32),
    unary main_c_18 main_v92 (broadcastInDim S1600000 ![] bcast_S_S1600000 : (⟨S_, .i32⟩ : BufTy).Contents (Elt F) → (⟨S1600000, .i32⟩ : BufTy).Contents (Elt F)),
    binary main_v91 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 50000#32),
    unary main_c_19 main_v94 (broadcastInDim S1600000 ![] bcast_S_S1600000 : (⟨S_, .i32⟩ : BufTy).Contents (Elt F) → (⟨S1600000, .i32⟩ : BufTy).Contents (Elt F)),
    binary main_v91 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v91 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v80 main_v97 main_v98 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)) ]

abbrev seg9 : List (HloOp τ sig (Elt F)) :=
  [
    nary ![main_v89, main_v98, main_arg2] main_v99 (fun u => concatenate S1600000x136 1 [⟨S1600000x64, u 0⟩, ⟨S1600000x64, u 1⟩, ⟨S1600000x8, u 2⟩] concatenates_S1600000x64_S1600000x64_S1600000x8_S1600000x136_d1),
    binary main_v99 main_arg7 main_v100 ((fun l r => Host.dotGeneral dot_S1600000x136_S136x128_S1600000x128_1_0_0_1_n_n none l r) : (⟨S1600000x136, .f32⟩ : BufTy).Contents (Elt F) → (⟨S136x128, .f32⟩ : BufTy).Contents (Elt F) → (⟨S1600000x128, .f32⟩ : BufTy).Contents (Elt F)),
    unary main_arg8 main_v101 (broadcastInDim S1x128 ![1] bcast_S128_S1x128_1 : (⟨S128, .f32⟩ : BufTy).Contents (Elt F) → (⟨S1x128, .f32⟩ : BufTy).Contents (Elt F)),
    unary main_v101 main_v102 (broadcastInDim S1600000x128 ![0, 1] bcast_S1x128_S1600000x128_0_1 : (⟨S1x128, .f32⟩ : BufTy).Contents (Elt F) → (⟨S1600000x128, .f32⟩ : BufTy).Contents (Elt F)),
    binary main_v100 main_v102 main_v103 (addf : (⟨S1600000x128, .f32⟩ : BufTy).Contents (Elt F) → (⟨S1600000x128, .f32⟩ : BufTy).Contents (Elt F) → (⟨S1600000x128, .f32⟩ : BufTy).Contents (Elt F)) ]

abbrev seg10 : List (HloOp τ sig (Elt F)) :=
  [
    TRef.nullary (TRef.of (T := ⟨S_, .f32⟩) main_call3_cst) (constant S_ .f32 0x00000000#32),
    TRef.unary (TRef.of (T := ⟨S_, .f32⟩) main_call3_cst) (TRef.of (T := ⟨S1600000x128, .f32⟩) main_call3_v0) (broadcastInDim S1600000x128 ![] bcast_S_S1600000x128),
    TRef.binary (TRef.of (T := ⟨S1600000x128, .f32⟩) main_v103) (TRef.of (T := ⟨S1600000x128, .f32⟩) main_call3_v0) (TRef.of (T := ⟨S1600000x128, .f32⟩) main_v104) maximumf ]

abbrev seg11 : List (HloOp τ sig (Elt F)) :=
  [
    binary main_v104 main_arg9 main_v105 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg10 main_v106 (broadcastInDim S1x64 ![1] bcast_S64_S1x64_1 : (⟨S64, .f32⟩ : BufTy).Contents (Elt F) → (⟨S1x64, .f32⟩ : BufTy).Contents (Elt F)),
    unary main_v106 main_v107 (broadcastInDim S1600000x64 ![0, 1] bcast_S1x64_S1600000x64_0_1 : (⟨S1x64, .f32⟩ : BufTy).Contents (Elt F) → (⟨S1600000x64, .f32⟩ : BufTy).Contents (Elt F)),
    binary main_v105 main_v107 main_v108 (addf : (⟨S1600000x64, .f32⟩ : BufTy).Contents (Elt F) → (⟨S1600000x64, .f32⟩ : BufTy).Contents (Elt F) → (⟨S1600000x64, .f32⟩ : BufTy).Contents (Elt F)) ]

abbrev seg12 : List (HloOp τ sig (Elt F)) :=
  [
    TRef.nullary (TRef.of (T := ⟨S_, .f32⟩) main_call4_cst) (constant S_ .f32 0x00000000#32),
    TRef.unary (TRef.of (T := ⟨S_, .f32⟩) main_call4_cst) (TRef.of (T := ⟨S1600000x64, .f32⟩) main_call4_v0) (broadcastInDim S1600000x64 ![] bcast_S_S1600000x64),
    TRef.binary (TRef.of (T := ⟨S1600000x64, .f32⟩) main_v108) (TRef.of (T := ⟨S1600000x64, .f32⟩) main_call4_v0) (TRef.of (T := ⟨S1600000x64, .f32⟩) main_v109) maximumf ]

abbrev seg13 : List (HloOp τ sig (Elt F)) :=
  [
    binary main_v109 main_arg11 main_v110 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg12 main_v111 (broadcastInDim S1x1 ![1] bcast_S1_S1x1_1 : (⟨S1, .f32⟩ : BufTy).Contents (Elt F) → (⟨S1x1, .f32⟩ : BufTy).Contents (Elt F)),
    unary main_v111 main_v112 (broadcastInDim S1600000x1 ![0, 1] bcast_S1x1_S1600000x1_0_1 : (⟨S1x1, .f32⟩ : BufTy).Contents (Elt F) → (⟨S1600000x1, .f32⟩ : BufTy).Contents (Elt F)),
    binary main_v110 main_v112 main_v113 (addf : (⟨S1600000x1, .f32⟩ : BufTy).Contents (Elt F) → (⟨S1600000x1, .f32⟩ : BufTy).Contents (Elt F) → (⟨S1600000x1, .f32⟩ : BufTy).Contents (Elt F)),
    reshape main_v113 main_v114 rfl shapeCasts_S1600000x1_S1600000 ]

/-- The operation list is the thirteen stretches in order. -/
theorem ops_eq : (Cert.ReferenceIdeal.ValueP.ops : List (HloOp τ sig (Elt F)))
    = seg1 ++ seg2 ++ seg3 ++ seg4 ++ seg5 ++ seg6 ++ seg7 ++ seg8 ++ seg9 ++ seg10 ++ seg11 ++ seg12 ++ seg13 := rfl

/-- Folding a concatenation: the second part from where the first part ends. -/
theorem after_append {Val : EltTy → Type} (xs ys : List (HloOp τ sig Val)) (V : Valuation τ sig Val) :
    after (xs ++ ys) V = after ys (after xs V) := by
  induction xs generalizing V with
  | nil => rfl
  | cons op xs ih => rw [List.cons_append, after_cons, after_cons, ih]

end Cert.RefRun

end
-- ==== Proof.RefRunStages.lean ====
/-
  What each stretch of the reference's operations leaves in the buffers that later stretches read, as a function of
  what the stretch found; and that a stretch leaves every buffer it does not write as it was.
-/
import proofs.«176707_j76776835383553_2_alg».proof.Proof.RefRunSegs
import proofs.«176707_j76776835383553_2_alg».proof.Proof.RefReadP
import Idealize.ShloMosaic.PureOps.Ideal

set_option maxRecDepth 16384

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

/-! ## The stages that read buffers of an earlier stretch, as functions of what they read -/

abbrev zero0 : FVec Ideal S_ .f32 := constant (F := Ideal) S_ .f32 0x00000000#32

/-- Negative indices have 50000 added. -/
abbrev wrapV (v : IVec S1650000 32) : IVec S1650000 32 :=
  select (cmpi .slt v (broadcastInDim S1650000 ![] bcast_S_S1650000 (constantI S_ 32 0#32)))
    (addi v (broadcastInDim S1650000 ![] bcast_S_S1650000 (constantI S_ 32 50000#32))) v
abbrev colV (v : IVec S1650000 32) : IVec S1650000x1 32 := broadcastInDim S1650000x1 ![0] bcast_S1650000_S1650000x1_0 v

/-- Edge weights from a normaliser vector and the two extended edge rows. -/
abbrev nrmT (dv : FVec Ideal S50000 .f32) (v3 v6 : IVec S1650000 32) : FVec Ideal S1650000 .f32 :=
  mulf (Host.gather gather_S50000_S1650000x1_S1650000_n_0_n_n_0_1_1 dv (colV (wrapV v3)))
    (Host.gather gather_S50000_S1650000x1_S1650000_n_0_n_n_0_1_1 dv (colV (wrapV v6)))

/-- The aggregation and bias of one layer, from the product table `hw`, the extended edge rows and the weights. -/
abbrev aggT (hw : FVec Ideal S50000x64 .f32) (v3 v6 : IVec S1650000 32) (nr : FVec Ideal S1650000 .f32)
    (b : FVec Ideal S64 .f32) : FVec Ideal S50000x64 .f32 :=
  addf
    (Host.scatterAdd scatter_S50000x64_S1650000x1_S1650000x64_1_0_0_1 (broadcastInDim S50000x64 ![] bcast_S_S50000x64 zero0) (colV v6)
      (mulf (Host.gather gather_S50000x64_S1650000x1_S1650000x64_1_0_n_n_0_1_164 hw (colV (wrapV v3)))
        (broadcastInDim S1650000x64 ![0, 1] bcast_S1650000x1_S1650000x64_0_1
          (broadcastInDim S1650000x1 ![0] bcast_S1650000_S1650000x1_0 nr))))
    (broadcastInDim S50000x64 ![0, 1] bcast_S1x64_S50000x64_0_1 (broadcastInDim S1x64 ![1] bcast_S64_S1x64_1 b))

/-! ## The buffers each stretch writes -/

abbrev W1 : List (Ref sig .tc) :=
  [main_v0, main_v1, main_v2, main_v3, main_v4, main_v5, main_v6, main_cst, main_v7, main_cst_0, main_v8, main_v9, main_v10, main_cst_1, main_v11, main_v12, main_v13, main_cst_2]
abbrev W2 : List (Ref sig .tc) :=
  [main_call0_v0, main_call0_v1, main_v14]
abbrev W3 : List (Ref sig .tc) :=
  [main_v15, main_c, main_v16, main_v17, main_c_3, main_v18, main_v19, main_v20, main_v21, main_v22, main_c_4, main_v23, main_v24, main_c_5, main_v25, main_v26, main_v27, main_v28, main_v29, main_v30]
abbrev W4 : List (Ref sig .tc) :=
  [main_c_6, main_v31, main_v32, main_c_7, main_v33, main_v34, main_v35, main_v36, main_v37, main_v38, main_v39, main_v40, main_cst_8, main_v41, main_v42, main_v43, main_v44, main_v45, main_v46]
abbrev W5 : List (Ref sig .tc) :=
  [main_call1_cst, main_call1_v0, main_v47]
abbrev W6 : List (Ref sig .tc) :=
  [main_v48, main_c_9, main_v49, main_v50, main_c_10, main_v51, main_v52, main_v53, main_v54, main_v55, main_c_11, main_v56, main_v57, main_c_12, main_v58, main_v59, main_v60, main_v61, main_v62, main_v63, main_c_13, main_v64, main_v65, main_c_14, main_v66, main_v67, main_v68, main_v69, main_v70, main_v71, main_v72, main_v73, main_cst_15, main_v74, main_v75, main_v76, main_v77, main_v78, main_v79]
abbrev W7 : List (Ref sig .tc) :=
  [main_call2_cst, main_call2_v0, main_v80]
abbrev W8 : List (Ref sig .tc) :=
  [main_v81, main_v82, main_c_16, main_v83, main_v84, main_c_17, main_v85, main_v86, main_v87, main_v88, main_v89, main_v90, main_v91, main_c_18, main_v92, main_v93, main_c_19, main_v94, main_v95, main_v96, main_v97, main_v98]
abbrev W9 : List (Ref sig .tc) :=
  [main_v99, main_v100, main_v101, main_v102, main_v103]
abbrev W10 : List (Ref sig .tc) :=
  [main_call3_cst, main_call3_v0, main_v104]
abbrev W11 : List (Ref sig .tc) :=
  [main_v105, main_v106, main_v107, main_v108]
abbrev W12 : List (Ref sig .tc) :=
  [main_call4_cst, main_call4_v0, main_v109]
abbrev W13 : List (Ref sig .tc) :=
  [main_v110, main_v111, main_v112, main_v113, main_v114]

section Stretches
variable (Y : Valuation τ sig (Elt Ideal))

/-! ## A stretch leaves a buffer it does not write as it was -/

set_option maxHeartbeats 8000000 in
theorem keep1 {r : Ref sig .tc} (hr : r ∉ W1) : after (seg1 (F := Ideal)) Y (Proc.devRef .tc r) = Y (Proc.devRef .tc r) :=
  after_of_writes_sub (seg1 (F := Ideal)) Y (by
    simp only [seg1, W1, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep2 {r : Ref sig .tc} (hr : r ∉ W2) : after (seg2 (F := Ideal)) Y (Proc.devRef .tc r) = Y (Proc.devRef .tc r) :=
  after_of_writes_sub (seg2 (F := Ideal)) Y (by
    simp only [seg2, W2, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep3 {r : Ref sig .tc} (hr : r ∉ W3) : after (seg3 (F := Ideal)) Y (Proc.devRef .tc r) = Y (Proc.devRef .tc r) :=
  after_of_writes_sub (seg3 (F := Ideal)) Y (by
    simp only [seg3, W3, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep4 {r : Ref sig .tc} (hr : r ∉ W4) : after (seg4 (F := Ideal)) Y (Proc.devRef .tc r) = Y (Proc.devRef .tc r) :=
  after_of_writes_sub (seg4 (F := Ideal)) Y (by
    simp only [seg4, W4, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep5 {r : Ref sig .tc} (hr : r ∉ W5) : after (seg5 (F := Ideal)) Y (Proc.devRef .tc r) = Y (Proc.devRef .tc r) :=
  after_of_writes_sub (seg5 (F := Ideal)) Y (by
    simp only [seg5, W5, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep6 {r : Ref sig .tc} (hr : r ∉ W6) : after (seg6 (F := Ideal)) Y (Proc.devRef .tc r) = Y (Proc.devRef .tc r) :=
  after_of_writes_sub (seg6 (F := Ideal)) Y (by
    simp only [seg6, W6, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep7 {r : Ref sig .tc} (hr : r ∉ W7) : after (seg7 (F := Ideal)) Y (Proc.devRef .tc r) = Y (Proc.devRef .tc r) :=
  after_of_writes_sub (seg7 (F := Ideal)) Y (by
    simp only [seg7, W7, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep8 {r : Ref sig .tc} (hr : r ∉ W8) : after (seg8 (F := Ideal)) Y (Proc.devRef .tc r) = Y (Proc.devRef .tc r) :=
  after_of_writes_sub (seg8 (F := Ideal)) Y (by
    simp only [seg8, W8, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep9 {r : Ref sig .tc} (hr : r ∉ W9) : after (seg9 (F := Ideal)) Y (Proc.devRef .tc r) = Y (Proc.devRef .tc r) :=
  after_of_writes_sub (seg9 (F := Ideal)) Y (by
    simp only [seg9, W9, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep10 {r : Ref sig .tc} (hr : r ∉ W10) : after (seg10 (F := Ideal)) Y (Proc.devRef .tc r) = Y (Proc.devRef .tc r) :=
  after_of_writes_sub (seg10 (F := Ideal)) Y (by
    simp only [seg10, W10, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep11 {r : Ref sig .tc} (hr : r ∉ W11) : after (seg11 (F := Ideal)) Y (Proc.devRef .tc r) = Y (Proc.devRef .tc r) :=
  after_of_writes_sub (seg11 (F := Ideal)) Y (by
    simp only [seg11, W11, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep12 {r : Ref sig .tc} (hr : r ∉ W12) : after (seg12 (F := Ideal)) Y (Proc.devRef .tc r) = Y (Proc.devRef .tc r) :=
  after_of_writes_sub (seg12 (F := Ideal)) Y (by
    simp only [seg12, W12, List.Forall, nullary_writes, unary_writes, binary_writes, ternary_writes, reshape_writes, nary_writes,
      Finset.singleton_subset_iff]
    repeat' apply And.intro
    all_goals exact List.mem_toFinset.mpr (List.mem_map_of_mem (by decide))) hr

set_option maxHeartbeats 8000000 in
theorem keep13 {r : Ref sig .tc} (hr : r ∉ W13) : after (seg13 (F := Ideal)) Y (Proc.devRef .tc r) = Y (Proc.devRef .tc r) :=
  after_of_writes_sub (seg13 (F := Ideal)) Y (by
    simp only [seg13, W13, List.Forall, nullary_writes, unary_writes, binary_writes, ternary_writes, reshape_writes, nary_writes,
      Finset.singleton_subset_iff]
    repeat' apply And.intro
    all_goals exact List.mem_toFinset.mpr (List.mem_map_of_mem (by decide))) hr

/-! ## Stretch 1: the extended edge rows, the degrees (functions of the edge table alone) -/
set_option maxHeartbeats 8000000 in
theorem s1_v3 : after (seg1 (F := Ideal)) Y (Proc.devRef .tc main_v3)
    = val_main_v3 (F := Ideal) (Y (Proc.devRef .tc main_arg1)) := by
  after_results_simp <;> rfl
set_option maxHeartbeats 8000000 in
theorem s1_v6 : after (seg1 (F := Ideal)) Y (Proc.devRef .tc main_v6)
    = val_main_v6 (F := Ideal) (Y (Proc.devRef .tc main_arg1)) := by
  after_results_simp <;> rfl
set_option maxHeartbeats 8000000 in
theorem s1_v12 : after (seg1 (F := Ideal)) Y (Proc.devRef .tc main_v12)
    = val_main_v12 (F := Ideal) (Y (Proc.devRef .tc main_arg1)) := by
  after_results_simp <;> rfl
set_option maxHeartbeats 8000000 in
theorem s1_v13 : after (seg1 (F := Ideal)) Y (Proc.devRef .tc main_v13)
    = val_main_v13 (F := Ideal) (Y (Proc.devRef .tc main_arg1)) := by
  after_results_simp <;> rfl
set_option maxHeartbeats 8000000 in
theorem s1_cst2 : after (seg1 (F := Ideal)) Y (Proc.devRef .tc main_cst_2)
    = val_main_cst_2 (F := Ideal) := by
  after_results_simp <;> rfl

/-! ## Stretch 2: the selection of the normalisers -/
set_option maxHeartbeats 8000000 in
theorem s2_v14 : after (seg2 (F := Ideal)) Y (Proc.devRef .tc main_v14)
    = select (Y (Proc.devRef .tc main_v12) : IVec S50000 1) (Y (Proc.devRef .tc main_v13) : FVec Ideal S50000 .f32)
        (broadcastInDim S50000 ![] bcast_S_S50000 (id (Y (Proc.devRef .tc main_cst_2) : FVec Ideal S_ .f32))) := by
  after_results_simp <;> rfl

/-! ## Stretch 3: the first product, the edge weights -/
set_option maxHeartbeats 8000000 in
theorem s3_v15 : after (seg3 (F := Ideal)) Y (Proc.devRef .tc main_v15)
    = val_main_v15 (F := Ideal) (Y (Proc.devRef .tc main_arg0)) (Y (Proc.devRef .tc main_arg3)) := by
  after_results_simp <;> rfl
set_option maxHeartbeats 8000000 in
theorem s3_v30 : after (seg3 (F := Ideal)) Y (Proc.devRef .tc main_v30)
    = nrmT (Y (Proc.devRef .tc main_v14)) (Y (Proc.devRef .tc main_v3)) (Y (Proc.devRef .tc main_v6)) := by
  after_results_simp <;> rfl

/-! ## Stretches 4 and 5: the first layer's aggregation, its clamp -/
set_option maxHeartbeats 8000000 in
theorem s4_v46 : after (seg4 (F := Ideal)) Y (Proc.devRef .tc main_v46)
    = aggT (Y (Proc.devRef .tc main_v15)) (Y (Proc.devRef .tc main_v3)) (Y (Proc.devRef .tc main_v6)) (Y (Proc.devRef .tc main_v30)) (Y (Proc.devRef .tc main_arg4)) := by
  after_results_simp <;> rfl
set_option maxHeartbeats 8000000 in
theorem s5_v47 : after (seg5 (F := Ideal)) Y (Proc.devRef .tc main_v47)
    = maximumf (Y (Proc.devRef .tc main_v46) : FVec Ideal S50000x64 .f32) (broadcastInDim S50000x64 ![] bcast_S_S50000x64 zero0) := by
  after_results_simp <;> rfl

/-! ## Stretches 6 and 7: the second layer's product, weights and aggregation, its clamp -/
set_option maxHeartbeats 8000000 in
theorem s6_v79 : after (seg6 (F := Ideal)) Y (Proc.devRef .tc main_v79)
    = aggT (Host.dotGeneral (F := Ideal) (φ₁ := .f32) (φ₂ := .f32) dot_S50000x64_S64x64_S50000x64_1_0_0_1_n_n none (Y (Proc.devRef .tc main_v47)) (Y (Proc.devRef .tc main_arg5))) (Y (Proc.devRef .tc main_v3)) (Y (Proc.devRef .tc main_v6))
        (nrmT (Y (Proc.devRef .tc main_v14)) (Y (Proc.devRef .tc main_v3)) (Y (Proc.devRef .tc main_v6))) (Y (Proc.devRef .tc main_arg6)) := by
  after_results_simp <;> rfl
set_option maxHeartbeats 8000000 in
theorem s7_v80 : after (seg7 (F := Ideal)) Y (Proc.devRef .tc main_v80)
    = maximumf (Y (Proc.devRef .tc main_v79) : FVec Ideal S50000x64 .f32) (broadcastInDim S50000x64 ![] bcast_S_S50000x64 zero0) := by
  after_results_simp <;> rfl

/-! ## Stretch 8: the final table read at the two endpoints of every given edge -/
set_option maxHeartbeats 8000000 in
theorem s8_v89 : after (seg8 (F := Ideal)) Y (Proc.devRef .tc main_v89)
    = Host.gather gather_S50000x64_S1600000x1_S1600000x64_1_0_n_n_0_1_164 (Y (Proc.devRef .tc main_v80)) (val_main_v88 (F := Ideal) (Y (Proc.devRef .tc main_arg1))) := by
  after_results_simp <;> rfl
set_option maxHeartbeats 8000000 in
theorem s8_v98 : after (seg8 (F := Ideal)) Y (Proc.devRef .tc main_v98)
    = Host.gather gather_S50000x64_S1600000x1_S1600000x64_1_0_n_n_0_1_164 (Y (Proc.devRef .tc main_v80)) (val_main_v97 (F := Ideal) (Y (Proc.devRef .tc main_arg1))) := by
  after_results_simp <;> rfl

/-! ## Stretches 9 to 13: the per-edge network, each clamp a stretch of its own -/
set_option maxHeartbeats 8000000 in
theorem s9_v103 : after (seg9 (F := Ideal)) Y (Proc.devRef .tc main_v103)
    = addf (F := Ideal) (φ := .f32)
        (Host.dotGeneral (F := Ideal) (φ₁ := .f32) (φ₂ := .f32) dot_S1600000x136_S136x128_S1600000x128_1_0_0_1_n_n none
          (concatenate S1600000x136 1 [⟨S1600000x64, (Y (Proc.devRef .tc main_v89))⟩, ⟨S1600000x64, (Y (Proc.devRef .tc main_v98))⟩, ⟨S1600000x8, (Y (Proc.devRef .tc main_arg2))⟩]
            concatenates_S1600000x64_S1600000x64_S1600000x8_S1600000x136_d1) (Y (Proc.devRef .tc main_arg7)))
        (broadcastInDim S1600000x128 ![0, 1] bcast_S1x128_S1600000x128_0_1 (broadcastInDim S1x128 ![1] bcast_S128_S1x128_1 (Y (Proc.devRef .tc main_arg8)))) := by
  after_results_simp <;> rfl
set_option maxHeartbeats 8000000 in
theorem s10_v104 : after (seg10 (F := Ideal)) Y (Proc.devRef .tc main_v104)
    = maximumf (Y (Proc.devRef .tc main_v103) : FVec Ideal S1600000x128 .f32) (broadcastInDim S1600000x128 ![] bcast_S_S1600000x128 zero0) := by
  after_results_simp <;> rfl
set_option maxHeartbeats 8000000 in
theorem s11_v108 : after (seg11 (F := Ideal)) Y (Proc.devRef .tc main_v108)
    = addf (F := Ideal) (φ := .f32) (Host.dotGeneral (F := Ideal) (φ₁ := .f32) (φ₂ := .f32) dot_S1600000x128_S128x64_S1600000x64_1_0_0_1_n_n none (Y (Proc.devRef .tc main_v104)) (Y (Proc.devRef .tc main_arg9)))
        (broadcastInDim S1600000x64 ![0, 1] bcast_S1x64_S1600000x64_0_1 (broadcastInDim S1x64 ![1] bcast_S64_S1x64_1 (Y (Proc.devRef .tc main_arg10)))) := by
  after_results_simp <;> rfl
set_option maxHeartbeats 8000000 in
theorem s12_v109 : after (seg12 (F := Ideal)) Y (Proc.devRef .tc main_v109)
    = maximumf (Y (Proc.devRef .tc main_v108) : FVec Ideal S1600000x64 .f32) (broadcastInDim S1600000x64 ![] bcast_S_S1600000x64 zero0) := by
  after_results_simp <;> rfl
set_option maxHeartbeats 8000000 in
theorem s13_v114 : after (seg13 (F := Ideal)) Y (Proc.devRef .tc main_v114)
    = shapeCast S1600000
        (addf (F := Ideal) (φ := .f32) (Host.dotGeneral (F := Ideal) (φ₁ := .f32) (φ₂ := .f32) dot_S1600000x64_S64x1_S1600000x1_1_0_0_1_n_n none (Y (Proc.devRef .tc main_v109)) (Y (Proc.devRef .tc main_arg11)))
          (broadcastInDim S1600000x1 ![0, 1] bcast_S1x1_S1600000x1_0_1 (broadcastInDim S1x1 ![1] bcast_S1_S1x1_1 (Y (Proc.devRef .tc main_arg12)))))
        shapeCasts_S1600000x1_S1600000 := by
  after_results_simp <;> rfl

end Stretches

end Cert.RefRun

end
-- ==== Proof.RefRun.lean ====
/-
  The reference's run, read through its stage functions.

  Every weakly fair execution of the reference's @main terminates; its result buffer then holds the last stage
  function applied to the launch contents of the thirteen arguments, and the arguments are unchanged. The buffer
  contents are followed stretch by stretch: a stretch's lemma says what a buffer holds after it from what the stretch
  found, what it found is what the stretches before it left, and each composed term is the stage function by
  unfolding that stage's definitions.
-/
import proofs.«176707_j76776835383553_2_alg».proof.Proof.RefRunStages

set_option maxRecDepth 16384

noncomputable section

namespace Cert.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

section Chain
variable (V0 : Valuation τ sig (Elt Ideal))

/-! ## A buffer no stretch so far writes still holds its launch contents -/

theorem k1 {r : Ref sig .tc} (h1 : r ∉ W1) : (after (seg1 (F := Ideal)) V0) (Proc.devRef .tc r) = V0 (Proc.devRef .tc r) :=
  keep1 V0 h1
theorem k2 {r : Ref sig .tc} (h1 : r ∉ W1) (h2 : r ∉ W2) :
    (after (seg2 (F := Ideal)) (after (seg1 (F := Ideal)) V0)) (Proc.devRef .tc r) = V0 (Proc.devRef .tc r) :=
  (keep2 _ h2).trans (k1 V0 h1)
theorem k3 {r : Ref sig .tc} (h1 : r ∉ W1) (h2 : r ∉ W2) (h3 : r ∉ W3) :
    (after (seg3 (F := Ideal)) (after (seg2 (F := Ideal)) (after (seg1 (F := Ideal)) V0))) (Proc.devRef .tc r) = V0 (Proc.devRef .tc r) :=
  (keep3 _ h3).trans (k2 V0 h1 h2)
theorem k4 {r : Ref sig .tc} (h1 : r ∉ W1) (h2 : r ∉ W2) (h3 : r ∉ W3) (h4 : r ∉ W4) :
    (after (seg4 (F := Ideal)) (after (seg3 (F := Ideal)) (after (seg2 (F := Ideal)) (after (seg1 (F := Ideal)) V0)))) (Proc.devRef .tc r) = V0 (Proc.devRef .tc r) :=
  (keep4 _ h4).trans (k3 V0 h1 h2 h3)
theorem k5 {r : Ref sig .tc} (h1 : r ∉ W1) (h2 : r ∉ W2) (h3 : r ∉ W3) (h4 : r ∉ W4) (h5 : r ∉ W5) :
    (after (seg5 (F := Ideal)) (after (seg4 (F := Ideal)) (after (seg3 (F := Ideal)) (after (seg2 (F := Ideal)) (after (seg1 (F := Ideal)) V0))))) (Proc.devRef .tc r) = V0 (Proc.devRef .tc r) :=
  (keep5 _ h5).trans (k4 V0 h1 h2 h3 h4)
theorem k6 {r : Ref sig .tc} (h1 : r ∉ W1) (h2 : r ∉ W2) (h3 : r ∉ W3) (h4 : r ∉ W4) (h5 : r ∉ W5) (h6 : r ∉ W6) :
    (after (seg6 (F := Ideal)) (after (seg5 (F := Ideal)) (after (seg4 (F := Ideal)) (after (seg3 (F := Ideal)) (after (seg2 (F := Ideal)) (after (seg1 (F := Ideal)) V0)))))) (Proc.devRef .tc r) = V0 (Proc.devRef .tc r) :=
  (keep6 _ h6).trans (k5 V0 h1 h2 h3 h4 h5)
theorem k7 {r : Ref sig .tc} (h1 : r ∉ W1) (h2 : r ∉ W2) (h3 : r ∉ W3) (h4 : r ∉ W4) (h5 : r ∉ W5) (h6 : r ∉ W6) (h7 : r ∉ W7) :
    (after (seg7 (F := Ideal)) (after (seg6 (F := Ideal)) (after (seg5 (F := Ideal)) (after (seg4 (F := Ideal)) (after (seg3 (F := Ideal)) (after (seg2 (F := Ideal)) (after (seg1 (F := Ideal)) V0))))))) (Proc.devRef .tc r) = V0 (Proc.devRef .tc r) :=
  (keep7 _ h7).trans (k6 V0 h1 h2 h3 h4 h5 h6)
theorem k8 {r : Ref sig .tc} (h1 : r ∉ W1) (h2 : r ∉ W2) (h3 : r ∉ W3) (h4 : r ∉ W4) (h5 : r ∉ W5) (h6 : r ∉ W6) (h7 : r ∉ W7) (h8 : r ∉ W8) :
    (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))) (Proc.devRef .tc r) = V0 (Proc.devRef .tc r) :=
  (keep8 _ h8).trans (k7 V0 h1 h2 h3 h4 h5 h6 h7)
theorem k9 {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) :
    (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))) (Proc.devRef .tc r) = V0 (Proc.devRef .tc r) :=
  (keep9 _ h9).trans (k8 V0 h1 h2 h3 h4 h5 h6 h7 h8)
theorem k10 {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))))) (Proc.devRef .tc r) = V0 (Proc.devRef .tc r) :=
  (keep10 _ h10).trans (k9 V0 h1 h2 h3 h4 h5 h6 h7 h8 h9)
theorem k11 {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) :
    (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))))) (Proc.devRef .tc r) = V0 (Proc.devRef .tc r) :=
  (keep11 _ h11).trans (k10 V0 h1 h2 h3 h4 h5 h6 h7 h8 h9 h10)
theorem k12 {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) :
    (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))))))) (Proc.devRef .tc r) = V0 (Proc.devRef .tc r) :=
  (keep12 _ h12).trans (k11 V0 h1 h2 h3 h4 h5 h6 h7 h8 h9 h10 h11)
theorem k13 {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) :
    (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))))))) (Proc.devRef .tc r) = V0 (Proc.devRef .tc r) :=
  (keep13 _ h13).trans (k12 V0 h1 h2 h3 h4 h5 h6 h7 h8 h9 h10 h11 h12)

/-! ## After stretch 1 -/

theorem c1_v3 : (after (seg1 (F := Ideal)) V0) (Proc.devRef .tc main_v3)
    = val_main_v3 (F := Ideal) (V0 (Proc.devRef .tc main_arg1)) := s1_v3 V0
theorem c1_v6 : (after (seg1 (F := Ideal)) V0) (Proc.devRef .tc main_v6)
    = val_main_v6 (F := Ideal) (V0 (Proc.devRef .tc main_arg1)) := s1_v6 V0
theorem c1_v12 : (after (seg1 (F := Ideal)) V0) (Proc.devRef .tc main_v12)
    = val_main_v12 (F := Ideal) (V0 (Proc.devRef .tc main_arg1)) := s1_v12 V0
theorem c1_v13 : (after (seg1 (F := Ideal)) V0) (Proc.devRef .tc main_v13)
    = val_main_v13 (F := Ideal) (V0 (Proc.devRef .tc main_arg1)) := s1_v13 V0
theorem c1_cst2 : (after (seg1 (F := Ideal)) V0) (Proc.devRef .tc main_cst_2)
    = val_main_cst_2 (F := Ideal) := s1_cst2 V0

/-! ## After stretch 2: the normalisers -/

theorem c2_v14 : (after (seg2 (F := Ideal)) (after (seg1 (F := Ideal)) V0)) (Proc.devRef .tc main_v14)
    = val_main_v14 (F := Ideal) (V0 (Proc.devRef .tc main_arg1)) := by
  rw [s2_v14, c1_v12, c1_v13, c1_cst2]
  rfl
theorem c2_v3 : (after (seg2 (F := Ideal)) (after (seg1 (F := Ideal)) V0)) (Proc.devRef .tc main_v3)
    = val_main_v3 (F := Ideal) (V0 (Proc.devRef .tc main_arg1)) :=
  (keep2 _ (by decide)).trans (c1_v3 V0)
theorem c3_v3 : (after (seg3 (F := Ideal)) (after (seg2 (F := Ideal)) (after (seg1 (F := Ideal)) V0))) (Proc.devRef .tc main_v3)
    = val_main_v3 (F := Ideal) (V0 (Proc.devRef .tc main_arg1)) :=
  (keep3 _ (by decide)).trans (c2_v3 V0)
theorem c4_v3 : (after (seg4 (F := Ideal)) (after (seg3 (F := Ideal)) (after (seg2 (F := Ideal)) (after (seg1 (F := Ideal)) V0)))) (Proc.devRef .tc main_v3)
    = val_main_v3 (F := Ideal) (V0 (Proc.devRef .tc main_arg1)) :=
  (keep4 _ (by decide)).trans (c3_v3 V0)
theorem c5_v3 : (after (seg5 (F := Ideal)) (after (seg4 (F := Ideal)) (after (seg3 (F := Ideal)) (after (seg2 (F := Ideal)) (after (seg1 (F := Ideal)) V0))))) (Proc.devRef .tc main_v3)
    = val_main_v3 (F := Ideal) (V0 (Proc.devRef .tc main_arg1)) :=
  (keep5 _ (by decide)).trans (c4_v3 V0)
theorem c2_v6 : (after (seg2 (F := Ideal)) (after (seg1 (F := Ideal)) V0)) (Proc.devRef .tc main_v6)
    = val_main_v6 (F := Ideal) (V0 (Proc.devRef .tc main_arg1)) :=
  (keep2 _ (by decide)).trans (c1_v6 V0)
theorem c3_v6 : (after (seg3 (F := Ideal)) (after (seg2 (F := Ideal)) (after (seg1 (F := Ideal)) V0))) (Proc.devRef .tc main_v6)
    = val_main_v6 (F := Ideal) (V0 (Proc.devRef .tc main_arg1)) :=
  (keep3 _ (by decide)).trans (c2_v6 V0)
theorem c4_v6 : (after (seg4 (F := Ideal)) (after (seg3 (F := Ideal)) (after (seg2 (F := Ideal)) (after (seg1 (F := Ideal)) V0)))) (Proc.devRef .tc main_v6)
    = val_main_v6 (F := Ideal) (V0 (Proc.devRef .tc main_arg1)) :=
  (keep4 _ (by decide)).trans (c3_v6 V0)
theorem c5_v6 : (after (seg5 (F := Ideal)) (after (seg4 (F := Ideal)) (after (seg3 (F := Ideal)) (after (seg2 (F := Ideal)) (after (seg1 (F := Ideal)) V0))))) (Proc.devRef .tc main_v6)
    = val_main_v6 (F := Ideal) (V0 (Proc.devRef .tc main_arg1)) :=
  (keep5 _ (by decide)).trans (c4_v6 V0)
theorem c3_v14 : (after (seg3 (F := Ideal)) (after (seg2 (F := Ideal)) (after (seg1 (F := Ideal)) V0))) (Proc.devRef .tc main_v14)
    = val_main_v14 (F := Ideal) (V0 (Proc.devRef .tc main_arg1)) :=
  (keep3 _ (by decide)).trans (c2_v14 V0)
theorem c4_v14 : (after (seg4 (F := Ideal)) (after (seg3 (F := Ideal)) (after (seg2 (F := Ideal)) (after (seg1 (F := Ideal)) V0)))) (Proc.devRef .tc main_v14)
    = val_main_v14 (F := Ideal) (V0 (Proc.devRef .tc main_arg1)) :=
  (keep4 _ (by decide)).trans (c3_v14 V0)
theorem c5_v14 : (after (seg5 (F := Ideal)) (after (seg4 (F := Ideal)) (after (seg3 (F := Ideal)) (after (seg2 (F := Ideal)) (after (seg1 (F := Ideal)) V0))))) (Proc.devRef .tc main_v14)
    = val_main_v14 (F := Ideal) (V0 (Proc.devRef .tc main_arg1)) :=
  (keep5 _ (by decide)).trans (c4_v14 V0)

/-! ## After stretch 3: the first product, the edge weights -/

theorem c3_v15 : (after (seg3 (F := Ideal)) (after (seg2 (F := Ideal)) (after (seg1 (F := Ideal)) V0))) (Proc.devRef .tc main_v15)
    = val_main_v15 (F := Ideal) (V0 (Proc.devRef .tc main_arg0)) (V0 (Proc.devRef .tc main_arg3)) := by
  rw [s3_v15, k2 V0 (r := main_arg0) (by decide) (by decide), k2 V0 (r := main_arg3) (by decide) (by decide)]
theorem c3_v30 : (after (seg3 (F := Ideal)) (after (seg2 (F := Ideal)) (after (seg1 (F := Ideal)) V0))) (Proc.devRef .tc main_v30)
    = val_main_v30 (F := Ideal) (V0 (Proc.devRef .tc main_arg1)) := by
  rw [s3_v30, c2_v14, c2_v3, c2_v6]
  rfl

/-! ## After stretches 4 and 5: the first layer -/

theorem c4_v46 : (after (seg4 (F := Ideal)) (after (seg3 (F := Ideal)) (after (seg2 (F := Ideal)) (after (seg1 (F := Ideal)) V0)))) (Proc.devRef .tc main_v46)
    = val_main_v46 (F := Ideal) (V0 (Proc.devRef .tc main_arg0)) (V0 (Proc.devRef .tc main_arg1)) (V0 (Proc.devRef .tc main_arg3)) (V0 (Proc.devRef .tc main_arg4)) := by
  rw [s4_v46, c3_v15, c3_v3, c3_v6, c3_v30, k3 V0 (r := main_arg4) (by decide) (by decide) (by decide)]
  rfl
theorem c5_v47 : (after (seg5 (F := Ideal)) (after (seg4 (F := Ideal)) (after (seg3 (F := Ideal)) (after (seg2 (F := Ideal)) (after (seg1 (F := Ideal)) V0))))) (Proc.devRef .tc main_v47)
    = val_main_v47 (F := Ideal) (V0 (Proc.devRef .tc main_arg0)) (V0 (Proc.devRef .tc main_arg1)) (V0 (Proc.devRef .tc main_arg3)) (V0 (Proc.devRef .tc main_arg4)) := by
  rw [s5_v47, c4_v46]
  rfl

/-! ## After stretches 6 and 7: the second layer -/

theorem c6_v79 : (after (seg6 (F := Ideal)) (after (seg5 (F := Ideal)) (after (seg4 (F := Ideal)) (after (seg3 (F := Ideal)) (after (seg2 (F := Ideal)) (after (seg1 (F := Ideal)) V0)))))) (Proc.devRef .tc main_v79)
    = val_main_v79 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [s6_v79, c5_v47, c5_v3, c5_v6, c5_v14, k5 V0 (r := main_arg5) (by decide) (by decide) (by decide) (by decide) (by decide), k5 V0 (r := main_arg6) (by decide) (by decide) (by decide) (by decide) (by decide)]
  rfl
theorem c7_v80 : (after (seg7 (F := Ideal)) (after (seg6 (F := Ideal)) (after (seg5 (F := Ideal)) (after (seg4 (F := Ideal)) (after (seg3 (F := Ideal)) (after (seg2 (F := Ideal)) (after (seg1 (F := Ideal)) V0))))))) (Proc.devRef .tc main_v80)
    = val_main_v80 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [s7_v80, c6_v79]
  rfl

/-! ## After stretch 8: the two endpoint reads -/

theorem c8_v89 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))) (Proc.devRef .tc main_v89)
    = val_main_v89 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [s8_v89, c7_v80, k7 V0 (r := main_arg1) (by decide) (by decide) (by decide) (by decide) (by decide) (by decide) (by decide)]
  rfl
theorem c8_v98 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))) (Proc.devRef .tc main_v98)
    = val_main_v98 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [s8_v98, c7_v80, k7 V0 (r := main_arg1) (by decide) (by decide) (by decide) (by decide) (by decide) (by decide) (by decide)]
  rfl

/-! ## After stretches 9 to 13: the per-edge network -/

theorem c9_v103 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))) (Proc.devRef .tc main_v103)
    = val_main_v103 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [s9_v103, c8_v89, c8_v98, k8 V0 (r := main_arg2) (by decide) (by decide) (by decide) (by decide) (by decide) (by decide) (by decide) (by decide), k8 V0 (r := main_arg7) (by decide) (by decide) (by decide) (by decide) (by decide) (by decide) (by decide) (by decide), k8 V0 (r := main_arg8) (by decide) (by decide) (by decide) (by decide) (by decide) (by decide) (by decide) (by decide)]
  rfl
theorem c10_v104 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))))) (Proc.devRef .tc main_v104)
    = val_main_v104 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [s10_v104, c9_v103]
  rfl
theorem c11_v108 : (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))))) (Proc.devRef .tc main_v108)
    = val_main_v108 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [s11_v108, c10_v104, k10 V0 (r := main_arg9) (by decide) (by decide) (by decide) (by decide) (by decide) (by decide) (by decide) (by decide) (by decide) (by decide), k10 V0 (r := main_arg10) (by decide) (by decide) (by decide) (by decide) (by decide) (by decide) (by decide) (by decide) (by decide) (by decide)]
  rfl
theorem c12_v109 : (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0)))))))))))) (Proc.devRef .tc main_v109)
    = val_main_v109 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [s12_v109, c11_v108]
  rfl
theorem c13_v114 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) V0))))))))))))) (Proc.devRef .tc main_v114)
    = val_main_v114 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [s13_v114, c12_v109, k12 V0 (r := main_arg11) (by decide) (by decide) (by decide) (by decide) (by decide) (by decide) (by decide) (by decide) (by decide) (by decide) (by decide) (by decide), k12 V0 (r := main_arg12) (by decide) (by decide) (by decide) (by decide) (by decide) (by decide) (by decide) (by decide) (by decide) (by decide) (by decide) (by decide)]
  rfl

/-- The result buffer after all 147 operations is the last stage function of the arguments' launch contents. -/
theorem result_eq : after (ops (F := Ideal)) V0 (Proc.devRef .tc main_v114)
    = val_main_v114 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [ops_eq, after_append, after_append, after_append, after_append, after_append, after_append, after_append, after_append, after_append, after_append, after_append, after_append]
  exact c13_v114 V0

/-- A buffer none of the 147 operations writes holds its launch contents at the end. -/
theorem kept_eq {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) :
    after (ops (F := Ideal)) V0 (Proc.devRef .tc r) = V0 (Proc.devRef .tc r) := by
  rw [ops_eq, after_append, after_append, after_append, after_append, after_append, after_append, after_append, after_append, after_append, after_append, after_append, after_append]
  exact k13 V0 h1 h2 h3 h4 h5 h6 h7 h8 h9 h10 h11 h12 h13

end Chain

/-! ## The run -/

/-- On every device, from any memory with zero counters: every weakly fair execution of the reference's @main
    terminates with the result buffer at the last stage function of the arguments' launch contents and the
    arguments unchanged. -/
theorem run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v114)
        = val_main_v114 (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v114).trans (result_eq (launchContents m c)),
      (h c main_arg0).trans (kept_eq (launchContents m c) (by decide) (by decide) (by decide) (by decide) (by decide) (by decide) (by decide) (by decide) (by decide) (by decide) (by decide) (by decide) (by decide)),
      (h c main_arg1).trans (kept_eq (launchContents m c) (by decide) (by decide) (by decide) (by decide) (by decide) (by decide) (by decide) (by decide) (by decide) (by decide) (by decide) (by decide) (by decide)),
      (h c main_arg2).trans (kept_eq (launchContents m c) (by decide) (by decide) (by decide) (by decide) (by decide) (by decide) (by decide) (by decide) (by decide) (by decide) (by decide) (by decide) (by decide)),
      (h c main_arg3).trans (kept_eq (launchContents m c) (by decide) (by decide) (by decide) (by decide) (by decide) (by decide) (by decide) (by decide) (by decide) (by decide) (by decide) (by decide) (by decide)),
      (h c main_arg4).trans (kept_eq (launchContents m c) (by decide) (by decide) (by decide) (by decide) (by decide) (by decide) (by decide) (by decide) (by decide) (by decide) (by decide) (by decide) (by decide)),
      (h c main_arg5).trans (kept_eq (launchContents m c) (by decide) (by decide) (by decide) (by decide) (by decide) (by decide) (by decide) (by decide) (by decide) (by decide) (by decide) (by decide) (by decide)),
      (h c main_arg6).trans (kept_eq (launchContents m c) (by decide) (by decide) (by decide) (by decide) (by decide) (by decide) (by decide) (by decide) (by decide) (by decide) (by decide) (by decide) (by decide)),
      (h c main_arg7).trans (kept_eq (launchContents m c) (by decide) (by decide) (by decide) (by decide) (by decide) (by decide) (by decide) (by decide) (by decide) (by decide) (by decide) (by decide) (by decide)),
      (h c main_arg8).trans (kept_eq (launchContents m c) (by decide) (by decide) (by decide) (by decide) (by decide) (by decide) (by decide) (by decide) (by decide) (by decide) (by decide) (by decide) (by decide)),
      (h c main_arg9).trans (kept_eq (launchContents m c) (by decide) (by decide) (by decide) (by decide) (by decide) (by decide) (by decide) (by decide) (by decide) (by decide) (by decide) (by decide) (by decide)),
      (h c main_arg10).trans (kept_eq (launchContents m c) (by decide) (by decide) (by decide) (by decide) (by decide) (by decide) (by decide) (by decide) (by decide) (by decide) (by decide) (by decide) (by decide)),
      (h c main_arg11).trans (kept_eq (launchContents m c) (by decide) (by decide) (by decide) (by decide) (by decide) (by decide) (by decide) (by decide) (by decide) (by decide) (by decide) (by decide) (by decide)),
      (h c main_arg12).trans (kept_eq (launchContents m c) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.RefRun

end
-- ==== Proof.Finite.lean ====
/-
  From the certificate's precondition to "every entry is a real number".

  The precondition says, of each float argument `x`, that every entry satisfies `|x| < +∞`, where `|x|` is
  `max(x, -x)` on the extended reals; the twelve statements are joined by "and" into one truth value, which the
  precondition sets to true. An extended real with `max(x, -x) < +∞` is neither `+∞` nor `-∞` (for `x = -∞` the
  maximum is `+∞`), hence a real number. So every entry of every float argument is real; this file states it for the
  node features and the two node layers' first weights and biases.
-/
import proofs.«176707_j76776835383553_2_alg».proof.Defs
import proofs.«176707_j76776835383553_2_alg».proof.Proof.LibRealSum
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Idealize.SL.Sem Cert.RealSum

/-- The shape with no axes has exactly one index. -/
instance subsingleton_idx0 : Subsingleton (⟨0, ![]⟩ : Shape).Idx := ⟨fun a b => funext fun d => d.elim0⟩

/-- An extended real whose absolute value `max(x, -x)` is below `+∞` is a real number: at `x = +∞` and at
    `x = -∞` that maximum is `+∞`. -/
theorem isReal_of_abs_lt_top {x : EReal} (h : max x (-x) < ⊤) : IsReal x := by
  refine isReal_of_ne_top_of_ne_bot ?_ ?_
  · rintro rfl; simp at h
  · rintro rfl; simp at h

/-- ONE CONJUNCT, for an array of any shape: if "every entry of `|x|` is below `+∞`", computed as the reduction by
    "and" of the entrywise comparison from the initial value true, is true, then every entry of `x` is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have h1 := Host.reduce_andi_all _ _ hr hu ix0 e i
  -- the bound every entry is compared with is `+∞`
  have hc : broadcastInDim s ![] hb (constant (F := Ideal) ⟨0, ![]⟩ .f32 0x7F800000#32) i = (⊤ : EReal) := by
    rw [broadcastInDim_apply ![] hb _ i ix0 (fun a => a.elim0)]
    show Ideal.ofBits .f32 0x7F800000#32 = ⊤
    simp [Ideal.ofBits, Ideal.ieee]
  rw [cmpf_apply, hc] at h1
  refine isReal_of_abs_lt_top ?_
  by_contra hn
  have h0 : Ideal.cmp .olt (max (x i) (-(x i))) ⊤ = 0#1 := by
    show BitVec.ofBool (decide (max (x i) (-(x i)) < ⊤)) = 0#1
    rw [decide_eq_false hn]; rfl
  have h1' : Ideal.cmp .olt (max (x i) (-(x i))) ⊤ = 1#1 := h1
  rw [h0] at h1'
  exact absurd h1' (by decide)

variable [Cert.Pre_finite_inputs.Facts]

open Cert.Pre_finite_inputs in
/-- THE DECODING, once, over any thirteen arguments: if the printed predicate is true then every entry of its first,
    fourth, fifth and sixth argument is a real number. The predicate is a chain of "and"s, one conjunct per float
    argument; the chain is peeled from its last conjunct back to the ones wanted. -/
theorem fn_real (a0 : FVec Ideal S50000x16 .f32) (a1 : IVec S2x1600000 32) (a2 : FVec Ideal S1600000x8 .f32)
    (a3 : FVec Ideal S16x64 .f32) (a4 : FVec Ideal S64 .f32) (a5 : FVec Ideal S64x64 .f32) (a6 : FVec Ideal S64 .f32)
    (a7 : FVec Ideal S136x128 .f32) (a8 : FVec Ideal S128 .f32) (a9 : FVec Ideal S128x64 .f32)
    (a10 : FVec Ideal S64 .f32) (a11 : FVec Ideal S64x1 .f32) (a12 : FVec Ideal S1 .f32)
    (h : fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) := by
  have h0 := congrFun h ix0
  dsimp only [fn, fn_part1, fn_part2, fn_part3] at h0
  -- drop the conjuncts of the thirteenth back to the seventh argument
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- keep the sixth, fifth and fourth arguments' conjuncts, drop the third's, keep the first's
  obtain ⟨h0, e5⟩ := IntOp.andi_eq_one.1 h0
  obtain ⟨h0, e4⟩ := IntOp.andi_eq_one.1 h0
  obtain ⟨h0, e3⟩ := IntOp.andi_eq_one.1 h0
  obtain ⟨e0, -⟩ := IntOp.andi_eq_one.1 h0
  exact ⟨real_of_all a0 _ _ _ e0, real_of_all a3 _ _ _ e3, real_of_all a4 _ _ _ e4, real_of_all a5 _ _ _ e5⟩

/-- Every entry of the node features is a real number. -/
theorem real_arg0 (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg0) : (⟨2, ![50000, 16]⟩ : Shape).Idx → EReal) i) :=
  (fn_real _ _ _ _ _ _ _ _ _ _ _ _ _ (h c)).1

/-- Every entry of the first node layer's weight matrix is a real number. -/
theorem real_arg3 (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg3) : (⟨2, ![16, 64]⟩ : Shape).Idx → EReal) i) :=
  (fn_real _ _ _ _ _ _ _ _ _ _ _ _ _ (h c)).2.1

/-- Every entry of the first node layer's bias vector is a real number. -/
theorem real_arg4 (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg4) : (⟨1, ![64]⟩ : Shape).Idx → EReal) i) :=
  (fn_real _ _ _ _ _ _ _ _ _ _ _ _ _ (h c)).2.2.1

/-- Every entry of the second node layer's weight matrix is a real number. -/
theorem real_arg5 (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg5) : (⟨2, ![64, 64]⟩ : Shape).Idx → EReal) i) :=
  (fn_real _ _ _ _ _ _ _ _ _ _ _ _ _ (h c)).2.2.2

end Cert.Finite

end
-- ==== Proof.lean ====
/-
  The certificate: a graph network's per-edge scores, computed by three kernel launches among host operations, against
  the plain reference, on the extended reals.

  Both programs extend the 1600000 given edges by one self-loop per node, count degrees, weigh each edge by the product
  of its endpoints' normalisers (`1/√deg` where the degree is positive, zero elsewhere), apply two graph layers
  `max(A·H·W + b, 0)` with `A` the weighted adjacency, read the result at every given edge's two endpoints, append the
  edge's attributes and apply a dense network 136 → 128 → 64 → 1.

  They differ in three ways, none of which changes the value at the ideal instance:
  * each graph layer: the reference multiplies by `W` and then sums the weighted messages over the edges, the kernel
    sums the weighted raw features on the host and multiplies by `W` in a launch. The two double sums agree when every
    entry is a real number — on the extended reals a product with an infinity does not distribute over a sum, so this
    is where the precondition (every float input finite) is used; the edge weights are real whatever the edge table
    holds, and the first layer's output is real because its inputs are;
  * the dense network's first product: the kernel splits it into three products over the 64 + 64 + 8 inputs, a
    regrouping of one finite sum;
  * the kernel pads the edges to 196 blocks of 8192 rows with zeros and drops the padded scores again; its changes of
    float format are the identity on the extended reals.

  The three frames: the two kernels' from their launch structure (fifteen segments, three launches), the reference's
  from its run with the result dropped. No operation was rewritten when the kernel was idealized, so `preserves` has
  nothing to state.
-/
import proofs.«176707_j76776835383553_2_alg».proof.Defs
import proofs.«176707_j76776835383553_2_alg».proof.Proof.Gen.Kernel
import proofs.«176707_j76776835383553_2_alg».proof.Proof.Gen.Kernel.Frame
import proofs.«176707_j76776835383553_2_alg».proof.Proof.Gen.KernelIdeal
import proofs.«176707_j76776835383553_2_alg».proof.Proof.Gen.KernelIdeal.Frame
import proofs.«176707_j76776835383553_2_alg».proof.Proof.Gen.ReferenceIdeal
import proofs.«176707_j76776835383553_2_alg».proof.Proof.Gen.Pre_finite_inputs
import proofs.«176707_j76776835383553_2_alg».proof.Proof.KernelValue
import proofs.«176707_j76776835383553_2_alg».proof.Proof.RefValue
import proofs.«176707_j76776835383553_2_alg».proof.Proof.RefRun
import proofs.«176707_j76776835383553_2_alg».proof.Proof.Finite
import Idealize.ShloMosaic.Adequacy
import Idealize.ShloMosaic.Init

set_option maxRecDepth 16384

noncomputable section

namespace Cert.Proof

open Idealize.ShloMosaic Idealize.SL.Sem

/-- The word-level kernel runs and leaves its arguments. -/
theorem frame_k : Cert.frame_Kernel := fun m ρ _ => Cert.Kernel.Gen.frame m ρ

/-- The idealized kernel runs and leaves its arguments. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.RefRun.run m ρ)

/-- From memories agreeing on the arguments, of which the kernel's holds finite floats only, both programs end with the
    same scores: the kernel's run ends at the product-first scores of its arguments (finiteness makes its two layers'
    order immaterial), the reference's run ends at its last stage, which is that function of its own arguments. -/
theorem algebraic : Cert.algebraic_KernelIdeal_ReferenceIdeal := by
  intro m ρ m' ρ' hpre hagree
  refine ⟨fun c => Cert.KernelIdeal.Value.scoreMatmulFirst m c,
    Cert.KernelIdeal.Value.run m ρ (fun c => Cert.Finite.real_arg0 m hpre c) (fun c => Cert.Finite.real_arg3 m hpre c)
      (fun c => Cert.Finite.real_arg4 m hpre c) (fun c => Cert.Finite.real_arg5 m hpre c), ?_⟩
  refine (θ_run Cert.ReferenceIdeal.defs _ _).mono (fun _ h c => ⟨(h c).1.trans ?_, (h c).2⟩) (Cert.RefRun.run m' ρ')
  obtain ⟨a0, a1, a2, a3, a4, a5, a6, a7, a8, a9, a10, a11, a12⟩ := hagree c
  rw [Cert.RefValue.ref_is_score, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
